-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S170000x128 : Shape := ⟨2, ![170000, 128]⟩
abbrev S2x1200000 : Shape := ⟨2, ![2, 1200000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S170000x128 : S_.BroadcastsInDim S170000x128 (![] : Fin 0 → Fin S170000x128.rank)
  reducesTo_S170000x128_S_d0_1 : S170000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x40 .f32) (main_arg11 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S170000x128 .f32) (main_arg1 : IVec S2x1200000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x40 .f32) (main_arg11 : FVec F S40 .f32) : IVec S_ 1 :=
  let main_v0 : FVec F S170000x128 .f32 := Host.absf main_arg0
  let main_cst : FVec F S_ .f32 := constant S_ .f32 0x7F800000#32
  let main_v1 : FVec F S170000x128 .f32 := broadcastInDim S170000x128 ![] bcast_S_S170000x128 main_cst
  let main_v2 : IVec S170000x128 1 := cmpf .olt main_v0 main_v1
  let main_c : IVec S_ 1 := constantI S_ 1 1#1
  let main_v3 : IVec S_ 1 := (fun x v => Host.reduce IntOp.andi x v reducesTo_S170000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S170000x128 : Shape := ⟨2, ![170000, 128]⟩
abbrev S2x1200000 : Shape := ⟨2, ![2, 1200000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S10000x128 : Shape := ⟨2, ![10000, 128]⟩
abbrev S1370000x128 : Shape := ⟨2, ![1370000, 128]⟩
abbrev S1x128 : Shape := ⟨2, ![1, 128]⟩
abbrev S170000x40 : Shape := ⟨2, ![170000, 40]⟩
abbrev S10000x40 : Shape := ⟨2, ![10000, 40]⟩
abbrev S1370000x40 : Shape := ⟨2, ![1370000, 40]⟩
abbrev S1x40 : Shape := ⟨2, ![1, 40]⟩

abbrev nBuf : Space → Nat
  | .hbm => 144
  | .vmem => 43
  | .smem => 0
  | _ => 0

abbrev hbmTy0_0 (i : Nat) : BufTy := match i % 128 with
  | 0 => ⟨S170000x128, .f32⟩
  | 1 => ⟨S2x1200000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S170000, .i32⟩
  | 13 => ⟨S1x1200000, .i32⟩
  | 14 => ⟨S1200000, .i32⟩
  | 15 => ⟨S1370000, .i32⟩
  | 16 => ⟨S1x1200000, .i32⟩
  | 17 => ⟨S1200000, .i32⟩
  | 18 => ⟨S1370000, .i32⟩
  | 19 => ⟨S_, .f32⟩
  | 20 => ⟨S1370000, .f32⟩
  | 21 => ⟨S_, .f32⟩
  | 22 => ⟨S170000, .f32⟩
  | 23 => ⟨S1370000x1, .i32⟩
  | 24 => ⟨S170000, .f32⟩
  | 25 => ⟨S_, .f32⟩
  | 26 => ⟨S170000, .f32⟩
  | 27 => ⟨S170000, .i1⟩
  | 28 => ⟨S170000, .f32⟩
  | 29 => ⟨S_, .f32⟩
  | 30 => ⟨S_, .f32⟩
  | 31 => ⟨S170000, .f32⟩
  | 32 => ⟨S170000, .f32⟩
  | 33 => ⟨S_, .i32⟩
  | 34 => ⟨S1370000, .i32⟩
  | 35 => ⟨S1370000, .i1⟩
  | 36 => ⟨S_, .i32⟩
  | 37 => ⟨S1370000, .i32⟩
  | 38 => ⟨S1370000, .i32⟩
  | 39 => ⟨S1370000, .i32⟩
  | 40 => ⟨S1370000x1, .i32⟩
  | 41 => ⟨S1370000, .f32⟩
  | 42 => ⟨S_, .i32⟩
  | 43 => ⟨S1370000, .i32⟩
  | 44 => ⟨S1370000, .i1⟩
  | 45 => ⟨S_, .i32⟩
  | 46 => ⟨S1370000, .i32⟩
  | 47 => ⟨S1370000, .i32⟩
  | 48 => ⟨S1370000, .i32⟩
  | 49 => ⟨S1370000x1, .i32⟩
  | 50 => ⟨S1370000, .f32⟩
  | 51 => ⟨S1370000, .f32⟩
  | 52 => ⟨S170000x128, .f32⟩
  | 53 => ⟨S_, .i32⟩
  | 54 => ⟨S1370000, .i32⟩
  | 55 => ⟨S1370000, .i1⟩
  | 56 => ⟨S_, .i32⟩
  | 57 => ⟨S1370000, .i32⟩
  | 58 => ⟨S1370000, .i32⟩
  | 59 => ⟨S1370000, .i32⟩
  | 60 => ⟨S1370000x1, .i32⟩
  | 61 => ⟨S1370000x128, .f32⟩
  | 62 => ⟨S1370000x1, .f32⟩
  | 63 => ⟨S1370000x128, .f32⟩
  | 64 => ⟨S1370000x128, .f32⟩
  | 65 => ⟨S_, .f32⟩
  | 66 => ⟨S170000x128, .f32⟩
  | 67 => ⟨S1370000x1, .i32⟩
  | 68 => ⟨S170000x128, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S170000x128, .f32⟩
  | 88 => ⟨S170000x128, .f32⟩
  | 89 => ⟨S_, .i32⟩
  | 90 => ⟨S1370000, .i32⟩
  | 91 => ⟨S1370000, .i1⟩
  | 92 => ⟨S_, .i32⟩
  | 93 => ⟨S1370000, .i32⟩
  | 94 => ⟨S1370000, .i32⟩
  | 95 => ⟨S1370000, .i32⟩
  | 96 => ⟨S1370000x1, .i32⟩
  | 97 => ⟨S1370000x128, .f32⟩
  | 98 => ⟨S1370000x1, .f32⟩
  | 99 => ⟨S1370000x128, .f32⟩
  | 100 => ⟨S1370000x128, .f32⟩
  | 101 => ⟨S_, .f32⟩
  | 102 => ⟨S170000x128, .f32⟩
  | 103 => ⟨S1370000x1, .i32⟩
  | 104 => ⟨S170000x128, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S170000x128, .f32⟩
  | 124 => ⟨S170000x40, .f32⟩
  | 125 => ⟨S_, .i32⟩
  | 126 => ⟨S1370000, .i32⟩
  | 127 => ⟨S1370000, .i1⟩
  | _ => ⟨S170000x128, .f32⟩

abbrev hbmTy0_1 (i : Nat) : BufTy := match i % 128 with
  | 0 => ⟨S_, .i32⟩
  | 1 => ⟨S1370000, .i32⟩
  | 2 => ⟨S1370000, .i32⟩
  | 3 => ⟨S1370000, .i32⟩
  | 4 => ⟨S1370000x1, .i32⟩
  | 5 => ⟨S1370000x40, .f32⟩
  | 6 => ⟨S1370000x1, .f32⟩
  | 7 => ⟨S1370000x40, .f32⟩
  | 8 => ⟨S1370000x40, .f32⟩
  | 9 => ⟨S_, .f32⟩
  | 10 => ⟨S170000x40, .f32⟩
  | 11 => ⟨S1370000x1, .i32⟩
  | 12 => ⟨S170000x40, .f32⟩
  | 13 => ⟨S1x40, .f32⟩
  | 14 => ⟨S170000x40, .f32⟩
  | 15 => ⟨S170000x40, .f32⟩
  | _ => ⟨S170000x128, .f32⟩

abbrev hbmTy (i : Nat) : BufTy := match i / 128 with
  | 0 => hbmTy0_0 i
  | 1 => hbmTy0_1 i
  | _ => ⟨S170000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x40, .f32⟩
  | .local _ .vmem, ⟨41, _⟩ => ⟨S10000x40, .f32⟩
  | .local _ .vmem, ⟨42, _⟩ => ⟨S10000x40, .f32⟩
  | _, _ => ⟨S170000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_18 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![17], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![17], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![17], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1370000x1_S1370000x40_0_1 : S1370000x1.BroadcastsInDim S1370000x40 (![0, 1] : Fin 2 → Fin S1370000x40.rank)
  bcast_S_S170000x40 : S_.BroadcastsInDim S170000x40 (![] : Fin 0 → Fin S170000x40.rank)
  bcast_S40_S1x40_1 : S40.BroadcastsInDim S1x40 (![1] : Fin 1 → Fin S1x40.rank)
  bcast_S1x40_S170000x40_0_1 : S1x40.BroadcastsInDim S170000x40 (![0, 1] : Fin 2 → Fin S170000x40.rank)
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  dot_S10000x128_S128x128_S10000x128_1_0_0_1_n_n_wf : DotDims.WF S10000x128 S128x128 S10000x128 [1] [0] [0] [1] [] []
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S10000x128_S128x40_S10000x40_1_0_0_1_n_n_wf : DotDims.WF S10000x128 S128x40 S10000x40 [1] [0] [0] [1] [] []
  gather_S170000x40_S1370000x1_S1370000x40_1_0_n_n_0_1_140_wf : GatherDims.WF S170000x40 S1370000x1 S1370000x40 [1] [0] [] [0] [] 1 ![1, 40]
  scatter_S170000x40_S1370000x1_S1370000x40_1_0_0_1_wf : ScatterDims.WF S170000x40 S1370000x1 S1370000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S170000x128.size a
  hwx0_0 : ∀ i : grid0.Coords, EltTy.bits .f32 = 32 ∨ (Rect.block (s := S170000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S170000x128.size a
  hwx0_2 : ∀ i : grid0.Coords, EltTy.bits .f32 = 32 ∨ (Rect.block (s := S170000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S170000x128.size a
  hwx1_0 : ∀ i : grid1.Coords, EltTy.bits .f32 = 32 ∨ (Rect.block (s := S170000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S170000x128.size a
  hwx2_0 : ∀ i : grid2.Coords, EltTy.bits .f32 = 32 ∨ (Rect.block (s := S170000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S170000x128.size a
  hwx2_6 : ∀ i : grid2.Coords, EltTy.bits .f32 = 32 ∨ (Rect.block (s := S170000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S170000x128.size a
  hwx3_0 : ∀ i : grid3.Coords, EltTy.bits .f32 = 32 ∨ (Rect.block (s := S170000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S170000x128.size a
  hwx3_2 : ∀ i : grid3.Coords, EltTy.bits .f32 = 32 ∨ (Rect.block (s := S170000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S170000x128.size a
  hwx4_0 : ∀ i : grid4.Coords, EltTy.bits .f32 = 32 ∨ (Rect.block (s := S170000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S170000x128.size a
  hwx5_0 : ∀ i : grid5.Coords, EltTy.bits .f32 = 32 ∨ (Rect.block (s := S170000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S170000x128.size a
  hwx5_6 : ∀ i : grid5.Coords, EltTy.bits .f32 = 32 ∨ (Rect.block (s := S170000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S170000x128.size a
  hwx6_0 : ∀ i : grid6.Coords, EltTy.bits .f32 = 32 ∨ (Rect.block (s := S170000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S170000x40.size a
  hwx6_2 : ∀ i : grid6.Coords, EltTy.bits .f32 = 32 ∨ (Rect.block (s := S170000x40) S10000x40.size (cc6_transform_2 i) (hinb6_2 i)).WholeWords (EltTy.packing .f32)

variable [Facts₀]

def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S170000x40_S1370000x1_S1370000x40_1_0_n_n_0_1_140 : GatherDims S170000x40 S1370000x1 S1370000x40 where
  offsetDims := [1]
  collapsedSliceDims := [0]
  operandBatchingDims := []
  startIndicesBatchingDims := []
  startIndexMap := [0]
  indexVectorDim := 1
  sliceSizes := ![1, 40]
  wf := gather_S170000x40_S1370000x1_S1370000x40_1_0_n_n_0_1_140_wf
def scatter_S170000x40_S1370000x1_S1370000x40_1_0_0_1 : ScatterDims S170000x40 S1370000x1 S1370000x40 where
  updateWindowDims := [1]
  insertedWindowDims := [0]
  scatterDimsToOperandDims := [0]
  indexVectorDim := 1
  wf := scatter_S170000x40_S1370000x1_S1370000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v87) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S10000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S170000x128 : Shape := ⟨2, ![170000, 128]⟩
abbrev S2x1200000 : Shape := ⟨2, ![2, 1200000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S1370000x128 : Shape := ⟨2, ![1370000, 128]⟩
abbrev S1x128 : Shape := ⟨2, ![1, 128]⟩
abbrev S170000x40 : Shape := ⟨2, ![170000, 40]⟩
abbrev S1370000x40 : Shape := ⟨2, ![1370000, 40]⟩
abbrev S1x40 : Shape := ⟨2, ![1, 40]⟩

abbrev nBuf : Space → Nat
  | .hbm => 178
  | .vmem => 0
  | .smem => 0
  | _ => 0

abbrev hbmTy0_0 (i : Nat) : BufTy := match i % 128 with
  | 0 => ⟨S170000x128, .f32⟩
  | 1 => ⟨S2x1200000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x40, .f32⟩
  | 11 => ⟨S40, .f32⟩
  | 12 => ⟨S170000, .i32⟩
  | 13 => ⟨S1x1200000, .i32⟩
  | 14 => ⟨S1200000, .i32⟩
  | 15 => ⟨S1370000, .i32⟩
  | 16 => ⟨S1x1200000, .i32⟩
  | 17 => ⟨S1200000, .i32⟩
  | 18 => ⟨S1370000, .i32⟩
  | 19 => ⟨S_, .f32⟩
  | 20 => ⟨S1370000, .f32⟩
  | 21 => ⟨S_, .f32⟩
  | 22 => ⟨S170000, .f32⟩
  | 23 => ⟨S1370000x1, .i32⟩
  | 24 => ⟨S170000, .f32⟩
  | 25 => ⟨S_, .f32⟩
  | 26 => ⟨S170000, .f32⟩
  | 27 => ⟨S170000, .i1⟩
  | 28 => ⟨S170000, .f32⟩
  | 29 => ⟨S_, .f32⟩
  | 30 => ⟨S_, .f32⟩
  | 31 => ⟨S170000, .f32⟩
  | 32 => ⟨S170000, .f32⟩
  | 33 => ⟨S_, .i32⟩
  | 34 => ⟨S1370000, .i32⟩
  | 35 => ⟨S1370000, .i1⟩
  | 36 => ⟨S_, .i32⟩
  | 37 => ⟨S1370000, .i32⟩
  | 38 => ⟨S1370000, .i32⟩
  | 39 => ⟨S1370000, .i32⟩
  | 40 => ⟨S1370000x1, .i32⟩
  | 41 => ⟨S1370000, .f32⟩
  | 42 => ⟨S_, .i32⟩
  | 43 => ⟨S1370000, .i32⟩
  | 44 => ⟨S1370000, .i1⟩
  | 45 => ⟨S_, .i32⟩
  | 46 => ⟨S1370000, .i32⟩
  | 47 => ⟨S1370000, .i32⟩
  | 48 => ⟨S1370000, .i32⟩
  | 49 => ⟨S1370000x1, .i32⟩
  | 50 => ⟨S1370000, .f32⟩
  | 51 => ⟨S1370000, .f32⟩
  | 52 => ⟨S170000x128, .f32⟩
  | 53 => ⟨S_, .i32⟩
  | 54 => ⟨S1370000, .i32⟩
  | 55 => ⟨S1370000, .i1⟩
  | 56 => ⟨S_, .i32⟩
  | 57 => ⟨S1370000, .i32⟩
  | 58 => ⟨S1370000, .i32⟩
  | 59 => ⟨S1370000, .i32⟩
  | 60 => ⟨S1370000x1, .i32⟩
  | 61 => ⟨S1370000x128, .f32⟩
  | 62 => ⟨S1370000x1, .f32⟩
  | 63 => ⟨S1370000x128, .f32⟩
  | 64 => ⟨S1370000x128, .f32⟩
  | 65 => ⟨S_, .f32⟩
  | 66 => ⟨S170000x128, .f32⟩
  | 67 => ⟨S1370000x1, .i32⟩
  | 68 => ⟨S170000x128, .f32⟩
  | 69 => ⟨S1x128, .f32⟩
  | 70 => ⟨S170000x128, .f32⟩
  | 71 => ⟨S170000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S170000x128, .f32⟩
  | 79 => ⟨S170000x128, .f32⟩
  | 80 => ⟨S170000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S170000x128, .f32⟩
  | 88 => ⟨S170000x128, .f32⟩
  | 89 => ⟨S_, .f32⟩
  | 90 => ⟨S128, .f32⟩
  | 91 => ⟨S128, .f32⟩
  | 92 => ⟨S128, .f32⟩
  | 93 => ⟨S1x128, .f32⟩
  | 94 => ⟨S170000x128, .f32⟩
  | 95 => ⟨S170000x128, .f32⟩
  | 96 => ⟨S1x128, .f32⟩
  | 97 => ⟨S170000x128, .f32⟩
  | 98 => ⟨S170000x128, .f32⟩
  | 99 => ⟨S1x128, .f32⟩
  | 100 => ⟨S170000x128, .f32⟩
  | 101 => ⟨S170000x128, .f32⟩
  | 102 => ⟨S_, .f32⟩
  | 103 => ⟨S170000x128, .f32⟩
  | 104 => ⟨S170000x128, .f32⟩
  | 105 => ⟨S170000x128, .f32⟩
  | 106 => ⟨S_, .i32⟩
  | 107 => ⟨S1370000, .i32⟩
  | 108 => ⟨S1370000, .i1⟩
  | 109 => ⟨S_, .i32⟩
  | 110 => ⟨S1370000, .i32⟩
  | 111 => ⟨S1370000, .i32⟩
  | 112 => ⟨S1370000, .i32⟩
  | 113 => ⟨S1370000x1, .i32⟩
  | 114 => ⟨S1370000x128, .f32⟩
  | 115 => ⟨S1370000x1, .f32⟩
  | 116 => ⟨S1370000x128, .f32⟩
  | 117 => ⟨S1370000x128, .f32⟩
  | 118 => ⟨S_, .f32⟩
  | 119 => ⟨S170000x128, .f32⟩
  | 120 => ⟨S1370000x1, .i32⟩
  | 121 => ⟨S170000x128, .f32⟩
  | 122 => ⟨S1x128, .f32⟩
  | 123 => ⟨S170000x128, .f32⟩
  | 124 => ⟨S170000x128, .f32⟩
  | 125 => ⟨S_, .f32⟩
  | 126 => ⟨S128, .f32⟩
  | 127 => ⟨S_, .f32⟩
  | _ => ⟨S170000x128, .f32⟩

abbrev hbmTy0_1 (i : Nat) : BufTy := match i % 128 with
  | 0 => ⟨S128, .f32⟩
  | 1 => ⟨S128, .f32⟩
  | 2 => ⟨S1x128, .f32⟩
  | 3 => ⟨S170000x128, .f32⟩
  | 4 => ⟨S170000x128, .f32⟩
  | 5 => ⟨S170000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S170000x128, .f32⟩
  | 13 => ⟨S170000x128, .f32⟩
  | 14 => ⟨S_, .f32⟩
  | 15 => ⟨S128, .f32⟩
  | 16 => ⟨S128, .f32⟩
  | 17 => ⟨S128, .f32⟩
  | 18 => ⟨S1x128, .f32⟩
  | 19 => ⟨S170000x128, .f32⟩
  | 20 => ⟨S170000x128, .f32⟩
  | 21 => ⟨S1x128, .f32⟩
  | 22 => ⟨S170000x128, .f32⟩
  | 23 => ⟨S170000x128, .f32⟩
  | 24 => ⟨S1x128, .f32⟩
  | 25 => ⟨S170000x128, .f32⟩
  | 26 => ⟨S170000x128, .f32⟩
  | 27 => ⟨S_, .f32⟩
  | 28 => ⟨S170000x128, .f32⟩
  | 29 => ⟨S170000x128, .f32⟩
  | 30 => ⟨S170000x40, .f32⟩
  | 31 => ⟨S_, .i32⟩
  | 32 => ⟨S1370000, .i32⟩
  | 33 => ⟨S1370000, .i1⟩
  | 34 => ⟨S_, .i32⟩
  | 35 => ⟨S1370000, .i32⟩
  | 36 => ⟨S1370000, .i32⟩
  | 37 => ⟨S1370000, .i32⟩
  | 38 => ⟨S1370000x1, .i32⟩
  | 39 => ⟨S1370000x40, .f32⟩
  | 40 => ⟨S1370000x1, .f32⟩
  | 41 => ⟨S1370000x40, .f32⟩
  | 42 => ⟨S1370000x40, .f32⟩
  | 43 => ⟨S_, .f32⟩
  | 44 => ⟨S170000x40, .f32⟩
  | 45 => ⟨S1370000x1, .i32⟩
  | 46 => ⟨S170000x40, .f32⟩
  | 47 => ⟨S1x40, .f32⟩
  | 48 => ⟨S170000x40, .f32⟩
  | 49 => ⟨S170000x40, .f32⟩
  | _ => ⟨S170000x128, .f32⟩

abbrev hbmTy (i : Nat) : BufTy := match i / 128 with
  | 0 => hbmTy0_0 i
  | 1 => hbmTy0_1 i
  | _ => ⟨S170000x128, .f32⟩

abbrev bufTy : (tb : Table) → Fin (tcTables nBuf tb) → BufTy
  | .hbm, ⟨i, _⟩ => hbmTy i
  | _, _ => ⟨S170000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call2_cst : Ref sig .tc := ⟨.hbm, 155, rfl⟩
abbrev main_call2_v0 : Ref sig .tc := ⟨.hbm, 156, rfl⟩
abbrev main_v115 : Ref sig .tc := ⟨.hbm, 157, rfl⟩
abbrev main_v116 : Ref sig .tc := ⟨.hbm, 158, rfl⟩
abbrev main_c_22 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  bcast_S128_S1x128_1 : S128.BroadcastsInDim S1x128 (![1] : Fin 1 → Fin S1x128.rank)
  bcast_S1x128_S170000x128_0_1 : S1x128.BroadcastsInDim S170000x128 (![0, 1] : Fin 2 → Fin S170000x128.rank)
  reducesTo_S170000x128_S128_d0 : S170000x128.ReducesTo [0] S128
  h_S_ : 0 < S_.numel
  bcast_S_S128 : S_.BroadcastsInDim S128 (![] : Fin 0 → Fin S128.rank)
  bcast_S1370000x1_S1370000x40_0_1 : S1370000x1.BroadcastsInDim S1370000x40 (![0, 1] : Fin 2 → Fin S1370000x40.rank)
  bcast_S_S170000x40 : S_.BroadcastsInDim S170000x40 (![] : Fin 0 → Fin S170000x40.rank)
  bcast_S40_S1x40_1 : S40.BroadcastsInDim S1x40 (![1] : Fin 1 → Fin S1x40.rank)
  bcast_S1x40_S170000x40_0_1 : S1x40.BroadcastsInDim S170000x40 (![0, 1] : Fin 2 → Fin S170000x40.rank)
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  dot_S170000x128_S128x128_S170000x128_1_0_0_1_n_n_wf : DotDims.WF S170000x128 S128x128 S170000x128 [1] [0] [0] [1] [] []
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S170000x128_S128x40_S170000x40_1_0_0_1_n_n_wf : DotDims.WF S170000x128 S128x40 S170000x40 [1] [0] [0] [1] [] []
  gather_S170000x40_S1370000x1_S1370000x40_1_0_n_n_0_1_140_wf : GatherDims.WF S170000x40 S1370000x1 S1370000x40 [1] [0] [] [0] [] 1 ![1, 40]
  scatter_S170000x40_S1370000x1_S1370000x40_1_0_0_1_wf : ScatterDims.WF S170000x40 S1370000x1 S1370000x40 [1] [0] [0] 1

variable [Facts₀]

def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def dot_S170000x128_S128x128_S170000x128_1_0_0_1_n_n : DotDims S170000x128 S128x128 S170000x128 where
  lhsContracting := [1]
  rhsContracting := [0]
  lhsNonContracting := [0]
  rhsNonContracting := [1]
  lhsBatch := []
  rhsBatch := []
  wf := dot_S170000x128_S128x128_S170000x128_1_0_0_1_n_n_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S170000x128_S128x40_S170000x40_1_0_0_1_n_n : DotDims S170000x128 S128x40 S170000x40 where
  lhsContracting := [1]
  rhsContracting := [0]
  lhsNonContracting := [0]
  rhsNonContracting := [1]
  lhsBatch := []
  rhsBatch := []
  wf := dot_S170000x128_S128x40_S170000x40_1_0_0_1_n_n_wf
def gather_S170000x40_S1370000x1_S1370000x40_1_0_n_n_0_1_140 : GatherDims S170000x40 S1370000x1 S1370000x40 where
  offsetDims := [1]
  collapsedSliceDims := [0]
  operandBatchingDims := []
  startIndicesBatchingDims := []
  startIndexMap := [0]
  indexVectorDim := 1
  sliceSizes := ![1, 40]
  wf := gather_S170000x40_S1370000x1_S1370000x40_1_0_n_n_0_1_140_wf
def scatter_S170000x40_S1370000x1_S1370000x40_1_0_0_1 : ScatterDims S170000x40 S1370000x1 S1370000x40 where
  updateWindowDims := [1]
  insertedWindowDims := [0]
  scatterDimsToOperandDims := [0]
  indexVectorDim := 1
  wf := scatter_S170000x40_S1370000x1_S1370000x40_1_0_0_1_wf

class Facts : Prop extends Facts₀ where

variable [Facts]
-- ==== Proof.KernelRun.lean ====
/-
  The idealized kernel program's run with its RESULT named: every weakly fair execution of @main terminates, and
  the result buffer ends at what the fold of @main's segments (host stretches and kernel regions, in order, from the
  launch memory) leaves there, the twelve arguments unchanged. The fold itself is read, buffer by buffer, in the
  value modules.
-/
import proofs.«154786_j4337916969345_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its fifteen segments, the final thread state read against the final memory: the result
    buffer at the last boundary's contents, each argument walked back through the fold to its launch contents. -/
theorem run_result : θ_run defs (onTc (τ := τ) (main (F := F))) ⟨m, fun _ => 0, ρ⟩ (fun r => ∀ c : Dev nD,
      r.2.mem ((c.tc : Thread nD τ).loc main_v104) = W15 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v104 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.ValueRun

end
-- ==== Proof.KeepBuffers.lean ====
/-
  Which buffers each stretch of host operations of the idealized kernel program writes, and hence which it leaves
  alone: a buffer that is not the result of any operation of a stretch holds after the stretch what it held before.
  The value chain uses this to carry a buffer (the edge lists, the edge weights, an argument, an aggregated
  activation) from the boundary where it was produced to the boundary where it is next read.
-/
import proofs.«154786_j4337916969345_1_alg».proof.Proof.Gen.KernelIdeal.Frame

noncomputable section

namespace Cert.KernelIdeal.ValueChain

open Cert.KernelIdeal Cert.KernelIdeal.Gen
open Idealize.ShloMosaic Idealize.ShloMosaic.TcCoe Idealize.SL.Sem

variable {F : FTy → Type} [FloatOps F]

/-- A singleton of a listed reference lies in the list's image. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- Closes "every operation of this stretch writes inside this list": each operation writes its one result. -/
macro "writes_listed" ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes]
             repeat' apply And.intro
             all_goals exact single_sub_of_mem (by decide)))

/-- The results of the first stretch: the self-loop iota, the two edge rows with the loops appended, the degrees. -/
abbrev written0 : List (Ref sig .tc) :=
  [main_v0, main_v1, main_v2, main_v3, main_v4, main_v5, main_v6, main_cst, main_v7, main_cst_0, main_v8, main_v9, main_v10,
   main_cst_1, main_v11, main_v12, main_v13, main_cst_2]
theorem written0_sub : (hostOps0 : List (HloOp τ sig (Elt F))).Forall fun op => op.writes ⊆ (written0.map (Proc.devRef (τ := τ) .tc)).toFinset := by
  writes_listed hostOps0
theorem keep0 (V : Valuation τ sig (Elt F)) (r : Ref sig .tc) (hr : r ∉ written0) :
    StableHlo.after hostOps0 V (Proc.devRef .tc r) = V (Proc.devRef .tc r) := StableHlo.after_of_writes_sub _ V written0_sub hr

/-- The inverse square roots of the degrees (zero where the degree is zero). -/
abbrev written0_1 : List (Ref sig .tc) := [main_call0_v0, main_call0_v1, main_v14]
theorem written0_1_sub : (hostOps0_1 : List (HloOp τ sig (Elt F))).Forall fun op => op.writes ⊆ (written0_1.map (Proc.devRef (τ := τ) .tc)).toFinset := by
  writes_listed hostOps0_1
theorem keep0_1 (V : Valuation τ sig (Elt F)) (r : Ref sig .tc) (hr : r ∉ written0_1) :
    StableHlo.after hostOps0_1 V (Proc.devRef .tc r) = V (Proc.devRef .tc r) := StableHlo.after_of_writes_sub _ V written0_1_sub hr

/-- The edge weights: the product of the two endpoints' inverse square roots. -/
abbrev written0_2 : List (Ref sig .tc) :=
  [main_c, main_v15, main_v16, main_c_3, main_v17, main_v18, main_v19, main_v20, main_v21, main_c_4, main_v22, main_v23, main_c_5,
   main_v24, main_v25, main_v26, main_v27, main_v28, main_v29]
theorem written0_2_sub : (hostOps0_2 : List (HloOp τ sig (Elt F))).Forall fun op => op.writes ⊆ (written0_2.map (Proc.devRef (τ := τ) .tc)).toFinset := by
  writes_listed hostOps0_2
theorem keep0_2 (V : Valuation τ sig (Elt F)) (r : Ref sig .tc) (hr : r ∉ written0_2) :
    StableHlo.after hostOps0_2 V (Proc.devRef .tc r) = V (Proc.devRef .tc r) := StableHlo.after_of_writes_sub _ V written0_2_sub hr

/-- The first layer's aggregation (gather the source rows, weight them, add them into the target rows) and its bias row. -/
abbrev written1 : List (Ref sig .tc) :=
  [main_c_6, main_v31, main_v32, main_c_7, main_v33, main_v34, main_v35, main_v36, main_v37, main_v38, main_v39, main_v40, main_cst_8,
   main_v41, main_v42, main_v43, main_v44]
theorem written1_sub : (hostOps1 : List (HloOp τ sig (Elt F))).Forall fun op => op.writes ⊆ (written1.map (Proc.devRef (τ := τ) .tc)).toFinset := by
  writes_listed hostOps1
theorem keep1 (V : Valuation τ sig (Elt F)) (r : Ref sig .tc) (hr : r ∉ written1) :
    StableHlo.after hostOps1 V (Proc.devRef .tc r) = V (Proc.devRef .tc r) := StableHlo.after_of_writes_sub _ V written1_sub hr

/-- The first layer's mean, variance and inverse deviation, and its three parameter rows. -/
abbrev written2 : List (Ref sig .tc) :=
  [main_cst_9, main_v46, main_v47, main_cst_10, main_v48, main_v49, main_v50, main_v51, main_cst_11, main_v52, main_v53, main_v54,
   main_v55, main_v56, main_v57]
theorem written2_sub : (hostOps2 : List (HloOp τ sig (Elt F))).Forall fun op => op.writes ⊆ (written2.map (Proc.devRef (τ := τ) .tc)).toFinset := by
  writes_listed hostOps2
theorem keep2 (V : Valuation τ sig (Elt F)) (r : Ref sig .tc) (hr : r ∉ written2) :
    StableHlo.after hostOps2 V (Proc.devRef .tc r) = V (Proc.devRef .tc r) := StableHlo.after_of_writes_sub _ V written2_sub hr

/-- The second layer's aggregation and its bias row. -/
abbrev written4 : List (Ref sig .tc) :=
  [main_c_12, main_v60, main_v61, main_c_13, main_v62, main_v63, main_v64, main_v65, main_v66, main_v67, main_v68, main_v69, main_cst_14,
   main_v70, main_v71, main_v72, main_v73]
theorem written4_sub : (hostOps4 : List (HloOp τ sig (Elt F))).Forall fun op => op.writes ⊆ (written4.map (Proc.devRef (τ := τ) .tc)).toFinset := by
  writes_listed hostOps4
theorem keep4 (V : Valuation τ sig (Elt F)) (r : Ref sig .tc) (hr : r ∉ written4) :
    StableHlo.after hostOps4 V (Proc.devRef .tc r) = V (Proc.devRef .tc r) := StableHlo.after_of_writes_sub _ V written4_sub hr

/-- The second layer's mean, variance and inverse deviation, and its three parameter rows. -/
abbrev written5 : List (Ref sig .tc) :=
  [main_cst_15, main_v75, main_v76, main_cst_16, main_v77, main_v78, main_v79, main_v80, main_cst_17, main_v81, main_v82, main_v83,
   main_v84, main_v85, main_v86]
theorem written5_sub : (hostOps5 : List (HloOp τ sig (Elt F))).Forall fun op => op.writes ⊆ (written5.map (Proc.devRef (τ := τ) .tc)).toFinset := by
  writes_listed hostOps5
theorem keep5 (V : Valuation τ sig (Elt F)) (r : Ref sig .tc) (hr : r ∉ written5) :
    StableHlo.after hostOps5 V (Proc.devRef .tc r) = V (Proc.devRef .tc r) := StableHlo.after_of_writes_sub _ V written5_sub hr

/-- The last layer's aggregation plus its bias: the result. -/
abbrev written7 : List (Ref sig .tc) :=
  [main_c_18, main_v89, main_v90, main_c_19, main_v91, main_v92, main_v93, main_v94, main_v95, main_v96, main_v97, main_v98, main_cst_20,
   main_v99, main_v100, main_v101, main_v102, main_v103, main_v104]
theorem written7_sub : (hostOps7 : List (HloOp τ sig (Elt F))).Forall fun op => op.writes ⊆ (written7.map (Proc.devRef (τ := τ) .tc)).toFinset := by
  writes_listed hostOps7
theorem keep7 (V : Valuation τ sig (Elt F)) (r : Ref sig .tc) (hr : r ∉ written7) :
    StableHlo.after hostOps7 V (Proc.devRef .tc r) = V (Proc.devRef .tc r) := StableHlo.after_of_writes_sub _ V written7_sub hr

end Cert.KernelIdeal.ValueChain

end
-- ==== Proof.ChainBase.lean ====
/-
  The buffer contents of the idealized kernel program at the boundaries between its segments, walked one segment at
  a time: a stretch of host operations leaves a buffer it does not write as it was, and a kernel region leaves every
  buffer that is not one of its arrays as it was. Composed, these carry an argument from the launch memory, and the
  edge lists and edge weights from the boundary where they are computed, to wherever a later segment reads them.
-/
import proofs.«154786_j4337916969345_1_alg».proof.Proof.KeepBuffers

noncomputable section

namespace Cert.KernelIdeal.ValueChain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## One segment back -/

theorem back1 (r : Ref sig .tc) (h : r ∉ written0) : W1 m ρ c (Proc.devRef .tc r) = W0 m ρ c (Proc.devRef .tc r) := keep0 _ r h
theorem back2 (r : Ref sig .tc) (h : r ∉ written0_1) : W2 m ρ c (Proc.devRef .tc r) = W1 m ρ c (Proc.devRef .tc r) := keep0_1 _ r h
theorem back3 (r : Ref sig .tc) (h : r ∉ written0_2) : W3 m ρ c (Proc.devRef .tc r) = W2 m ρ c (Proc.devRef .tc r) := keep0_2 _ r h
theorem back4 (r : Ref sig .tc) (h : ∀ w, Pipeline.arrRef spec0 w ≠ r) : W4 m ρ c (Proc.devRef .tc r) = W3 m ρ c (Proc.devRef .tc r) := W4_of_ne m ρ c r h
theorem back5 (r : Ref sig .tc) (h : r ∉ written1) : W5 m ρ c (Proc.devRef .tc r) = W4 m ρ c (Proc.devRef .tc r) := keep1 _ r h
theorem back6 (r : Ref sig .tc) (h : ∀ w, Pipeline.arrRef spec1 w ≠ r) : W6 m ρ c (Proc.devRef .tc r) = W5 m ρ c (Proc.devRef .tc r) := W6_of_ne m ρ c r h
theorem back7 (r : Ref sig .tc) (h : r ∉ written2) : W7 m ρ c (Proc.devRef .tc r) = W6 m ρ c (Proc.devRef .tc r) := keep2 _ r h
theorem back8 (r : Ref sig .tc) (h : ∀ w, Pipeline.arrRef spec2 w ≠ r) : W8 m ρ c (Proc.devRef .tc r) = W7 m ρ c (Proc.devRef .tc r) := W8_of_ne m ρ c r h
theorem back9 (r : Ref sig .tc) (h : ∀ w, Pipeline.arrRef spec3 w ≠ r) : W9 m ρ c (Proc.devRef .tc r) = W8 m ρ c (Proc.devRef .tc r) := W9_of_ne m ρ c r h
theorem back10 (r : Ref sig .tc) (h : r ∉ written4) : W10 m ρ c (Proc.devRef .tc r) = W9 m ρ c (Proc.devRef .tc r) := keep4 _ r h
theorem back11 (r : Ref sig .tc) (h : ∀ w, Pipeline.arrRef spec4 w ≠ r) : W11 m ρ c (Proc.devRef .tc r) = W10 m ρ c (Proc.devRef .tc r) := W11_of_ne m ρ c r h
theorem back12 (r : Ref sig .tc) (h : r ∉ written5) : W12 m ρ c (Proc.devRef .tc r) = W11 m ρ c (Proc.devRef .tc r) := keep5 _ r h
theorem back13 (r : Ref sig .tc) (h : ∀ w, Pipeline.arrRef spec5 w ≠ r) : W13 m ρ c (Proc.devRef .tc r) = W12 m ρ c (Proc.devRef .tc r) := W13_of_ne m ρ c r h
theorem back14 (r : Ref sig .tc) (h : ∀ w, Pipeline.arrRef spec6 w ≠ r) : W14 m ρ c (Proc.devRef .tc r) = W13 m ρ c (Proc.devRef .tc r) := W14_of_ne m ρ c r h

/-! ## Several segments back -/

/-- A buffer no host operation before the first region writes holds there what it held at launch. -/
theorem launch3 (r : Ref sig .tc) (h0 : r ∉ written0) (h1 : r ∉ written0_1) (h2 : r ∉ written0_2) :
    W3 m ρ c (Proc.devRef .tc r) = m ((c : Thread nD τ).loc r) :=
  (back3 m ρ c r h2).trans ((back2 m ρ c r h1).trans (back1 m ρ c r h0))

/-- From the first region's exit back to its entry, then across the first aggregation. -/
theorem from5 (r : Ref sig .tc) (h4 : ∀ w, Pipeline.arrRef spec0 w ≠ r) (h5 : r ∉ written1) :
    W5 m ρ c (Proc.devRef .tc r) = W3 m ρ c (Proc.devRef .tc r) :=
  (back5 m ρ c r h5).trans (back4 m ρ c r h4)

theorem from6 (r : Ref sig .tc) (h4 : ∀ w, Pipeline.arrRef spec0 w ≠ r) (h5 : r ∉ written1) (h6 : ∀ w, Pipeline.arrRef spec1 w ≠ r) :
    W6 m ρ c (Proc.devRef .tc r) = W3 m ρ c (Proc.devRef .tc r) :=
  (back6 m ρ c r h6).trans (from5 m ρ c r h4 h5)

theorem from8 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) :
    W8 m ρ c (Proc.devRef .tc r) = W3 m ρ c (Proc.devRef .tc r) :=
  (back8 m ρ c r h8).trans ((back7 m ρ c r h7).trans (from6 m ρ c r h4 h5 h6))

theorem from9 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : ∀ w, Pipeline.arrRef spec3 w ≠ r) :
    W9 m ρ c (Proc.devRef .tc r) = W3 m ρ c (Proc.devRef .tc r) :=
  (back9 m ρ c r h9).trans (from8 m ρ c r h4 h5 h6 h7 h8)

theorem from11 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : ∀ w, Pipeline.arrRef spec3 w ≠ r)
    (h10 : r ∉ written4) (h11 : ∀ w, Pipeline.arrRef spec4 w ≠ r) :
    W11 m ρ c (Proc.devRef .tc r) = W3 m ρ c (Proc.devRef .tc r) :=
  (back11 m ρ c r h11).trans ((back10 m ρ c r h10).trans (from9 m ρ c r h4 h5 h6 h7 h8 h9))

theorem from13 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : ∀ w, Pipeline.arrRef spec3 w ≠ r)
    (h10 : r ∉ written4) (h11 : ∀ w, Pipeline.arrRef spec4 w ≠ r) (h12 : r ∉ written5) (h13 : ∀ w, Pipeline.arrRef spec5 w ≠ r) :
    W13 m ρ c (Proc.devRef .tc r) = W3 m ρ c (Proc.devRef .tc r) :=
  (back13 m ρ c r h13).trans ((back12 m ρ c r h12).trans (from11 m ρ c r h4 h5 h6 h7 h8 h9 h10 h11))

theorem from14 (r : Ref sig .tc) (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : ∀ w, Pipeline.arrRef spec3 w ≠ r)
    (h10 : r ∉ written4) (h11 : ∀ w, Pipeline.arrRef spec4 w ≠ r) (h12 : r ∉ written5) (h13 : ∀ w, Pipeline.arrRef spec5 w ≠ r)
    (h14 : ∀ w, Pipeline.arrRef spec6 w ≠ r) :
    W14 m ρ c (Proc.devRef .tc r) = W3 m ρ c (Proc.devRef .tc r) :=
  (back14 m ρ c r h14).trans (from13 m ρ c r h4 h5 h6 h7 h8 h9 h10 h11 h12 h13)

/-! ## An input array of a region is as the region found it -/

theorem in1 (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

theorem in4 (w : Fin cfg4.W) (hw : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hw _).trans (A_eq4 (V10 m ρ) c w))

end Cert.KernelIdeal.ValueChain

end
-- ==== Proof.ChainWeights.lean ====
/-
  The graph data the idealized kernel program computes before its first kernel region, read at that region's entry:
  the source list and the target list of the edges with the self-loops appended, and the edge weights — the product of
  the inverse square roots of the two endpoints' degrees (zero where a degree is zero). The kernel program computes them
  by the same host operations as the reference, so each is the reference's stage of the same name applied to the edge
  argument; and the node features and the first weight matrix are still as launched.
-/
import proofs.«154786_j4337916969345_1_alg».proof.Proof.ChainBase
import proofs.«154786_j4337916969345_1_alg».proof.Proof.RefRead

noncomputable section

namespace Cert.KernelIdeal.ValueChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The sources: the first edge row, then every node once (its self-loop). -/
theorem src_at3 : W3 m ρ c (Proc.devRef .tc main_v3)
    = Cert.ReferenceIdeal.ReadP.val_main_v3 (F := Ideal) (m ((c : Thread nD τ).loc main_arg1)) := by
  refine (back3 m ρ c main_v3 (by decide)).trans ((back2 m ρ c main_v3 (by decide)).trans ?_)
  show StableHlo.after hostOps0 (W0 m ρ c) (Proc.devRef .tc main_v3) = _
  after_results_simp
  rfl

/-- The targets: the second edge row, then every node once. -/
theorem dst_at3 : W3 m ρ c (Proc.devRef .tc main_v6)
    = Cert.ReferenceIdeal.ReadP.val_main_v6 (F := Ideal) (m ((c : Thread nD τ).loc main_arg1)) := by
  refine (back3 m ρ c main_v6 (by decide)).trans ((back2 m ρ c main_v6 (by decide)).trans ?_)
  show StableHlo.after hostOps0 (W0 m ρ c) (Proc.devRef .tc main_v6) = _
  after_results_simp
  rfl

/-- The degree comparison `deg > 0`, after the first stretch. -/
theorem degpos_at1 : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results_simp
  rfl

/-- The inverse square roots of the degrees, taken everywhere. -/
theorem rsqrtdeg_at1 : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  after_results_simp
  rfl

/-- The zero that replaces the inverse square root where the degree is zero. -/
theorem zero_at1 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-! A typed reference at a literal buffer carries contents along an equation between a type and itself: nothing. -/

theorem ofBuf_zero (v : (⟨S_, .f32⟩ : BufTy).Contents (Elt Ideal)) :
    (TRef.of (sig := sig) (T := ⟨S_, .f32⟩) main_cst_2).ofBuf v = v := rfl
theorem toBuf_call0_v0 (v : (⟨S_, .f32⟩ : BufTy).Contents (Elt Ideal)) :
    (TRef.of (sig := sig) (T := ⟨S_, .f32⟩) main_call0_v0).toBuf v = v := rfl
theorem ofBuf_call0_v0 (v : (⟨S_, .f32⟩ : BufTy).Contents (Elt Ideal)) :
    (TRef.of (sig := sig) (T := ⟨S_, .f32⟩) main_call0_v0).ofBuf v = v := rfl
theorem toBuf_call0_v1 (v : (⟨S170000, .f32⟩ : BufTy).Contents (Elt Ideal)) :
    (TRef.of (sig := sig) (T := ⟨S170000, .f32⟩) main_call0_v1).toBuf v = v := rfl
theorem ofBuf_call0_v1 (v : (⟨S170000, .f32⟩ : BufTy).Contents (Elt Ideal)) :
    (TRef.of (sig := sig) (T := ⟨S170000, .f32⟩) main_call0_v1).ofBuf v = v := rfl
theorem ofBuf_degpos (v : (⟨S170000, .i1⟩ : BufTy).Contents (Elt Ideal)) :
    (TRef.of (sig := sig) (T := ⟨S170000, .i1⟩) main_v12).ofBuf v = v := rfl
theorem ofBuf_rsqrtdeg (v : (⟨S170000, .f32⟩ : BufTy).Contents (Elt Ideal)) :
    (TRef.of (sig := sig) (T := ⟨S170000, .f32⟩) main_v13).ofBuf v = v := rfl
theorem toBuf_inv (v : (⟨S170000, .f32⟩ : BufTy).Contents (Elt Ideal)) :
    (TRef.of (sig := sig) (T := ⟨S170000, .f32⟩) main_v14).toBuf v = v := rfl

/-- The inverse square roots of the degrees, zero where the degree is zero. -/
theorem inv_at2 : W2 m ρ c (Proc.devRef .tc main_v14)
    = Cert.ReferenceIdeal.ReadP.val_main_v14 (F := Ideal) (m ((c : Thread nD τ).loc main_arg1)) := by
  have h12 := degpos_at1 m ρ c
  have h13 := rsqrtdeg_at1 m ρ c
  have hz := zero_at1 m ρ c
  show StableHlo.after hostOps0_1 (W1 m ρ c) (Proc.devRef .tc main_v14) = _
  generalize W1 m ρ c = V1 at h12 h13 hz ⊢
  after_results_simp
  rw [h12, h13, hz]
  unfold Cert.ReferenceIdeal.ReadP.val_main_v14 Cert.ReferenceIdeal.ReadP.val_main_call0_v1 Cert.ReferenceIdeal.ReadP.val_main_call0_v0
  generalize Cert.ReferenceIdeal.ReadP.val_main_v12 (F := Ideal) (m ((c : Thread nD τ).loc main_arg1)) = A
  generalize Cert.ReferenceIdeal.ReadP.val_main_v13 (F := Ideal) (m ((c : Thread nD τ).loc main_arg1)) = B
  generalize Cert.ReferenceIdeal.ReadP.val_main_cst_2 (F := Ideal) = Z
  exact (toBuf_inv _).trans (congr (congr (congrArg select (ofBuf_degpos A)) (ofBuf_rsqrtdeg B))
    ((ofBuf_call0_v1 _).trans ((toBuf_call0_v1 _).trans (congrArg (broadcastInDim S170000 ![] bcast_S_S170000)
      ((ofBuf_call0_v0 _).trans ((toBuf_call0_v0 _).trans (congrArg id (ofBuf_zero Z))))))))

/-- The edge weights. -/
theorem weight_at3 : W3 m ρ c (Proc.devRef .tc main_v29)
    = Cert.ReferenceIdeal.ReadP.val_main_v29 (F := Ideal) (m ((c : Thread nD τ).loc main_arg1)) := by
  have h14 := inv_at2 m ρ c
  have h3 : W2 m ρ c (Proc.devRef .tc main_v3) = _ := (back3 m ρ c main_v3 (by decide)).symm.trans (src_at3 m ρ c)
  have h6 : W2 m ρ c (Proc.devRef .tc main_v6) = _ := (back3 m ρ c main_v6 (by decide)).symm.trans (dst_at3 m ρ c)
  show StableHlo.after hostOps0_2 (W2 m ρ c) (Proc.devRef .tc main_v29) = _
  generalize W2 m ρ c = V2 at h14 h3 h6 ⊢
  after_results_simp
  rw [h14, h3, h6]
  rfl

end Cert.KernelIdeal.ValueChain

end
-- ==== Proof.Matmul0.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal Cert.KernelIdeal.Gen

namespace Cert.KernelIdeal.RegionValue

/-! ## One block's product, entry by entry

The body multiplies its left block by its right block into a zero accumulator. At the exact values the
narrowing of the operands is the identity and the accumulating product, read at an entry, is the accumulator's
entry (zero) plus the sum over the contraction index of the operands' products. The dot's one contraction axis has
128 entries; the left operand is read at (row, k) and the right operand at (k, column). -/

/-- Left operand index, axis 0: the output's row. -/
theorem matmul0_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- Left operand index, axis 1: the contraction index. -/
theorem matmul0_lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

/-- Right operand index, axis 0: the contraction index. -/
theorem matmul0_rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

/-- Right operand index, axis 1: the output's column. -/
theorem matmul0_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The contraction of one block: entry (r, c) of the body's product is the sum over k of x (r, k) * w (k, c). -/
theorem matmul0_pay (x : Vec Ideal S10000x128 .f32) (w : Vec Ideal S128x128 .f32) (j : S10000x128.Idx) :
    k0_pay1 (F := Ideal) x w j = ∑ k : Fin 128, (x (ValueIdx.ix2 (j 0) k) : EReal) * (w (ValueIdx.ix2 k (j 1)) : EReal) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = ValueIdx.ix2 (j 0) k := funext fun a => Fin.ext (by
    match a with
    | ⟨0, _⟩ => exact matmul0_lhs_row _ _
    | ⟨1, _⟩ => exact (matmul0_lhs_col _ _).trans hk)
  have er : dot_S10000x128_S128x128_S10000x128_1_0_0_1_n_n.rhsIdx j ((ValueIdx.contrEquiv1 dot_S10000x128_S128x128_S10000x128_1_0_0_1_n_n 128 rfl rfl).symm k) = ValueIdx.ix2 k (j 1) := funext fun a => Fin.ext (by
    match a with
    | ⟨0, _⟩ => exact (matmul0_rhs_row _ _).trans hk
    | ⟨1, _⟩ => exact matmul0_rhs_col _ _)
  rw [el, er]
  rfl

/-! ## From the blocks to the array -/

theorem matmul0_zero_offsets : (![0, 0] : Fin 2 → Nat) = fun _ => 0 := funext fun a => by fin_cases a <;> rfl

/-- The whole-array product: entry (r, c) is the sum over k of a (r, k) * b (k, c). -/
abbrev matmul0_G (a : S170000x128.Idx → EReal) (b : S128x128.Idx → EReal) : S170000x128.Idx → EReal :=
  fun i => ∑ k : Fin 128, a (ValueIdx.ix2 (i 0) k) * b (ValueIdx.ix2 k (i 1))

/-- The index maps, decided over the 17 grid points: the left window's row block is the output's, its column block
    is 0; the right window's block is (0, 0) at every point; the output's row block is at most 16, its column block 0. -/
theorem matmul0_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 16
    ∧ win0_2.index t (1 : Fin 2) = 0 :=
  (by decide +kernel : ∀ t : Fin grid0.N, _)

/-- Every row block 0 … 16 is some point's. -/
theorem matmul0_index_onto : ∀ q : Fin 17, ∃ t : Fin cfg0.N, win0_2.index t = ![q.val, 0] :=
  (by decide +kernel : ∀ q : Fin 17, ∃ t : Fin grid0.N, win0_2.index t = ![q.val, 0])

/-- The product of point t's two input blocks, at entry j of the block, is the whole-array product at the array
    entry under j: row r of the output block depends on row r of the left block only, the left block sits at the
    output block's row offset with all 128 columns, and the right block is the whole right array. -/
theorem matmul0_block (a : S170000x128.Idx → EReal) (b : S128x128.Idx → EReal) (t : Fin cfg0.N) (j : S10000x128.Idx) :
    k0_pay1 (F := Ideal) (fun y : S10000x128.Idx => a (((cfg0.win 0).blk t).view.emb y)) (fun y : S128x128.Idx => b (((cfg0.win 1).blk t).view.emb y)) j
      = matmul0_G a b (((cfg0.win 2).blk t).view.emb j) := by
  obtain ⟨e0, e1, e2, e3, e4, e5⟩ := matmul0_index_facts t
  refine (matmul0_pay _ _ j).trans ?_
  refine Finset.sum_congr rfl fun k _ => ?_
  show a (((cfg0.win 0).blk t).view.emb (ValueIdx.ix2 (j 0) k)) * b (((cfg0.win 1).blk t).view.emb (ValueIdx.ix2 k (j 1)))
    = a (ValueIdx.ix2 ((((cfg0.win 2).blk t).view.emb j) 0) k) * b (ValueIdx.ix2 k ((((cfg0.win 2).blk t).view.emb j) 1))
  have h0 : ((cfg0.win 0).blk t).view.emb (ValueIdx.ix2 (j 0) k) = ValueIdx.ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ValueIdx.ix2 k (j 1)) = ValueIdx.ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) (congrArg a h0) (congrArg b h1)

/-- What point t writes back is block t of the whole-array product of the two input arrays as the region finds them. -/
theorem matmul0_flushed (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (matmul0_G (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero matmul0_zero_offsets]
  simp only [View.ld_unit_zero (S := S10000x128) matmul0_zero_offsets, View.ld_unit_zero (S := S128x128) matmul0_zero_offsets]
  funext j
  exact matmul0_block (V c (Pipeline.arrRef spec0 0)) (V c (Pipeline.arrRef spec0 1)) t j

/-- An index of the array is in point t's block iff each coordinate is in the block's range on its axis. -/
theorem matmul0_mem_blk (t : Fin cfg0.N) (i : S170000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The 17 blocks of 10000 rows cover all 170000 rows: the point that covers row r is the one whose row block is r / 10000. -/
theorem matmul0_cover (i : S170000x128.Idx) :
    ∃ t : Fin cfg0.N, (cfg0.win 2).flush t = true ∧ i ∈ ((cfg0.win 2).blk t).view.set := by
  have hi0 : (i 0).val < 170000 := (i 0).isLt
  have hi1 : (i 1).val < 128 := (i 1).isLt
  obtain ⟨t, ht⟩ := matmul0_index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [matmul0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the whole-array product of the two input arrays as the region finds them. -/
theorem matmul0_array (V : (c : Dev nD) → (b : Ref sig .tc) → Buf (Elt Ideal) ((c : Thread nD τ).loc b)) (c : Dev nD) :
    (dat0 (F := Ideal) V c).arrAt 2 cfg0.N = matmul0_G (V c (Pipeline.arrRef spec0 0)) (V c (Pipeline.arrRef spec0 1)) :=
  (dat0 (F := Ideal) V c).arrAt_eq_of_cover 2 _ (fun t _ => matmul0_flushed V c t) matmul0_cover

end Cert.KernelIdeal.RegionValue

end
-- ==== Proof.ChainLayer1a.lean ====
/-
  The first layer up to its aggregated pre-activations, in the idealized kernel program: the first kernel region leaves
  the product of the node features with the first weight matrix (each output entry the sum over the 128 input channels),
  which is the reference's matrix product; the host operations after it gather the source rows, weight them and add them
  into the target rows — the same operations, on the same operands, as the reference's.
-/
import proofs.«154786_j4337916969345_1_alg».proof.Proof.ChainWeights
import proofs.«154786_j4337916969345_1_alg».proof.Proof.Matmul0

noncomputable section

namespace Cert.KernelIdeal.ValueChain

open Cert.KernelIdeal Cert.KernelIdeal.Gen
open Idealize.ShloMosaic Idealize.ShloMosaic.TcCoe Idealize.SL.Sem Idealize.ShloMosaic.StableHlo

/-- A product of a 170000×128 array with a 128×128 matrix, entry by entry, is the reference's `dot_general` of the two. -/
theorem matmul_is_dot (a : (⟨2, ![170000, 128]⟩ : Shape).Idx → EReal) (b : (⟨2, ![128, 128]⟩ : Shape).Idx → EReal) :
    RegionValue.matmul0_G a b = Cert.ReferenceIdeal.ReadP.val_main_v30 (F := Ideal) a b := by
  funext i
  rw [Cert.ReferenceIdeal.ReadP.val_main_v30_apply]
  refine Finset.sum_congr rfl fun k _ => ?_
  have el : ValueIdx.ix2 (i 0) k = Cert.ReferenceIdeal.ReadP.lidx_main_v30 i k :=
    funext fun d => Fin.ext (by match d with | ⟨0, _⟩ => rfl | ⟨1, _⟩ => rfl)
  have er : ValueIdx.ix2 k (i 1) = Cert.ReferenceIdeal.ReadP.ridx_main_v30 i k :=
    funext fun d => Fin.ext (by match d with | ⟨0, _⟩ => rfl | ⟨1, _⟩ => rfl)
  exact congrArg₂ (· * ·) (congrArg a el) (congrArg b er)

variable (m : (ℓ : Loc nD τ sig) → Buf (Elt Ideal) ℓ) (ρ : Dev nD → PrngReg) (c : Dev nD)

/-- After the first region its output array holds the reference's first matrix product. -/
theorem mm_at4 : W4 m ρ c (Proc.devRef .tc main_v30)
    = Cert.ReferenceIdeal.ReadP.val_main_v30 (F := Ideal) (m ((c : Thread nD τ).loc main_arg0)) (m ((c : Thread nD τ).loc main_arg2)) := by
  have h0 : V3 m ρ c (Pipeline.arrRef spec0 0) = m ((c : Thread nD τ).loc main_arg0) :=
    launch3 m ρ c main_arg0 (by decide) (by decide) (by decide)
  have h1 : V3 m ρ c (Pipeline.arrRef spec0 1) = m ((c : Thread nD τ).loc main_arg2) :=
    launch3 m ρ c main_arg2 (by decide) (by decide) (by decide)
  exact (W4_arr m ρ c 2).trans ((RegionValue.matmul0_array (V3 m ρ) c).trans
    ((congrArg₂ RegionValue.matmul0_G h0 h1).trans (matmul_is_dot _ _)))

/-- The first layer's aggregation, at the second region's entry: the reference's. -/
theorem agg_at5 : W5 m ρ c (Proc.devRef .tc main_v43)
    = Cert.ReferenceIdeal.ReadP.val_main_v43 (F := Ideal) (m ((c : Thread nD τ).loc main_arg0)) (m ((c : Thread nD τ).loc main_arg1))
        (m ((c : Thread nD τ).loc main_arg2)) := by
  show StableHlo.after hostOps1 (W4 m ρ c) (Proc.devRef .tc main_v43) = _
  after_results_simp
  rw [back4 m ρ c main_v3 (by decide), src_at3, back4 m ρ c main_v6 (by decide), dst_at3, back4 m ρ c main_v29 (by decide), weight_at3,
    mm_at4]
  rfl

/-- The first bias as a one-row array, at the second region's entry. -/
theorem bias_at5 : W5 m ρ c (Proc.devRef .tc main_v44)
    = shapeCast S1x128 (m ((c : Thread nD τ).loc main_arg3)) shapeCasts_S128_S1x128 := by
  show StableHlo.after hostOps1 (W4 m ρ c) (Proc.devRef .tc main_v44) = _
  after_results_simp
  rw [back4 m ρ c main_arg3 (by decide), launch3 m ρ c main_arg3 (by decide) (by decide) (by decide)]
  rfl

end Cert.KernelIdeal.ValueChain

end
-- ==== Proof.Stats1.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Cert.KernelIdeal Cert.KernelIdeal.Gen
open Idealize.ShloMosaic.Pipeline (Dat)

namespace Cert.KernelIdeal.RegionValue

open Idealize.ShloMosaic.ValueIdx

/-! # Region 1: the column statistics of the shifted rows

The region walks the 17 row blocks of a 170000 x 128 array a. With b a single row of 128 entries, the shifted
entry at row r, column l is a r l + b l. At the first block both result rows are set to zero; at every block the
column sums of the block's shifted entries are added into the first result row and the column sums of their squares
into the second. Both rows are written back once, after the last block, so the result arrays hold the column sums over
all 170000 rows. -/

section Pieces

variable {F : FTy → Type} [FloatOps F]

/-- Both offsets of a load or store of a whole buffer are zero. -/
theorem stats1_zero_offsets : (![0, 0] : Fin 2 → Nat) = fun _ => 0 := funext fun a => by fin_cases a <;> rfl

/-- A later block leaves in the first result row the old row plus the block's column sums. -/
theorem stats1_later_sum (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S10000x128 .f32) (x1 : Vec F S1x128 .f32) (xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero stats1_zero_offsets]
  simp only [View.readAt_eq_ld, h1.read_unread, h2.read_unread, h3.read_unread,
    View.ld_unit_zero (S := S10000x128) stats1_zero_offsets, View.ld_unit_zero (S := S1x128) stats1_zero_offsets]

/-- A later block leaves in the second result row the old row plus the column sums of the block's squares. -/
theorem stats1_later_sumsq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S10000x128 .f32) (x1 : Vec F S1x128 .f32) (xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero stats1_zero_offsets]
  simp only [View.readAt_eq_ld, h1.read_unread, h2.read_unread, h4.read_unread,
    View.ld_unit_zero (S := S10000x128) stats1_zero_offsets, View.ld_unit_zero (S := S1x128) stats1_zero_offsets]

/-- The first block stores the zero row, reads it back, and leaves it plus the block's column sums. -/
theorem stats1_first_sum (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S10000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) stats1_zero_offsets, View.readCov_unit_zero (S := S1x128) _ stats1_zero_offsets]
  simp only [View.readAt_eq_ld, h1.read_unread, h2.read_unread,
    View.ld_unit_zero (S := S10000x128) stats1_zero_offsets, View.ld_unit_zero (S := S1x128) stats1_zero_offsets]

/-- The first block likewise leaves in the second result row the zero row plus the column sums of the squares. -/
theorem stats1_first_sumsq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S10000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) stats1_zero_offsets, View.readCov_unit_zero (S := S1x128) _ stats1_zero_offsets]
  simp only [View.readAt_eq_ld, h1.read_unread, h2.read_unread,
    View.ld_unit_zero (S := S10000x128) stats1_zero_offsets, View.ld_unit_zero (S := S1x128) stats1_zero_offsets]

end Pieces

section Arithmetic

/-- The zero row, first result. -/
theorem stats1_zero_row_sum (j : S1x128.Idx) : (k1_pay1 (F := Ideal) : S1x128.Idx → EReal) j = 0 :=
  Ideal.ofBits_zero_f32

/-- The zero row, second result. -/
theorem stats1_zero_row_sumsq (j : S1x128.Idx) : (k1_pay2 (F := Ideal) : S1x128.Idx → EReal) j = 0 :=
  Ideal.ofBits_zero_f32

/-- Column l of the reduced block with row k put back is entry (k, l) of the block. -/
theorem stats1_column_lift (l : Fin 128) (k : Fin (S10000x128.size 0)) :
    reduces_S10000x128_S128.lift (ix1 l) k = ix2 (⟨k.val, k.isLt⟩ : Fin 10000) l := by
  funext c; apply Fin.ext
  fin_cases c <;> rfl

/-- The shifted block at (r, l): the block's entry plus the row's entry at column l. -/
theorem stats1_shifted_apply (x0 : Vec Ideal S10000x128 .f32) (x1 : Vec Ideal S1x128 .f32) (r : Fin 10000) (l : Fin 128) :
    (k1_pay3 x0 x1 : S10000x128.Idx → EReal) (ix2 r l) = x0 (ix2 r l) + x1 (ix2 (0 : Fin 1) l) := by
  unfold k1_pay3
  show (shapeCast S10000x128 x0 shapeCasts_S10000x128_S10000x128 (ix2 r l) : EReal)
    + broadcastTo S10000x128 (shapeCast S1x128 x1 shapeCasts_S1x128_S1x128) broadcasts_S1x128_S10000x128 (ix2 r l) = _
  rw [shapeCast_self, shapeCast_self]
  exact congrArg (fun z : EReal => x0 (ix2 r l) + z) (broadcastTo_1b_ab_apply x1 broadcasts_S1x128_S10000x128 r l)

/-- The first result row after a block: the old row plus the column sums of the shifted block. -/
theorem stats1_sum_step (x0 : Vec Ideal S10000x128 .f32) (x1 : Vec Ideal S1x128 .f32) (acc : Vec Ideal S1x128 .f32) (l : Fin 128) :
    (k1_pay4 x0 x1 acc : S1x128.Idx → EReal) (ix2 (0 : Fin 1) l)
      = acc (ix2 (0 : Fin 1) l) + ∑ r : Fin 10000, (x0 (ix2 r l) + x1 (ix2 (0 : Fin 1) l)) := by
  unfold k1_pay4
  show (shapeCast S1x128 acc shapeCasts_S1x128_S1x128 (ix2 (0 : Fin 1) l) : EReal)
    + shapeCast S1x128 (multiReduction (F := Ideal) .add [0] S128 (k1_pay3 x0 x1) 0x00000000#32 reduces_S10000x128_S128 (.inl rfl) rfl)
        shapeCasts_S128_S1x128 (ix2 (0 : Fin 1) l) = _
  rw [shapeCast_self]
  refine congrArg (fun z : EReal => acc (ix2 (0 : Fin 1) l) + z) ?_
  refine (shapeCast_a_1a_apply _ shapeCasts_S128_S1x128 0 l).trans ?_
  refine (Ideal.multiReduction_add_single (k1_pay3 x0 x1) 0x00000000#32 reduces_S10000x128_S128 (.inl rfl) rfl (ix1 l)).trans ?_
  exact Finset.sum_congr rfl fun k _ => by
    rw [stats1_column_lift]; exact stats1_shifted_apply x0 x1 _ l

/-- The second result row after a block: the old row plus the column sums of the squares of the shifted block. -/
theorem stats1_sumsq_step (x0 : Vec Ideal S10000x128 .f32) (x1 : Vec Ideal S1x128 .f32) (acc : Vec Ideal S1x128 .f32) (l : Fin 128) :
    (k1_pay5 x0 x1 acc : S1x128.Idx → EReal) (ix2 (0 : Fin 1) l)
      = acc (ix2 (0 : Fin 1) l) + ∑ r : Fin 10000, (x0 (ix2 r l) + x1 (ix2 (0 : Fin 1) l)) * (x0 (ix2 r l) + x1 (ix2 (0 : Fin 1) l)) := by
  unfold k1_pay5
  show (shapeCast S1x128 acc shapeCasts_S1x128_S1x128 (ix2 (0 : Fin 1) l) : EReal)
    + shapeCast S1x128 (multiReduction (F := Ideal) .add [0] S128 (mulf (k1_pay3 x0 x1) (k1_pay3 x0 x1)) 0x00000000#32 reduces_S10000x128_S128 (.inl rfl) rfl)
        shapeCasts_S128_S1x128 (ix2 (0 : Fin 1) l) = _
  rw [shapeCast_self]
  refine congrArg (fun z : EReal => acc (ix2 (0 : Fin 1) l) + z) ?_
  refine (shapeCast_a_1a_apply _ shapeCasts_S128_S1x128 0 l).trans ?_
  refine (Ideal.multiReduction_add_single (mulf (k1_pay3 x0 x1) (k1_pay3 x0 x1)) 0x00000000#32 reduces_S10000x128_S128 (.inl rfl) rfl (ix1 l)).trans ?_
  exact Finset.sum_congr rfl fun k _ => by
    rw [stats1_column_lift]
    refine (mulf_apply _ _ _).trans ?_
    rw [stats1_shifted_apply x0 x1 _ l]
    rfl

end Arithmetic

/-! ## The statement: the column sums of the shifted entries, and of their squares -/

/-- Column sums over all 170000 rows of the entries of a shifted by the row b. -/
abbrev colSum1 (a : S170000x128.Idx → EReal) (b : S1x128.Idx → EReal) : S1x128.Idx → EReal :=
  fun i => ∑ r : Fin 170000, (a (ix2 r (i 1)) + b (ix2 (0 : Fin 1) (i 1)))

/-- Column sums over all 170000 rows of the squares of the entries of a shifted by the row b. -/
abbrev colSumSq1 (a : S170000x128.Idx → EReal) (b : S1x128.Idx → EReal) : S1x128.Idx → EReal :=
  fun i => ∑ r : Fin 170000, (a (ix2 r (i 1)) + b (ix2 (0 : Fin 1) (i 1))) * (a (ix2 r (i 1)) + b (ix2 (0 : Fin 1) (i 1)))

section Blocks

variable (V : (c : Dev nD) → (b : Ref sig .tc) → Buf (Elt Ideal) ((c : Thread nD τ).loc b)) (c : Dev nD)
variable (a : S170000x128.Idx → EReal) (b : S1x128.Idx → EReal)

/-- The block maps over the 17 points: the row window is at block row t, the single row and both results stay put. -/
theorem stats1_block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Entry (r, l) of block t of the row window is entry (10000 t + r, l) of the array. -/
theorem stats1_rows_block (ha : V c (Pipeline.arrRef spec1 0) = a) (t : Fin cfg1.N) (r : Fin 10000) (l : Fin 128) (q : Fin 170000)
    (hq : q.val = 10000 * t.val + r.val) :
    (iblk1 V c 0 t : S10000x128.Idx → EReal) (ix2 r l) = a (ix2 q l) := by
  subst ha
  obtain ⟨e0, e1, -⟩ := stats1_block_indices t
  unfold iblk1
  rw [View.read_apply]
  refine congrArg (V c (Pipeline.arrRef spec1 0) : S170000x128.Idx → EReal) ?_
  funext d; apply Fin.ext
  match d with
  | ⟨0, _⟩ => show win1_0.index t (0 : Fin 2) * 10000 + 1 * r.val = q.val; omega
  | ⟨1, _⟩ => show win1_0.index t (1 : Fin 2) * 128 + 1 * l.val = l.val; omega

/-- The single row is the same at every block. -/
theorem stats1_bias_block (hb : V c (Pipeline.arrRef spec1 1) = b) (t : Fin cfg1.N) (l : Fin 128) :
    (iblk1 V c 1 t : S1x128.Idx → EReal) (ix2 (0 : Fin 1) l) = b (ix2 (0 : Fin 1) l) := by
  subst hb
  obtain ⟨-, -, e0, e1, -⟩ := stats1_block_indices t
  unfold iblk1
  rw [View.read_apply]
  refine congrArg (V c (Pipeline.arrRef spec1 1) : S1x128.Idx → EReal) ?_
  funext d; apply Fin.ext
  match d with
  | ⟨0, _⟩ => show win1_1.index t (0 : Fin 2) * 1 + 1 * 0 = 0; omega
  | ⟨1, _⟩ => show win1_1.index t (1 : Fin 2) * 128 + 1 * l.val = l.val; omega

/-- The summand of column l at row q, under a function f of the shifted entry (the identity for the sums, the
    square for the sums of squares); rows past the array contribute nothing. -/
def stats1_term (f : EReal → EReal) (l : Fin 128) (q : ℕ) : EReal :=
  if h : q < 170000 then f (a (ix2 (⟨q, h⟩ : Fin 170000) l) + b (ix2 (0 : Fin 1) l)) else 0

/-- The column sum over block t is the sum of the summands of rows 10000 t .. 10000 t + 9999. -/
theorem stats1_block_sum (ha : V c (Pipeline.arrRef spec1 0) = a) (hb : V c (Pipeline.arrRef spec1 1) = b)
    (f : EReal → EReal) (t : Fin cfg1.N) (l : Fin 128)
    (x0 : Vec Ideal S10000x128 .f32) (x1 : Vec Ideal S1x128 .f32) (hx0 : x0 = iblk1 V c 0 t) (hx1 : x1 = iblk1 V c 1 t) :
    ∑ r : Fin 10000, f (x0 (ix2 r l) + x1 (ix2 (0 : Fin 1) l))
      = ∑ r ∈ Finset.range 10000, stats1_term a b f l (10000 * t.val + r) := by
  have hN : t.val < 17 := lt_of_lt_of_eq t.isLt (show cfg1.N = 17 from N_1)
  rw [← Fin.sum_univ_eq_sum_range (fun r => stats1_term a b f l (10000 * t.val + r)) 10000]
  refine Finset.sum_congr rfl fun r _ => ?_
  have hr : r.val < 10000 := r.isLt
  subst hx0 hx1
  unfold stats1_term
  rw [dif_pos (show 10000 * t.val + r.val < 170000 by omega)]
  exact congrArg f (congrArg₂ (fun (y z : EReal) => y + z)
    (stats1_rows_block V c a ha t r l ⟨10000 * t.val + r.val, by omega⟩ rfl) (stats1_bias_block V c b hb t l))

end Blocks

section Accumulation

variable (V : (c : Dev nD) → (b : Ref sig .tc) → Buf (Elt Ideal) ((c : Thread nD τ).loc b)) (c : Dev nD)
variable (a : S170000x128.Idx → EReal) (b : S1x128.Idx → EReal)

/-- What both result rows hold after the first block. -/
theorem stats1_at_first (t : Fin cfg1.N) (h0 : t.val % 17 = 0) :
    outsAt1 V c t.val t.isLt
      = (k1_pay4 (iblk1 V c 0 t) (iblk1 V c 1 t) (k1_pay1 (F := Ideal)), k1_pay5 (iblk1 V c 0 t) (iblk1 V c 1 t) (k1_pay2 (F := Ideal))) := by
  rw [outsAt1_A V c t h0]
  exact Prod.ext
    (stats1_first_sum (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))
    (stats1_first_sumsq (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

/-- What both result rows hold after a later block, over what the block before left. -/
theorem stats1_at_later (t : Fin cfg1.N) (h0 : ¬t.val % 17 = 0) :
    outsAt1 V c t.val t.isLt
      = (k1_pay4 (iblk1 V c 0 t) (iblk1 V c 1 t) (outsAt1 V c (t.val - 1) (Nat.lt_of_le_of_lt (Nat.sub_le _ _) t.isLt)).1,
         k1_pay5 (iblk1 V c 0 t) (iblk1 V c 1 t) (outsAt1 V c (t.val - 1) (Nat.lt_of_le_of_lt (Nat.sub_le _ _) t.isLt)).2) := by
  rw [outsAt1_B V c t h0]
  exact Prod.ext
    (stats1_later_sum (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)
    (stats1_later_sumsq (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1 (outsAt1 V c (t.val - 1) (Nat.lt_of_le_of_lt (Nat.sub_le _ _) t.isLt)).2)

/-- After block n the result rows hold, at column l, the sums of the summands of rows 0 .. 10000 n + 9999:
    by induction on the block. -/
theorem stats1_running (ha : V c (Pipeline.arrRef spec1 0) = a) (hb : V c (Pipeline.arrRef spec1 1) = b) (l : Fin 128) :
    ∀ (n : ℕ) (h : n < cfg1.N),
    ((outsAt1 V c n h).1 : S1x128.Idx → EReal) (ix2 (0 : Fin 1) l)
        = ∑ q ∈ Finset.range (10000 * n + 10000), stats1_term a b (fun x => x) l q
      ∧ ((outsAt1 V c n h).2 : S1x128.Idx → EReal) (ix2 (0 : Fin 1) l)
        = ∑ q ∈ Finset.range (10000 * n + 10000), stats1_term a b (fun x => x * x) l q
  | 0, h => by
    have e : outsAt1 V c 0 h
        = (k1_pay4 (iblk1 V c 0 ⟨0, h⟩) (iblk1 V c 1 ⟨0, h⟩) (k1_pay1 (F := Ideal)),
           k1_pay5 (iblk1 V c 0 ⟨0, h⟩) (iblk1 V c 1 ⟨0, h⟩) (k1_pay2 (F := Ideal))) :=
      stats1_at_first V c ⟨0, h⟩ rfl
    have z : ∀ g : ℕ → EReal, ∑ q ∈ Finset.range (10000 * 0), g q = 0 := fun g => by
      rw [Nat.mul_zero]; exact Finset.sum_range_zero g
    rw [e, Finset.sum_range_add, Finset.sum_range_add, z, z, zero_add, zero_add]
    constructor
    · refine (stats1_sum_step (iblk1 V c 0 ⟨0, h⟩) (iblk1 V c 1 ⟨0, h⟩) (k1_pay1 (F := Ideal)) l).trans ?_
      rw [stats1_zero_row_sum, zero_add]
      exact stats1_block_sum V c a b ha hb (fun x => x) ⟨0, h⟩ l (iblk1 V c 0 ⟨0, h⟩) (iblk1 V c 1 ⟨0, h⟩) rfl rfl
    · refine (stats1_sumsq_step (iblk1 V c 0 ⟨0, h⟩) (iblk1 V c 1 ⟨0, h⟩) (k1_pay2 (F := Ideal)) l).trans ?_
      rw [stats1_zero_row_sumsq, zero_add]
      exact stats1_block_sum V c a b ha hb (fun x => x * x) ⟨0, h⟩ l (iblk1 V c 0 ⟨0, h⟩) (iblk1 V c 1 ⟨0, h⟩) rfl rfl
  | n + 1, h => by
    have hN : cfg1.N = 17 := N_1
    have hB : ¬(⟨n + 1, h⟩ : Fin cfg1.N).val % 17 = 0 := by dsimp only; omega
    have e : outsAt1 V c (n + 1) h
        = (k1_pay4 (iblk1 V c 0 ⟨n + 1, h⟩) (iblk1 V c 1 ⟨n + 1, h⟩) (outsAt1 V c n (Nat.lt_of_succ_lt h)).1,
           k1_pay5 (iblk1 V c 0 ⟨n + 1, h⟩) (iblk1 V c 1 ⟨n + 1, h⟩) (outsAt1 V c n (Nat.lt_of_succ_lt h)).2) :=
      stats1_at_later V c ⟨n + 1, h⟩ hB
    obtain ⟨ih1, ih2⟩ := stats1_running ha hb l n (Nat.lt_of_succ_lt h)
    have hsplit : 10000 * n + 10000 = 10000 * (n + 1) := by omega
    rw [hsplit] at ih1 ih2
    rw [e, Finset.sum_range_add, Finset.sum_range_add]
    constructor
    · refine (stats1_sum_step (iblk1 V c 0 ⟨n + 1, h⟩) (iblk1 V c 1 ⟨n + 1, h⟩) (outsAt1 V c n (Nat.lt_of_succ_lt h)).1 l).trans ?_
      rw [ih1]
      exact congrArg (fun z : EReal => (∑ q ∈ Finset.range (10000 * (n + 1)), stats1_term a b (fun x => x) l q) + z)
        (stats1_block_sum V c a b ha hb (fun x => x) ⟨n + 1, h⟩ l (iblk1 V c 0 ⟨n + 1, h⟩) (iblk1 V c 1 ⟨n + 1, h⟩) rfl rfl)
    · refine (stats1_sumsq_step (iblk1 V c 0 ⟨n + 1, h⟩) (iblk1 V c 1 ⟨n + 1, h⟩) (outsAt1 V c n (Nat.lt_of_succ_lt h)).2 l).trans ?_
      rw [ih2]
      exact congrArg (fun z : EReal => (∑ q ∈ Finset.range (10000 * (n + 1)), stats1_term a b (fun x => x * x) l q) + z)
        (stats1_block_sum V c a b ha hb (fun x => x * x) ⟨n + 1, h⟩ l (iblk1 V c 0 ⟨n + 1, h⟩) (iblk1 V c 1 ⟨n + 1, h⟩) rfl rfl)

/-- The summands of rows 0 .. 169999 of column l add up to the column sum over the whole array. -/
theorem stats1_total_sum (l : Fin 128) (i : S1x128.Idx) (hi : i 1 = l) :
    ∑ q ∈ Finset.range 170000, stats1_term a b (fun x => x) l q = colSum1 a b i := by
  subst hi
  rw [← Fin.sum_univ_eq_sum_range (fun q => stats1_term a b (fun x => x) (i 1) q) 170000]
  refine Finset.sum_congr rfl fun r _ => ?_
  unfold stats1_term
  rw [dif_pos r.isLt]

/-- The same for the squares. -/
theorem stats1_total_sumsq (l : Fin 128) (i : S1x128.Idx) (hi : i 1 = l) :
    ∑ q ∈ Finset.range 170000, stats1_term a b (fun x => x * x) l q = colSumSq1 a b i := by
  subst hi
  rw [← Fin.sum_univ_eq_sum_range (fun q => stats1_term a b (fun x => x * x) (i 1) q) 170000]
  refine Finset.sum_congr rfl fun r _ => ?_
  unfold stats1_term
  rw [dif_pos r.isLt]

end Accumulation

section Result

variable (V : (c : Dev nD) → (b : Ref sig .tc) → Buf (Elt Ideal) ((c : Thread nD τ).loc b)) (c : Dev nD)
variable (a : S170000x128.Idx → EReal) (b : S1x128.Idx → EReal)

/-- The last block, the one after which the result rows are written back. -/
abbrev stats1_last : Fin cfg1.N := ⟨16, lt_of_lt_of_eq (by decide : 16 < 17) (show cfg1.N = 17 from N_1).symm⟩

/-- After the last block the first result row holds the column sums over all rows. -/
theorem stats1_last_sum (ha : V c (Pipeline.arrRef spec1 0) = a) (hb : V c (Pipeline.arrRef spec1 1) = b) :
    ((outsAt1 V c stats1_last.val stats1_last.isLt).1 : S1x128.Idx → EReal) = colSum1 a b := by
  have h17 : 10000 * 16 + 10000 = 170000 := by norm_num
  funext j
  obtain ⟨p, l, rfl⟩ : ∃ (p : Fin 1) (l : Fin 128), j = ix2 p l := ⟨j 0, j 1, eq_ix2 j⟩
  obtain rfl : p = 0 := Subsingleton.elim _ _
  have e := (stats1_running V c a b ha hb l 16 stats1_last.isLt).1
  rw [h17] at e
  exact e.trans (stats1_total_sum a b l (ix2 (0 : Fin 1) l) rfl)

/-- After the last block the second result row holds the column sums of the squares over all rows. -/
theorem stats1_last_sumsq (ha : V c (Pipeline.arrRef spec1 0) = a) (hb : V c (Pipeline.arrRef spec1 1) = b) :
    ((outsAt1 V c stats1_last.val stats1_last.isLt).2 : S1x128.Idx → EReal) = colSumSq1 a b := by
  have h17 : 10000 * 16 + 10000 = 170000 := by norm_num
  funext j
  obtain ⟨p, l, rfl⟩ : ∃ (p : Fin 1) (l : Fin 128), j = ix2 p l := ⟨j 0, j 1, eq_ix2 j⟩
  obtain rfl : p = 0 := Subsingleton.elim _ _
  have e := (stats1_running V c a b ha hb l 16 stats1_last.isLt).2
  rw [h17] at e
  exact e.trans (stats1_total_sumsq a b l (ix2 (0 : Fin 1) l) rfl)

/-- Both result windows sit at block (0, 0) of their one-row arrays at the last block. -/
theorem stats1_result_offsets_sum : (fun d => win1_2.index stats1_last d * main_v45_0.ty.shape.size d) = fun _ => 0 := by
  obtain ⟨-, -, -, -, e0, e1, -⟩ := stats1_block_indices stats1_last
  funext d
  fin_cases d
  · show win1_2.index stats1_last (0 : Fin 2) * 1 = 0; omega
  · show win1_2.index stats1_last (1 : Fin 2) * 128 = 0; omega

theorem stats1_result_offsets_sumsq : (fun d => win1_3.index stats1_last d * main_v45_1.ty.shape.size d) = fun _ => 0 := by
  obtain ⟨-, -, -, -, -, -, e0, e1⟩ := stats1_block_indices stats1_last
  funext d
  fin_cases d
  · show win1_3.index stats1_last (0 : Fin 2) * 1 = 0; omega
  · show win1_3.index stats1_last (1 : Fin 2) * 128 = 0; omega

/-- The one block of a one-row result array is the array: what the last block's write-back writes of a row X is the
    block read of X, whatever X. -/
theorem stats1_result_block_sum (X : Vec Ideal S1x128 .f32) :
    (cfg1.win 2).cut (grid1.coords stats1_last) X = ((cfg1.win 2).blk stats1_last).view.read (Elt Ideal) X :=
  (Memref.read_access_unit_zero (Elt Ideal) main_v45_0 stats1_result_offsets_sum
    (fun d => by rw [congrFun stats1_result_offsets_sum d]; simp) X).symm

theorem stats1_result_block_sumsq (X : Vec Ideal S1x128 .f32) :
    (cfg1.win 3).cut (grid1.coords stats1_last) X = ((cfg1.win 3).blk stats1_last).view.read (Elt Ideal) X :=
  (Memref.read_access_unit_zero (Elt Ideal) main_v45_1 stats1_result_offsets_sumsq
    (fun d => by rw [congrFun stats1_result_offsets_sumsq d]; simp) X).symm

/-- The one write-back of the first result row, after the last block, writes the column sums. -/
theorem stats1_flushed_sum (ha : V c (Pipeline.arrRef spec1 0) = a) (hb : V c (Pipeline.arrRef spec1 1) = b)
    (t : Fin cfg1.N) (hf : (cfg1.win 2).flush t = true) :
    (dat1 V c).flushed 2 t = ((cfg1.win 2).blk t).view.read (Elt Ideal) (colSum1 a b) := by
  have hN : cfg1.N = 17 := N_1
  have h16 : t.val = 16 := by have := (flush1_2 t).mp hf; have := t.isLt; omega
  obtain rfl : t = stats1_last := Fin.ext h16
  show (cfg1.win 2).cut (grid1.coords stats1_last) ((dat1 V c).after 2 stats1_last) = _
  rw [after1_2, stats1_last_sum V c a b ha hb]
  exact stats1_result_block_sum (colSum1 a b)

/-- The one write-back of the second result row writes the column sums of the squares. -/
theorem stats1_flushed_sumsq (ha : V c (Pipeline.arrRef spec1 0) = a) (hb : V c (Pipeline.arrRef spec1 1) = b)
    (t : Fin cfg1.N) (hf : (cfg1.win 3).flush t = true) :
    (dat1 V c).flushed 3 t = ((cfg1.win 3).blk t).view.read (Elt Ideal) (colSumSq1 a b) := by
  have hN : cfg1.N = 17 := N_1
  have h16 : t.val = 16 := by have := (flush1_3 t).mp hf; have := t.isLt; omega
  obtain rfl : t = stats1_last := Fin.ext h16
  show (cfg1.win 3).cut (grid1.coords stats1_last) ((dat1 V c).after 3 stats1_last) = _
  rw [after1_3, stats1_last_sumsq V c a b ha hb]
  exact stats1_result_block_sumsq (colSumSq1 a b)

/-- An index of the first result array lies in the block of point t iff each coordinate is in the block's range. -/
theorem stats1_mem_block_sum (t : Fin cfg1.N) (i : S1x128.Idx) :
    i ∈ ((cfg1.win 2).blk t).view.set ↔ ∀ d : Fin 2, win1_2.index t d * S1x128.size d ≤ (i d).val ∧ (i d).val < win1_2.index t d * S1x128.size d + S1x128.size d := by
  show i ∈ ((View.whole main_v45_0).slice (win1_2.rect t)).set ↔ _
  rw [View.set_slice_whole, Rect.mem_set_unit]
  exact Iff.rfl

theorem stats1_mem_block_sumsq (t : Fin cfg1.N) (i : S1x128.Idx) :
    i ∈ ((cfg1.win 3).blk t).view.set ↔ ∀ d : Fin 2, win1_3.index t d * S1x128.size d ≤ (i d).val ∧ (i d).val < win1_3.index t d * S1x128.size d + S1x128.size d := by
  show i ∈ ((View.whole main_v45_1).slice (win1_3.rect t)).set ↔ _
  rw [View.set_slice_whole, Rect.mem_set_unit]
  exact Iff.rfl

/-- THE FIRST RESULT ARRAY after the region, for arrays a, b the region finds: the column sums of the shifted entries. -/
theorem stats1_sum_of (ha : V c (Pipeline.arrRef spec1 0) = a) (hb : V c (Pipeline.arrRef spec1 1) = b) :
    (dat1 (F := Ideal) V c).arrAt 2 cfg1.N = colSum1 a b :=
  (dat1 V c).arrAt_eq_of_cover 2 (colSum1 a b) (stats1_flushed_sum V c a b ha hb) fun i =>
    ⟨stats1_last, (flush1_2 stats1_last).mpr rfl, by
      rw [stats1_mem_block_sum]
      obtain ⟨-, -, -, -, e0, e1, -⟩ := stats1_block_indices stats1_last
      have h0 : (i 0).val < 1 := (i 0).isLt
      have h1 : (i 1).val < 128 := (i 1).isLt
      intro d
      match d with
      | ⟨0, _⟩ => show win1_2.index stats1_last (0 : Fin 2) * 1 ≤ (i 0).val ∧ (i 0).val < win1_2.index stats1_last (0 : Fin 2) * 1 + 1; omega
      | ⟨1, _⟩ => show win1_2.index stats1_last (1 : Fin 2) * 128 ≤ (i 1).val ∧ (i 1).val < win1_2.index stats1_last (1 : Fin 2) * 128 + 128; omega⟩

/-- THE SECOND RESULT ARRAY after the region: the column sums of the squares of the shifted entries. -/
theorem stats1_sumsq_of (ha : V c (Pipeline.arrRef spec1 0) = a) (hb : V c (Pipeline.arrRef spec1 1) = b) :
    (dat1 (F := Ideal) V c).arrAt 3 cfg1.N = colSumSq1 a b :=
  (dat1 V c).arrAt_eq_of_cover 3 (colSumSq1 a b) (stats1_flushed_sumsq V c a b ha hb) fun i =>
    ⟨stats1_last, (flush1_3 stats1_last).mpr rfl, by
      rw [stats1_mem_block_sumsq]
      obtain ⟨-, -, -, -, -, -, e0, e1⟩ := stats1_block_indices stats1_last
      have h0 : (i 0).val < 1 := (i 0).isLt
      have h1 : (i 1).val < 128 := (i 1).isLt
      intro d
      match d with
      | ⟨0, _⟩ => show win1_3.index stats1_last (0 : Fin 2) * 1 ≤ (i 0).val ∧ (i 0).val < win1_3.index stats1_last (0 : Fin 2) * 1 + 1; omega
      | ⟨1, _⟩ => show win1_3.index stats1_last (1 : Fin 2) * 128 ≤ (i 1).val ∧ (i 1).val < win1_3.index stats1_last (1 : Fin 2) * 128 + 128; omega⟩

/-- The same at the arrays as the region finds them. -/
theorem stats1_sum : (dat1 (F := Ideal) V c).arrAt 2 cfg1.N = colSum1 (V c (Pipeline.arrRef spec1 0)) (V c (Pipeline.arrRef spec1 1)) :=
  stats1_sum_of V c _ _ rfl rfl

theorem stats1_sumsq : (dat1 (F := Ideal) V c).arrAt 3 cfg1.N = colSumSq1 (V c (Pipeline.arrRef spec1 0)) (V c (Pipeline.arrRef spec1 1)) :=
  stats1_sumsq_of V c _ _ rfl rfl

end Result

end Cert.KernelIdeal.RegionValue

end
-- ==== Proof.Norm2.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # Region 2: normalise and rectify, as one function of its input arrays

Region 2 sweeps seventeen grid points over the row blocks (10000 rows each) of a `[170000, 128]` array `x`. At every
point it reads the block of `x` and five `[1, 128]` rows `b`, `mean`, `rstd`, `g`, `be` (each whole, the same at every
point), and writes the block `max (((x + b) − mean) · rstd · g + be, 0)` of the output array, the rows broadcast down the
block. Read in exact arithmetic this file shows that, whatever the buffers held when the region was entered, the
output array after the last point is that expression position by position: entry `(r, q)` depends on `x (r, q)` and on
column `q` of the five rows only.

The steps: the body's arithmetic at one position of a block (`pay2_apply`); each window's block as a read of its
array (`iblk2_*_apply`, from the index maps decided over the grid, `idx_facts2`); what a point writes back
(`flushed2_eq`); the blocks tile the array (`covered2`); the array (`norm2_array`). -/

noncomputable section

open Idealize.ShloMosaic Idealize.ShloMosaic.TcCoe Idealize.SL.Sem Cert.KernelIdeal Cert.KernelIdeal.Gen

namespace Cert.KernelIdeal.RegionValue

/-- The zero block offset of a whole-buffer access, as a constant function. -/
theorem zeroOffset2 : (![0, 0] : Fin 2 → Nat) = fun _ => 0 := funext fun a => by fin_cases a <;> rfl

/-- The body's arithmetic read at one position `(p, q)` of the block: the five row vectors enter at column `q` only. -/
theorem pay2_apply (x : Vec Ideal S10000x128 .f32) (b mean rstd g be : Vec Ideal S1x128 .f32) (p : Fin 10000) (q : Fin 128) :
    k2_pay1 (F := Ideal) x b mean rstd g be (ValueIdx.ix2 p q)
      = max ((((x (ValueIdx.ix2 p q) + b (ValueIdx.ix2 0 q)) - mean (ValueIdx.ix2 0 q)) * rstd (ValueIdx.ix2 0 q)
          * g (ValueIdx.ix2 0 q) + be (ValueIdx.ix2 0 q))) (Ideal.ofBits .f32 0x00000000#32) := by
  unfold k2_pay1
  simp only [shapeCast_self]
  rw [ValueIdx.maximumf_apply, ValueIdx.addf_apply, ValueIdx.mulf_apply, ValueIdx.mulf_apply, ValueIdx.subf_apply,
    ValueIdx.addf_apply, ValueIdx.broadcast_apply]
  simp only [ValueIdx.broadcastTo_1b_ab_apply]
  rfl

/-- The same with each operand's value at the position given: the form in which the blocks' contents are fed in. -/
theorem pay2_at (x : Vec Ideal S10000x128 .f32) (b mean rstd g be : Vec Ideal S1x128 .f32) (p : Fin 10000) (q : Fin 128)
    (X B M R G E : EReal) (hx : x (ValueIdx.ix2 p q) = X) (hb : b (ValueIdx.ix2 0 q) = B) (hm : mean (ValueIdx.ix2 0 q) = M)
    (hr : rstd (ValueIdx.ix2 0 q) = R) (hg : g (ValueIdx.ix2 0 q) = G) (he : be (ValueIdx.ix2 0 q) = E) :
    k2_pay1 (F := Ideal) x b mean rstd g be (ValueIdx.ix2 p q)
      = max ((((X + B) - M) * R * G + E)) (Ideal.ofBits .f32 0x00000000#32) := by
  rw [pay2_apply, hx, hb, hm, hr, hg, he]

/-- The block index of every window at every grid point: the array window and the output window move down the
    rows with the point, the five row windows stay at the one block there is. -/
theorem idx_facts2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Every row block of the output array is some point's. -/
theorem idx_onto2 : ∀ q0 : Fin 17, ∃ t : Fin cfg2.N, win2_6.index t = ![q0.val, 0] :=
  (by decide +kernel : ∀ q0 : Fin 17, ∃ t : Fin grid2.N, win2_6.index t = ![q0.val, 0])

/-- The array window's block at point `t` is rows `10000 t … 10000 t + 9999` of its array. -/
theorem iblk2_0_apply (V : (c : Dev nD) → (b : Ref sig .tc) → Buf (Elt Ideal) ((c : Thread nD τ).loc b)) (c : Dev nD)
    (t : Fin cfg2.N) (x : S10000x128.Idx) (k : S170000x128.Idx)
    (hk0 : (k 0).val = 10000 * t.val + (x 0).val) (hk1 : (k 1).val = (x 1).val) :
    (iblk2 (F := Ideal) V c 0 t : Vec Ideal S10000x128 .f32) x = (V c (Pipeline.arrRef spec2 0) : S170000x128.Idx → EReal) k := by
  obtain ⟨e0, e1, -⟩ := idx_facts2 t
  unfold iblk2
  rw [View.read_apply]
  refine congrArg (V c (Pipeline.arrRef spec2 0)) (funext fun a => ?_)
  apply Fin.ext
  match a with
  | ⟨0, _⟩ => show win2_0.index t (0 : Fin 2) * 10000 + 1 * (x 0).val = (k 0).val; rw [e0, hk0]; omega
  | ⟨1, _⟩ => show win2_0.index t (1 : Fin 2) * 128 + 1 * (x 1).val = (k 1).val; rw [e1, hk1]; omega

/-- Row window 1's block (the whole `[1, 128]` array, at every point) read at an index is its array there. -/
theorem iblk2_1_apply (V : (c : Dev nD) → (b : Ref sig .tc) → Buf (Elt Ideal) ((c : Thread nD τ).loc b)) (c : Dev nD)
    (t : Fin cfg2.N) (x : S1x128.Idx) :
    (iblk2 (F := Ideal) V c 1 t : Vec Ideal S1x128 .f32) x = (V c (Pipeline.arrRef spec2 1) : S1x128.Idx → EReal) x := by
  obtain ⟨-, -, -, -, e0, e1, -⟩ := idx_facts2 t
  unfold iblk2
  rw [View.read_apply]
  refine congrArg (V c (Pipeline.arrRef spec2 1)) (funext fun a => ?_)
  apply Fin.ext
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

/-- Row window 2's block (the whole `[1, 128]` array, at every point) read at an index is its array there. -/
theorem iblk2_2_apply (V : (c : Dev nD) → (b : Ref sig .tc) → Buf (Elt Ideal) ((c : Thread nD τ).loc b)) (c : Dev nD)
    (t : Fin cfg2.N) (x : S1x128.Idx) :
    (iblk2 (F := Ideal) V c 2 t : Vec Ideal S1x128 .f32) x = (V c (Pipeline.arrRef spec2 2) : S1x128.Idx → EReal) x := by
  obtain ⟨-, -, -, -, -, -, e0, e1, -⟩ := idx_facts2 t
  unfold iblk2
  rw [View.read_apply]
  refine congrArg (V c (Pipeline.arrRef spec2 2)) (funext fun a => ?_)
  apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- Row window 3's block (the whole `[1, 128]` array, at every point) read at an index is its array there. -/
theorem iblk2_3_apply (V : (c : Dev nD) → (b : Ref sig .tc) → Buf (Elt Ideal) ((c : Thread nD τ).loc b)) (c : Dev nD)
    (t : Fin cfg2.N) (x : S1x128.Idx) :
    (iblk2 (F := Ideal) V c 3 t : Vec Ideal S1x128 .f32) x = (V c (Pipeline.arrRef spec2 3) : S1x128.Idx → EReal) x := by
  obtain ⟨-, -, -, -, -, -, -, -, e0, e1, -⟩ := idx_facts2 t
  unfold iblk2
  rw [View.read_apply]
  refine congrArg (V c (Pipeline.arrRef spec2 3)) (funext fun a => ?_)
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- Row window 4's block (the whole `[1, 128]` array, at every point) read at an index is its array there. -/
theorem iblk2_4_apply (V : (c : Dev nD) → (b : Ref sig .tc) → Buf (Elt Ideal) ((c : Thread nD τ).loc b)) (c : Dev nD)
    (t : Fin cfg2.N) (x : S1x128.Idx) :
    (iblk2 (F := Ideal) V c 4 t : Vec Ideal S1x128 .f32) x = (V c (Pipeline.arrRef spec2 4) : S1x128.Idx → EReal) x := by
  obtain ⟨-, -, -, -, -, -, -, -, -, -, e0, e1, -⟩ := idx_facts2 t
  unfold iblk2
  rw [View.read_apply]
  refine congrArg (V c (Pipeline.arrRef spec2 4)) (funext fun a => ?_)
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- Row window 5's block (the whole `[1, 128]` array, at every point) read at an index is its array there. -/
theorem iblk2_5_apply (V : (c : Dev nD) → (b : Ref sig .tc) → Buf (Elt Ideal) ((c : Thread nD τ).loc b)) (c : Dev nD)
    (t : Fin cfg2.N) (x : S1x128.Idx) :
    (iblk2 (F := Ideal) V c 5 t : Vec Ideal S1x128 .f32) x = (V c (Pipeline.arrRef spec2 5) : S1x128.Idx → EReal) x := by
  obtain ⟨-, -, -, -, -, -, -, -, -, -, -, -, e0, e1⟩ := idx_facts2 t
  unfold iblk2
  rw [View.read_apply]
  refine congrArg (V c (Pipeline.arrRef spec2 5)) (funext fun a => ?_)
  apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- Normalise and rectify, position by position: `max (((x + b) − mean) · rstd · g + be, 0)`, the five rows read at the
    position's column. -/
abbrev normRelu2 (x : S170000x128.Idx → EReal) (b mean rstd g be : S1x128.Idx → EReal) : S170000x128.Idx → EReal :=
  fun i => max ((((x i + b (ValueIdx.ix2 0 (i 1))) - mean (ValueIdx.ix2 0 (i 1))) * rstd (ValueIdx.ix2 0 (i 1))
      * g (ValueIdx.ix2 0 (i 1)) + be (ValueIdx.ix2 0 (i 1)))) (Ideal.ofBits .f32 0x00000000#32)

/-- The body's result at position `(p, q)` of point `t`'s block is `normRelu2` of the arrays at row `10000 t + p`,
    column `q`. -/
theorem point2 (V : (c : Dev nD) → (b : Ref sig .tc) → Buf (Elt Ideal) ((c : Thread nD τ).loc b)) (c : Dev nD)
    (t : Fin cfg2.N) (p : Fin 10000) (q : Fin 128) (k : S170000x128.Idx)
    (hk0 : (k 0).val = 10000 * t.val + p.val) (hk1 : (k 1).val = q.val) :
    k2_pay1 (F := Ideal) (iblk2 V c 0 t) (iblk2 V c 1 t) (iblk2 V c 2 t) (iblk2 V c 3 t) (iblk2 V c 4 t) (iblk2 V c 5 t) (ValueIdx.ix2 p q)
      = normRelu2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) k := by
  have hq : q = k 1 := Fin.ext hk1.symm
  subst hq
  exact pay2_at _ _ _ _ _ _ p (k 1) _ _ _ _ _ _ (iblk2_0_apply V c t _ k hk0 rfl) (iblk2_1_apply V c t _)
    (iblk2_2_apply V c t _) (iblk2_3_apply V c t _) (iblk2_4_apply V c t _) (iblk2_5_apply V c t _)

set_option maxHeartbeats 1000000 in
/-- WHAT POINT `t` WRITES BACK is block `t` of `normRelu2` of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 6 t = ((cfg2.win 6).blk t).view.read (Elt Ideal)
      (normRelu2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero zeroOffset2]
  simp only [View.ld_unit_zero (S := S10000x128) zeroOffset2, View.ld_unit_zero (S := S1x128) zeroOffset2]
  obtain ⟨-, -, e0, e1, -⟩ := idx_facts2 t
  funext j
  obtain ⟨p, q, rfl⟩ : ∃ (p : Fin 10000) (q : Fin 128), j = ValueIdx.ix2 p q := ⟨j 0, j 1, ValueIdx.eq_ix2 j⟩
  rw [View.read_apply]
  refine point2 V c t p q _ ?_ ?_
  · show win2_6.index t (0 : Fin 2) * 10000 + 1 * p.val = 10000 * t.val + p.val; rw [e0]; omega
  · show win2_6.index t (1 : Fin 2) * 128 + 1 * q.val = q.val; rw [e1]; omega

/-- An index of the array is in point `t`'s block iff each coordinate is in the block's range on its axis. -/
theorem mem_blk2 (t : Fin cfg2.N) (i : S170000x128.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v58).slice (win2_6.rect t)).set ↔ _
  rw [View.set_slice_whole, Rect.mem_set_unit]
  exact Iff.rfl

/-- The seventeen row blocks tile the array: every index is in some point's block. -/
theorem covered2 (i : S170000x128.Idx) :
    ∃ t : Fin cfg2.N, (cfg2.win 6).flush t = true ∧ i ∈ ((cfg2.win 6).blk t).view.set := by
  have hi0 : (i 0).val < 170000 := (i 0).isLt
  have hi1 : (i 1).val < 128 := (i 1).isLt
  obtain ⟨t, ht⟩ := idx_onto2 ⟨(i 0).val / 10000, by omega⟩
  have q0 : win2_6.index t (0 : Fin 2) = (i 0).val / 10000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- THE OUTPUT ARRAY after the region: the input array normalised with the five rows and rectified, position by
    position, whatever the buffers held when the region was entered. -/
theorem norm2_array (V : (c : Dev nD) → (b : Ref sig .tc) → Buf (Elt Ideal) ((c : Thread nD τ).loc b)) (c : Dev nD) :
    (dat2 (F := Ideal) V c).arrAt 6 cfg2.N
      = normRelu2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (normRelu2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (fun t _ => flushed2_eq V c t) covered2

/-- The same with the six input arrays named: the form that chains with what the regions before left in them. -/
theorem norm2_array_of (V : (c : Dev nD) → (b : Ref sig .tc) → Buf (Elt Ideal) ((c : Thread nD τ).loc b)) (c : Dev nD)
    (x : S170000x128.Idx → EReal) (b mean rstd g be : S1x128.Idx → EReal)
    (hx : V c (Pipeline.arrRef spec2 0) = x) (hb : V c (Pipeline.arrRef spec2 1) = b)
    (hm : V c (Pipeline.arrRef spec2 2) = mean) (hr : V c (Pipeline.arrRef spec2 3) = rstd)
    (hg : V c (Pipeline.arrRef spec2 4) = g) (he : V c (Pipeline.arrRef spec2 5) = be) :
    (dat2 (F := Ideal) V c).arrAt 6 cfg2.N = normRelu2 x b mean rstd g be := by
  subst hx hb hm hr hg he
  exact norm2_array V c

end Cert.KernelIdeal.RegionValue

end
-- ==== Proof.RealAlgebra.lean ====
import Idealize.ShloMosaic.PureOps.Ideal

/-! # Extended-real algebra of mean and variance

The exact semantics of a float is an extended real. The statistics of a normalisation layer — a mean `E h`, a
second moment `E[h²]`, a variance, an inverse square root — are only well behaved on the FINITE values: `∞ − ∞`
and `0 · ∞` are junk. `IsReal x` says that `x` is a real number; it is closed under the arithmetic used here,
and on real data the two ways of writing a variance agree: `E[h²] − (E h)² = E[(h − E h)²]`. -/

noncomputable section

open Idealize.ShloMosaic
open scoped BigOperators

namespace GcnAlgebra

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with hab | hab
  · exact ⟨b, max_eq_right (EReal.coe_le_coe_iff.2 hab)⟩
  · exact ⟨a, max_eq_left (EReal.coe_le_coe_iff.2 hab)⟩

/-- The coercion of a finite sum of reals is the sum of the coercions. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem isReal_sum {ι : Type*} (s : Finset ι) (f : ι → EReal) (h : ∀ i, IsReal (f i)) : IsReal (∑ i ∈ s, f i) := by
  choose r hr using h
  refine ⟨∑ i ∈ s, r i, ?_⟩
  rw [coe_sum]
  exact Finset.sum_congr rfl fun i _ => hr i

/-- A real divided by a nonzero real is real. -/
theorem IsReal.div_coe {x : EReal} (hx : IsReal x) {N : ℝ} (hN : N ≠ 0) : IsReal (Ideal.div x (N : EReal)) := by
  obtain ⟨a, rfl⟩ := hx
  exact ⟨a * (1 / N), by rw [Ideal.div_coe hN, EReal.coe_mul]⟩

/-- The inverse square root of a positive real is real. -/
theorem isReal_rsqrt {x : EReal} {r : ℝ} (hx : x = (r : EReal)) (hr : 0 < r) : IsReal (Ideal.rsqrt x) := by
  subst hx
  refine ⟨(Real.sqrt r)⁻¹, ?_⟩
  rw [Ideal.rsqrt_coe, if_neg (not_lt.2 hr.le), if_neg hr.ne']

/-- The inverse square root of a positive real, spelt out. -/
theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

/-! ## The variance identity over the reals -/

/-- The sum of squared deviations from the mean `μ = S / N` of `N` reals is the sum of squares less `S² / N`. -/
theorem real_sq_dev {ι : Type*} [Fintype ι] (r : ι → ℝ) (N : ℝ) (hN : N = (Fintype.card ι : ℝ)) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  have hexp : ∀ μ : ℝ, ∑ i, (r i - μ) * (r i - μ) = (∑ i, r i * r i) - 2 * μ * (∑ i, r i) + N * (μ * μ) := by
    intro μ
    have hpt : ∀ i, (r i - μ) * (r i - μ) = r i * r i - 2 * μ * r i + μ * μ := fun i => by ring
    rw [Finset.sum_congr rfl fun i _ => hpt i, Finset.sum_add_distrib, Finset.sum_sub_distrib, ← Finset.mul_sum,
      Finset.sum_const, Finset.card_univ, nsmul_eq_mul, ← hN]
  rw [hexp]
  field_simp
  ring

/-! ## The variance identity over the extended reals, on real data -/

/-- A real divided by a nonzero real, as a real. -/
theorem div_coe_coe (a N : ℝ) (hN0 : N ≠ 0) : Ideal.div (a : EReal) (N : EReal) = ((a * (1 / N) : ℝ) : EReal) := by
  rw [Ideal.div_coe hN0, EReal.coe_mul]

/-- The mean-of-squared-deviations form of the variance of real data, as a real. -/
theorem variance_dev_coe {ι : Type*} [Fintype ι] (r : ι → ℝ) (N : ℝ) (hN0 : N ≠ 0) :
    Ideal.div (0 + ∑ i, ((r i : EReal) - Ideal.div (0 + ∑ i, (r i : EReal)) (N : EReal))
        * ((r i : EReal) - Ideal.div (0 + ∑ i, (r i : EReal)) (N : EReal))) (N : EReal)
      = (((∑ i, (r i - (∑ i, r i) * (1 / N)) * (r i - (∑ i, r i) * (1 / N))) * (1 / N) : ℝ) : EReal) := by
  simp only [zero_add]
  rw [← coe_sum, div_coe_coe _ N hN0]
  simp only [← EReal.coe_sub, ← EReal.coe_mul]
  rw [← coe_sum, div_coe_coe _ N hN0]

/-- THE VARIANCE IDENTITY: for finitely many REAL values `h i`, `N` their number,
    `E[h²] − (E h)² = E[(h − E h)²]`. -/
theorem variance_identity {ι : Type*} [Fintype ι] (h : ι → EReal) (hh : ∀ i, IsReal (h i)) (N : ℝ)
    (hN : N = (Fintype.card ι : ℝ)) (hN0 : N ≠ 0) :
    Ideal.div (∑ i, h i * h i) (N : EReal) - Ideal.div (∑ i, h i) (N : EReal) * Ideal.div (∑ i, h i) (N : EReal)
      = Ideal.div (0 + ∑ i, (h i - Ideal.div (0 + ∑ i, h i) (N : EReal)) * (h i - Ideal.div (0 + ∑ i, h i) (N : EReal))) (N : EReal) := by
  choose r hr using hh
  obtain rfl : h = fun i => (r i : EReal) := funext hr
  beta_reduce
  rw [variance_dev_coe r N hN0, ← real_sq_dev r N hN hN0]
  simp only [← EReal.coe_mul]
  rw [← coe_sum, ← coe_sum, div_coe_coe _ N hN0, div_coe_coe _ N hN0, ← EReal.coe_mul, ← EReal.coe_sub]

/-- The variance of real data is a nonnegative real. -/
theorem variance_nonneg {ι : Type*} [Fintype ι] (h : ι → EReal) (hh : ∀ i, IsReal (h i)) (N : ℝ)
    (hN : N = (Fintype.card ι : ℝ)) (hN0 : N ≠ 0) :
    ∃ v : ℝ, 0 ≤ v ∧ Ideal.div (0 + ∑ i, (h i - Ideal.div (0 + ∑ i, h i) (N : EReal)) * (h i - Ideal.div (0 + ∑ i, h i) (N : EReal))) (N : EReal) = (v : EReal) := by
  choose r hr using hh
  obtain rfl : h = fun i => (r i : EReal) := funext hr
  beta_reduce
  refine ⟨_, ?_, variance_dev_coe r N hN0⟩
  have hNpos : 0 ≤ 1 / N := by rw [hN]; positivity
  exact mul_nonneg (Finset.sum_nonneg fun i _ => mul_self_nonneg _) hNpos

end GcnAlgebra
-- ==== Proof.Layer.lean ====
/-
  One normalized layer, as mathematics on the extended reals, over the literal shapes of this network
  (170000 nodes, 128 channels). For an array `a` of pre-activations, per channel `j`:
    mean_j = (0 + Σ_r a(r,j)) / N,   var_j = (0 + Σ_r (a(r,j) − mean_j)²) / N,
    out(r,j) = max ((a(r,j) − mean_j) · rsqrt(var_j + ε) · g_j + β_j, 0)
  (`bnRelu`: the two-pass form, the deviations squared), and the one-pass form (`bnReluOnePass`) that accumulates
  Σ a and Σ a² and takes var_j = (Σ a²)/N − ((Σ a)/N)². The two agree when every a(r,j) is a real number and N is
  the number of rows: E[a²] − (E a)² = E[(a − E a)²], a law of the reals that fails with infinities.
-/
import proofs.«154786_j4337916969345_1_alg».proof.Proof.RealAlgebra
import Idealize.ShloMosaic.Lib.ValueIdx

noncomputable section

namespace GcnLayer

open Idealize.ShloMosaic Idealize.ShloMosaic.ValueIdx GcnAlgebra

/-- Node features: 170000 rows of 128 channels. -/
abbrev Rows : Shape := ⟨2, ![170000, 128]⟩
/-- One value per channel. -/
abbrev Chan : Shape := ⟨1, ![128]⟩

/-- The channel's mean over the rows, as the reference sums it (from an initial zero). -/
def colMean (N : EReal) (a : Rows.Idx → EReal) (j : Fin 128) : EReal :=
  Ideal.div (0 + ∑ r : Fin 170000, a (ix2 r j)) N

/-- The channel's variance: the mean of the squared deviations from the mean. -/
def colVar (N : EReal) (a : Rows.Idx → EReal) (j : Fin 128) : EReal :=
  Ideal.div (0 + ∑ r : Fin 170000, (a (ix2 r j) - colMean N a j) * (a (ix2 r j) - colMean N a j)) N

/-- Normalize by the channel's mean and inverse deviation, scale, shift, clamp at zero. -/
def bnRelu (N eps : EReal) (a : Rows.Idx → EReal) (g be : Chan.Idx → EReal) : Rows.Idx → EReal :=
  fun i => max ((a i - colMean N a (i 1)) * Ideal.rsqrt (colVar N a (i 1) + eps) * g (ix1 (i 1)) + be (ix1 (i 1))) 0

/-- The same layer from the two running sums Σ a and Σ a²: the variance as E[a²] − (E a)². -/
def bnReluOnePass (N eps : EReal) (a : Rows.Idx → EReal) (g be : Chan.Idx → EReal) : Rows.Idx → EReal :=
  fun i => max ((a i - Ideal.div (∑ r : Fin 170000, a (ix2 r (i 1))) N)
      * Ideal.rsqrt (Ideal.div (∑ r : Fin 170000, a (ix2 r (i 1)) * a (ix2 r (i 1))) N
          - Ideal.div (∑ r : Fin 170000, a (ix2 r (i 1))) N * Ideal.div (∑ r : Fin 170000, a (ix2 r (i 1))) N + eps)
      * g (ix1 (i 1)) + be (ix1 (i 1))) 0

/-- On real pre-activations the one-pass layer is the two-pass layer. -/
theorem bnReluOnePass_eq (eps : EReal) (a : Rows.Idx → EReal) (g be : Chan.Idx → EReal) (ha : ∀ i, IsReal (a i)) :
    bnReluOnePass ((170000 : ℝ) : EReal) eps a g be = bnRelu ((170000 : ℝ) : EReal) eps a g be := by
  funext i
  have hN : (170000 : ℝ) = (Fintype.card (Fin 170000) : ℝ) := by simp
  have hv := variance_identity (fun r : Fin 170000 => a (ix2 r (i 1))) (fun r => ha _) (170000 : ℝ) hN (by norm_num)
  beta_reduce at hv
  unfold bnReluOnePass bnRelu colVar colMean
  rw [hv]
  simp only [zero_add]

end GcnLayer

end
-- ==== Proof.OnePass.lean ====
import proofs.«154786_j4337916969345_1_alg».proof.Proof.Layer
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-! # The normalise step, fed by the two running sums, is the one-pass layer

The statistics of a layer reach its normalise step as two `[1, 128]` rows: `S1 = Σ_r a` and `S2 = Σ_r a²` of the
pre-activations `a (r, j) = x (r, j) + b j`. Elementwise operations on rows turn them into the mean `M = S1 / N` and
the inverse deviation `R = rsqrt (S2 / N − M · M + ε)`, the scalars `N` and `ε` splat over the row. The normalise
step is then `max (((x + b) − M) · R · g + β, 0)`, the rows read at the position's column. Read at one position,
every layout operation disappears (a `[128]` vector cast to `[1, 128]` read at `(0, j)` is the vector at `j`; a
splat scalar is the scalar), and what is left is `bnReluOnePass` term for term. -/

noncomputable section

namespace GcnLayer

open Idealize.ShloMosaic Idealize.ShloMosaic.ValueIdx GcnAlgebra

/-- One row of 128 channels. -/
abbrev Row1 : Shape := ⟨2, ![1, 128]⟩
/-- A scalar. -/
abbrev Scal : Shape := ⟨0, ![]⟩

/-- A scalar constant splat over the row is that constant at every column. -/
theorem splat_apply (nb : BitVec 32) (hbc : Scal.BroadcastsInDim Row1 (![] : Fin 0 → Fin Row1.rank)) (j : Row1.Idx) :
    broadcastInDim Row1 ![] hbc (constant (F := Ideal) Scal .f32 nb) j = Ideal.ofBits .f32 nb :=
  broadcastInDim_apply _ hbc _ j ix0 (fun a => a.elim0)

/-- A per-channel vector laid out as a row, read at column `q`, is the vector at `q`. -/
theorem row_apply (v : Chan.Idx → EReal) (hc : Chan.ShapeCasts Row1) (q : Fin 128) :
    shapeCast Row1 v hc (ix2 0 q) = v (ix1 q) := shapeCast_a_1a_apply v hc 0 q

/-- THE NORMALISE STEP IS THE ONE-PASS LAYER. The rows `S1 = Σ_r a`, `S2 = Σ_r a²` of the pre-activations
    `a (r, j) = x (r, j) + b j`, turned into `M = S1 / N` and `R = rsqrt (S2 / N − M · M + ε)`, and then
    `max (((x + b) − M) · R · g + β, 0)` position by position, is `bnReluOnePass N ε a g β`. -/
theorem normalize_is_onePass (x : Rows.Idx → EReal) (b g be : Chan.Idx → EReal) (nb eb : BitVec 32)
    (hc : Chan.ShapeCasts Row1) (hbc : Scal.BroadcastsInDim Row1 (![] : Fin 0 → Fin Row1.rank))
    (S1 S2 M R : Row1.Idx → EReal)
    (hS1 : S1 = fun i => ∑ r : Fin 170000, (x (ix2 r (i 1)) + shapeCast Row1 b hc (ix2 0 (i 1))))
    (hS2 : S2 = fun i => ∑ r : Fin 170000, (x (ix2 r (i 1)) + shapeCast Row1 b hc (ix2 0 (i 1))) * (x (ix2 r (i 1)) + shapeCast Row1 b hc (ix2 0 (i 1))))
    (hM : M = Host.divf (F := Ideal) (φ := .f32) S1 (broadcastInDim Row1 ![] hbc (constant (F := Ideal) Scal .f32 nb)))
    (hR : R = Host.rsqrt (F := Ideal) (addf (subf (Host.divf (F := Ideal) (φ := .f32) S2 (broadcastInDim Row1 ![] hbc (constant (F := Ideal) Scal .f32 nb))) (mulf M M)) (broadcastInDim Row1 ![] hbc (constant (F := Ideal) Scal .f32 eb)))) :
    (fun i : Rows.Idx => max ((((x i + shapeCast Row1 b hc (ix2 0 (i 1))) - M (ix2 0 (i 1))) * R (ix2 0 (i 1)) * shapeCast Row1 g hc (ix2 0 (i 1)) + shapeCast Row1 be hc (ix2 0 (i 1)))) (Ideal.ofBits .f32 0x00000000#32))
      = bnReluOnePass (Ideal.ofBits .f32 nb) (Ideal.ofBits .f32 eb) (fun i => x i + b (ix1 (i 1))) g be := by
  funext i
  have hb' := row_apply b hc (i 1)
  have hg' := row_apply g hc (i 1)
  have he' := row_apply be hc (i 1)
  have hS1' : S1 (ix2 0 (i 1)) = ∑ r : Fin 170000, (x (ix2 r (i 1)) + b (ix1 (i 1))) := by
    rw [hS1]
    show (∑ r : Fin 170000, (x (ix2 r (i 1)) + shapeCast Row1 b hc (ix2 0 (i 1)))) = _
    rw [hb']
  have hS2' : S2 (ix2 0 (i 1)) = ∑ r : Fin 170000, (x (ix2 r (i 1)) + b (ix1 (i 1))) * (x (ix2 r (i 1)) + b (ix1 (i 1))) := by
    rw [hS2]
    show (∑ r : Fin 170000, (x (ix2 r (i 1)) + shapeCast Row1 b hc (ix2 0 (i 1))) * (x (ix2 r (i 1)) + shapeCast Row1 b hc (ix2 0 (i 1)))) = _
    rw [hb']
  have hM' : M (ix2 0 (i 1)) = Ideal.div (∑ r : Fin 170000, (x (ix2 r (i 1)) + b (ix1 (i 1)))) (Ideal.ofBits .f32 nb) := by
    rw [hM]
    show Ideal.div (S1 (ix2 0 (i 1))) (broadcastInDim Row1 ![] hbc (constant (F := Ideal) Scal .f32 nb) (ix2 0 (i 1))) = _
    rw [splat_apply, hS1']
  have hR' : R (ix2 0 (i 1)) = Ideal.rsqrt (Ideal.div (∑ r : Fin 170000, (x (ix2 r (i 1)) + b (ix1 (i 1))) * (x (ix2 r (i 1)) + b (ix1 (i 1)))) (Ideal.ofBits .f32 nb)
      - M (ix2 0 (i 1)) * M (ix2 0 (i 1)) + Ideal.ofBits .f32 eb) := by
    rw [hR]
    show Ideal.rsqrt (Ideal.div (S2 (ix2 0 (i 1))) (broadcastInDim Row1 ![] hbc (constant (F := Ideal) Scal .f32 nb) (ix2 0 (i 1)))
      - M (ix2 0 (i 1)) * M (ix2 0 (i 1)) + broadcastInDim Row1 ![] hbc (constant (F := Ideal) Scal .f32 eb) (ix2 0 (i 1))) = _
    rw [splat_apply, splat_apply, hS2']
  show max ((((x i + shapeCast Row1 b hc (ix2 0 (i 1))) - M (ix2 0 (i 1))) * R (ix2 0 (i 1)) * shapeCast Row1 g hc (ix2 0 (i 1)) + shapeCast Row1 be hc (ix2 0 (i 1)))) (Ideal.ofBits .f32 0x00000000#32) = _
  rw [hR', hM', hb', hg', he', Ideal.ofBits_zero_f32]
  rfl

end GcnLayer

end
-- ==== Proof.RefLayers.lean ====
/-
  The reference network, read as mathematics on the extended reals. The reference is a three-layer graph convolution
  with a normalization after each of the first two layers: per layer, features are multiplied by a weight matrix,
  rows are gathered along the edges, scaled by the edge weight d(src)^(-1/2) · d(dst)^(-1/2), summed into their
  destination rows and shifted by a bias (the pre-activations); then each channel is centred by its mean over the rows,
  divided by the square root of its variance plus ε, scaled, shifted, and clamped at zero.

  Three things are stated here. (1) The float constants the reference spells are the reals they denote: 170000, a
  positive ε, 0 and 1. (2) THE LAYER READ: the reference's normalized activations (after layer 1 and after layer 2) are
  the layer function bnRelu of its pre-activations — the chain mean, deviation, square, sum, variance, inverse square
  root, scale, shift, clamp read element by element. (3) REALNESS: when every entry of the float arguments is a real
  number, so is every entry of the edge weights, of both layers' pre-activations and of the first layer's activations:
  gathers and broadcasts read an entry, scatter-adds and contractions are finite sums of products, a node's degree is a
  finite sum of ones (where it is positive its inverse square root is real, elsewhere the normalizer is the constant
  zero), and the variance of real data is a nonnegative real, so adding ε > 0 keeps its inverse square root real.
-/
import proofs.«154786_j4337916969345_1_alg».proof.Proof.RefRead
import proofs.«154786_j4337916969345_1_alg».proof.Proof.Layer
import Idealize.ShloMosaic.PureOps.Ideal.Laws
import Idealize.ShloMosaic.Lib.Pipeline.Value

noncomputable section

namespace Cert.ReferenceIdeal.RefLayers

open Idealize.ShloMosaic Idealize.ShloMosaic.ValueIdx GcnAlgebra GcnLayer

/-! ## The float constants of the reference, as extended reals -/

/-- The pattern 0x48260400 denotes the number of rows: a normal number, 10880000 · 2⁻⁶ = 170000. -/
theorem ofBits_N : Ideal.ofBits .f32 0x48260400#32 = ((170000 : ℝ) : EReal) := by
  simp [Ideal.ofBits, Ideal.ieee, -EReal.coe_mul]; norm_num

/-- The pattern 0x3727C5AC (the float nearest 1e-5) denotes a positive real: a normal number, 10995116 · 2⁻⁴⁰. -/
theorem ofBits_eps : ∃ e : ℝ, 0 < e ∧ Ideal.ofBits .f32 0x3727C5AC#32 = (e : EReal) := by
  simp [Ideal.ofBits, Ideal.ieee, -EReal.coe_mul]

/-- The pattern 0 denotes zero. -/
theorem ofBits_zero : Ideal.ofBits .f32 0x00000000#32 = 0 := Ideal.ofBits_zero_f32

/-- The pattern 0x3F800000 denotes one. -/
theorem ofBits_one : Ideal.ofBits .f32 0x3F800000#32 = 1 := by
  simp [Ideal.ofBits, Ideal.ieee, -EReal.coe_mul]; norm_num

/-! ## The host operations keep real arrays real -/

/-- A gather reads its operand at some index: of a real array, real. -/
theorem isReal_gather {s si t : Shape} {w : Nat} (d : GatherDims s si t) (x : s.Idx → EReal) (idx : IVec si w)
    (hx : ∀ i, IsReal (x i)) (j : t.Idx) : IsReal (Host.gather d x idx j) := hx _

/-- A scatter-add's element is the operand's plus a finite sum of updates: of real arrays, real. -/
theorem isReal_scatterAdd {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd (F := Ideal) d x idx upd i) := by
  simp only [Host.scatterAdd, Ideal.hostScatterAdd_def, Ideal.hostScatterAdd]
  exact (hx i).add (isReal_sum _ _ hu)

/-- A broadcast reads its operand at some index: of a real array, real. -/
theorem isReal_broadcastInDim {s t : Shape} (dims : Fin s.rank → Fin t.rank) (h : s.BroadcastsInDim t dims)
    (x : s.Idx → EReal) (hx : ∀ i, IsReal (x i)) (j : t.Idx) : IsReal (broadcastInDim t dims h x j) := hx _

/-- The normalized layer of a real array, with real scale and shift and a positive real ε, is real: the variance is a
    nonnegative real, so variance + ε is a positive real and its inverse square root is real. -/
theorem isReal_bnRelu (e : ℝ) (he : 0 < e) (a : Rows.Idx → EReal) (g be : Chan.Idx → EReal) (ha : ∀ i, IsReal (a i))
    (hg : ∀ i, IsReal (g i)) (hbe : ∀ i, IsReal (be i)) (i : Rows.Idx) :
    IsReal (bnRelu ((170000 : ℝ) : EReal) (e : EReal) a g be i) := by
  have hN : (170000 : ℝ) = (Fintype.card (Fin 170000) : ℝ) := by simp
  have hmean : IsReal (colMean ((170000 : ℝ) : EReal) a (i 1)) := by
    unfold colMean
    exact (isReal_zero.add (isReal_sum _ _ fun r => ha _)).div_coe (by norm_num)
  obtain ⟨v, hv0, hv⟩ := variance_nonneg (fun r : Fin 170000 => a (ix2 r (i 1))) (fun r => ha _) (170000 : ℝ) hN (by norm_num)
  beta_reduce at hv
  have hvar : colVar ((170000 : ℝ) : EReal) a (i 1) + (e : EReal) = ((v + e : ℝ) : EReal) := by
    unfold colVar colMean
    rw [hv]
    exact (EReal.coe_add v e).symm
  have hrs : IsReal (Ideal.rsqrt (colVar ((170000 : ℝ) : EReal) a (i 1) + (e : EReal))) :=
    isReal_rsqrt hvar (by positivity)
  unfold bnRelu
  exact (((((ha i).sub hmean).mul hrs).mul (hg _)).add (hbe _)).max isReal_zero

open Cert.ReferenceIdeal Cert.ReferenceIdeal.Gen Cert.ReferenceIdeal.ReadP Idealize.ShloMosaic.StableHlo

section Layer1

variable (x0 : (⟨S170000x128, .f32⟩ : BufTy).Contents (Elt Ideal)) (x1 : (⟨S2x1200000, .i32⟩ : BufTy).Contents (Elt Ideal)) (x2 : (⟨S128x128, .f32⟩ : BufTy).Contents (Elt Ideal)) (x3 x4 x5 : (⟨S128, .f32⟩ : BufTy).Contents (Elt Ideal))

/-- The index the column sum reads at row k of channel j. -/
theorem idx_main_v47_eq (j : S128.Idx) (k : Fin 170000) : idx_main_v47 j k = ix2 (n0 := 170000) (n1 := 128) k (j 0) := by
  funext a; match a with | ⟨0, _⟩ => rfl | ⟨1, _⟩ => rfl

/-- The index the sum of squares reads at row k of channel j. -/
theorem idx_main_v54_eq (j : S128.Idx) (k : Fin 170000) : idx_main_v54 j k = ix2 (n0 := 170000) (n1 := 128) k (j 0) := by
  funext a; match a with | ⟨0, _⟩ => rfl | ⟨1, _⟩ => rfl

/-- The scale's entry a row-major element reads: its channel's. -/
theorem idx_main_v66_v67_eq (i : S170000x128.Idx) : idx_main_v66 (idx_main_v67 i) = ix1 (n := 128) (i 1) := by
  funext a; match a with | ⟨0, _⟩ => rfl

/-- The shift's entry a row-major element reads: its channel's. -/
theorem idx_main_v69_v70_eq (i : S170000x128.Idx) : idx_main_v69 (idx_main_v70 i) = ix1 (n := 128) (i 1) := by
  funext a; match a with | ⟨0, _⟩ => rfl

/-- The mean the reference computes per channel is the layer's column mean of the pre-activations. -/
theorem mean1 (j : S128.Idx) :
    val_main_v49 (F := Ideal) x0 x1 x2 x3 j
      = colMean (Ideal.ofBits .f32 0x48260400#32) (val_main_v46 (F := Ideal) x0 x1 x2 x3) (j 0) := by
  rw [val_main_v49_apply, val_main_v47_apply, val_main_v48_apply, val_main_cst_10_apply, val_main_cst_9_apply]
  generalize val_main_v46 (F := Ideal) x0 x1 x2 x3 = a
  simp only [idx_main_v47_eq]
  unfold colMean
  simp only [Ideal.hostDivf_def, Ideal.ofBits_def, Ideal.ofBits_zero_f32]

/-- The deviation from the channel's mean (the copy that is squared). -/
theorem dev1a (i : S170000x128.Idx) :
    val_main_v52 (F := Ideal) x0 x1 x2 x3 i
      = val_main_v46 (F := Ideal) x0 x1 x2 x3 i - colMean (Ideal.ofBits .f32 0x48260400#32) (val_main_v46 (F := Ideal) x0 x1 x2 x3) (i 1) := by
  rw [val_main_v52_apply, val_main_v51_apply, val_main_v50_apply, mean1]
  generalize val_main_v46 (F := Ideal) x0 x1 x2 x3 = a
  rfl

/-- The deviation from the channel's mean (the copy that is normalized). -/
theorem dev1b (i : S170000x128.Idx) :
    val_main_v59 (F := Ideal) x0 x1 x2 x3 i
      = val_main_v46 (F := Ideal) x0 x1 x2 x3 i - colMean (Ideal.ofBits .f32 0x48260400#32) (val_main_v46 (F := Ideal) x0 x1 x2 x3) (i 1) := by
  rw [val_main_v59_apply, val_main_v58_apply, val_main_v57_apply, mean1]
  generalize val_main_v46 (F := Ideal) x0 x1 x2 x3 = a
  rfl

/-- One summand of the sum of squares: the squared deviation of row k in channel j. -/
theorem sq1 (j : S128.Idx) (k : Fin 170000) :
    val_main_v53 (F := Ideal) x0 x1 x2 x3 (idx_main_v54 j k)
      = (val_main_v46 (F := Ideal) x0 x1 x2 x3 (ix2 k (j 0)) - colMean (Ideal.ofBits .f32 0x48260400#32) (val_main_v46 (F := Ideal) x0 x1 x2 x3) (j 0))
        * (val_main_v46 (F := Ideal) x0 x1 x2 x3 (ix2 k (j 0)) - colMean (Ideal.ofBits .f32 0x48260400#32) (val_main_v46 (F := Ideal) x0 x1 x2 x3) (j 0)) := by
  rw [val_main_v53_apply, dev1a, idx_main_v54_eq]
  generalize val_main_v46 (F := Ideal) x0 x1 x2 x3 = a
  rfl

/-- The variance the reference computes per channel is the layer's column variance. -/
theorem var1 (j : S128.Idx) :
    val_main_v56 (F := Ideal) x0 x1 x2 x3 j
      = colVar (Ideal.ofBits .f32 0x48260400#32) (val_main_v46 (F := Ideal) x0 x1 x2 x3) (j 0) := by
  rw [val_main_v56_apply, val_main_v54_apply, val_main_v55_apply, val_main_cst_12_apply, val_main_cst_11_apply]
  simp only [sq1]
  generalize val_main_v46 (F := Ideal) x0 x1 x2 x3 = a
  unfold colVar
  simp only [Ideal.hostDivf_def, Ideal.ofBits_def, Ideal.ofBits_zero_f32]

/-- The inverse deviation per channel. -/
theorem rstd1 (j : S128.Idx) :
    val_main_v62 (F := Ideal) x0 x1 x2 x3 j
      = Ideal.rsqrt (colVar (Ideal.ofBits .f32 0x48260400#32) (val_main_v46 (F := Ideal) x0 x1 x2 x3) (j 0) + Ideal.ofBits .f32 0x3727C5AC#32) := by
  rw [val_main_v62_apply, val_main_v61_apply, var1, val_main_v60_apply, val_main_cst_13_apply]
  generalize val_main_v46 (F := Ideal) x0 x1 x2 x3 = a
  rfl

/-- THE LAYER READ: the reference's normalized, clamped activations are the layer function of its pre-activations. -/
theorem v72_eq :
    val_main_v72 (F := Ideal) x0 x1 x2 x3 x4 x5
      = bnRelu (Ideal.ofBits .f32 0x48260400#32) (Ideal.ofBits .f32 0x3727C5AC#32) (val_main_v46 (F := Ideal) x0 x1 x2 x3) x4 x5 := by
  funext i
  rw [val_main_v72_apply, val_main_v71_apply, val_main_v68_apply, val_main_v65_apply, dev1b, val_main_v64_apply, val_main_v63_apply,
    rstd1, val_main_v67_apply, val_main_v66_apply, val_main_v70_apply, val_main_v69_apply, val_main_call1_v0_apply, val_main_call1_cst_apply,
    idx_main_v66_v67_eq, idx_main_v69_v70_eq]
  generalize val_main_v46 (F := Ideal) x0 x1 x2 x3 = a
  unfold bnRelu
  simp only [Ideal.maximumf_def, Ideal.addf_def, Ideal.mulf_def, Ideal.ofBits_def, Ideal.ofBits_zero_f32]
  rfl

end Layer1

section Layer2

variable (x0 : (⟨S170000x128, .f32⟩ : BufTy).Contents (Elt Ideal)) (x1 : (⟨S2x1200000, .i32⟩ : BufTy).Contents (Elt Ideal)) (x2 : (⟨S128x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal))

/-- The index the column sum reads at row k of channel j. -/
theorem idx_main_v90_eq (j : S128.Idx) (k : Fin 170000) : idx_main_v90 j k = ix2 (n0 := 170000) (n1 := 128) k (j 0) := by
  funext a; match a with | ⟨0, _⟩ => rfl | ⟨1, _⟩ => rfl

/-- The index the sum of squares reads at row k of channel j. -/
theorem idx_main_v97_eq (j : S128.Idx) (k : Fin 170000) : idx_main_v97 j k = ix2 (n0 := 170000) (n1 := 128) k (j 0) := by
  funext a; match a with | ⟨0, _⟩ => rfl | ⟨1, _⟩ => rfl

/-- The scale's entry a row-major element reads: its channel's. -/
theorem idx_main_v109_v110_eq (i : S170000x128.Idx) : idx_main_v109 (idx_main_v110 i) = ix1 (n := 128) (i 1) := by
  funext a; match a with | ⟨0, _⟩ => rfl

/-- The shift's entry a row-major element reads: its channel's. -/
theorem idx_main_v112_v113_eq (i : S170000x128.Idx) : idx_main_v112 (idx_main_v113 i) = ix1 (n := 128) (i 1) := by
  funext a; match a with | ⟨0, _⟩ => rfl

/-- The mean the reference computes per channel is the layer's column mean of the pre-activations. -/
theorem mean2 (j : S128.Idx) :
    val_main_v92 (F := Ideal) x0 x1 x2 x3 x4 x5 x6 x7 j
      = colMean (Ideal.ofBits .f32 0x48260400#32) (val_main_v89 (F := Ideal) x0 x1 x2 x3 x4 x5 x6 x7) (j 0) := by
  rw [val_main_v92_apply, val_main_v90_apply, val_main_v91_apply, val_main_cst_18_apply, val_main_cst_17_apply]
  generalize val_main_v89 (F := Ideal) x0 x1 x2 x3 x4 x5 x6 x7 = a
  simp only [idx_main_v90_eq]
  unfold colMean
  simp only [Ideal.hostDivf_def, Ideal.ofBits_def, Ideal.ofBits_zero_f32]

/-- The deviation from the channel's mean (the copy that is squared). -/
theorem dev2a (i : S170000x128.Idx) :
    val_main_v95 (F := Ideal) x0 x1 x2 x3 x4 x5 x6 x7 i
      = val_main_v89 (F := Ideal) x0 x1 x2 x3 x4 x5 x6 x7 i - colMean (Ideal.ofBits .f32 0x48260400#32) (val_main_v89 (F := Ideal) x0 x1 x2 x3 x4 x5 x6 x7) (i 1) := by
  rw [val_main_v95_apply, val_main_v94_apply, val_main_v93_apply, mean2]
  generalize val_main_v89 (F := Ideal) x0 x1 x2 x3 x4 x5 x6 x7 = a
  rfl

/-- The deviation from the channel's mean (the copy that is normalized). -/
theorem dev2b (i : S170000x128.Idx) :
    val_main_v102 (F := Ideal) x0 x1 x2 x3 x4 x5 x6 x7 i
      = val_main_v89 (F := Ideal) x0 x1 x2 x3 x4 x5 x6 x7 i - colMean (Ideal.ofBits .f32 0x48260400#32) (val_main_v89 (F := Ideal) x0 x1 x2 x3 x4 x5 x6 x7) (i 1) := by
  rw [val_main_v102_apply, val_main_v101_apply, val_main_v100_apply, mean2]
  generalize val_main_v89 (F := Ideal) x0 x1 x2 x3 x4 x5 x6 x7 = a
  rfl

/-- One summand of the sum of squares: the squared deviation of row k in channel j. -/
theorem sq2 (j : S128.Idx) (k : Fin 170000) :
    val_main_v96 (F := Ideal) x0 x1 x2 x3 x4 x5 x6 x7 (idx_main_v97 j k)
      = (val_main_v89 (F := Ideal) x0 x1 x2 x3 x4 x5 x6 x7 (ix2 k (j 0)) - colMean (Ideal.ofBits .f32 0x48260400#32) (val_main_v89 (F := Ideal) x0 x1 x2 x3 x4 x5 x6 x7) (j 0))
        * (val_main_v89 (F := Ideal) x0 x1 x2 x3 x4 x5 x6 x7 (ix2 k (j 0)) - colMean (Ideal.ofBits .f32 0x48260400#32) (val_main_v89 (F := Ideal) x0 x1 x2 x3 x4 x5 x6 x7) (j 0)) := by
  rw [val_main_v96_apply, dev2a, idx_main_v97_eq]
  generalize val_main_v89 (F := Ideal) x0 x1 x2 x3 x4 x5 x6 x7 = a
  rfl

/-- The variance the reference computes per channel is the layer's column variance. -/
theorem var2 (j : S128.Idx) :
    val_main_v99 (F := Ideal) x0 x1 x2 x3 x4 x5 x6 x7 j
      = colVar (Ideal.ofBits .f32 0x48260400#32) (val_main_v89 (F := Ideal) x0 x1 x2 x3 x4 x5 x6 x7) (j 0) := by
  rw [val_main_v99_apply, val_main_v97_apply, val_main_v98_apply, val_main_cst_20_apply, val_main_cst_19_apply]
  simp only [sq2]
  generalize val_main_v89 (F := Ideal) x0 x1 x2 x3 x4 x5 x6 x7 = a
  unfold colVar
  simp only [Ideal.hostDivf_def, Ideal.ofBits_def, Ideal.ofBits_zero_f32]

/-- The inverse deviation per channel. -/
theorem rstd2 (j : S128.Idx) :
    val_main_v105 (F := Ideal) x0 x1 x2 x3 x4 x5 x6 x7 j
      = Ideal.rsqrt (colVar (Ideal.ofBits .f32 0x48260400#32) (val_main_v89 (F := Ideal) x0 x1 x2 x3 x4 x5 x6 x7) (j 0) + Ideal.ofBits .f32 0x3727C5AC#32) := by
  rw [val_main_v105_apply, val_main_v104_apply, var2, val_main_v103_apply, val_main_cst_21_apply]
  generalize val_main_v89 (F := Ideal) x0 x1 x2 x3 x4 x5 x6 x7 = a
  rfl

/-- THE LAYER READ: the reference's normalized, clamped activations are the layer function of its pre-activations. -/
theorem v115_eq :
    val_main_v115 (F := Ideal) x0 x1 x2 x3 x4 x5 x6 x7 x8 x9
      = bnRelu (Ideal.ofBits .f32 0x48260400#32) (Ideal.ofBits .f32 0x3727C5AC#32) (val_main_v89 (F := Ideal) x0 x1 x2 x3 x4 x5 x6 x7) x8 x9 := by
  funext i
  rw [val_main_v115_apply, val_main_v114_apply, val_main_v111_apply, val_main_v108_apply, dev2b, val_main_v107_apply, val_main_v106_apply,
    rstd2, val_main_v110_apply, val_main_v109_apply, val_main_v113_apply, val_main_v112_apply, val_main_call2_v0_apply, val_main_call2_cst_apply,
    idx_main_v109_v110_eq, idx_main_v112_v113_eq]
  generalize val_main_v89 (F := Ideal) x0 x1 x2 x3 x4 x5 x6 x7 = a
  unfold bnRelu
  simp only [Ideal.maximumf_def, Ideal.addf_def, Ideal.mulf_def, Ideal.ofBits_def, Ideal.ofBits_zero_f32]
  rfl

end Layer2

/-! ## The reference's intermediate arrays are real when the float arguments are -/

section Real

/-- The float pattern of zero, as the constant operation reads it, is real. -/
theorem isReal_const_zero : IsReal (FloatOps.ofBits (F := Ideal) .f32 0x00000000#32) := by
  rw [Ideal.ofBits_def, Ideal.ofBits_zero_f32]; exact isReal_zero

/-- The float pattern of one, as the constant operation reads it, is real. -/
theorem isReal_const_one : IsReal (FloatOps.ofBits (F := Ideal) .f32 0x3F800000#32) := by
  rw [Ideal.ofBits_def, ofBits_one]; exact ⟨1, EReal.coe_one.symm⟩

variable (x0 : (⟨S170000x128, .f32⟩ : BufTy).Contents (Elt Ideal)) (x1 : (⟨S2x1200000, .i32⟩ : BufTy).Contents (Elt Ideal)) (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 : (⟨S128, .f32⟩ : BufTy).Contents (Elt Ideal))

/-- The degree of a node: zero plus a finite sum of ones. -/
theorem isReal_v10 (i : S170000.Idx) : IsReal (val_main_v10 (F := Ideal) x1 i) := by
  unfold val_main_v10
  refine isReal_scatterAdd _ _ _ _ (fun i => ?_) (fun j => ?_) i
  · rw [val_main_v8_apply, val_main_cst_0_apply]; exact isReal_const_zero
  · rw [val_main_v7_apply, val_main_cst_apply]; exact isReal_const_one

/-- The node's normalizer: the inverse square root of its degree where that is positive (a positive real, so the
    inverse square root is real), the constant zero elsewhere. -/
theorem isReal_v14 (i : S170000.Idx) : IsReal (val_main_v14 (F := Ideal) x1 i) := by
  rw [val_main_v14_apply, val_main_v12_apply, val_main_v13_apply, val_main_v11_apply, val_main_cst_1_apply,
    val_main_call0_v1_apply, val_main_call0_v0_apply, val_main_cst_2_apply]
  obtain ⟨r, hr⟩ := isReal_v10 x1 i
  rw [hr]
  simp only [Ideal.ofBits_def, Ideal.ofBits_zero_f32, Ideal.hostUnary_rsqrt_def, Ideal.cmpf_def]
  by_cases h : 0 < r
  · have hc : Ideal.cmp .ogt (r : EReal) 0 = 1#1 := by simp [Ideal.cmp, h]
    rw [hc, select_one]
    exact isReal_rsqrt rfl h
  · have hc : Ideal.cmp .ogt (r : EReal) 0 = 0#1 := by simp [Ideal.cmp, h]
    rw [hc, select_zero]
    exact isReal_zero

/-- An edge's weight: the product of its two endpoints' normalizers. -/
theorem isReal_v29 (i : S1370000.Idx) : IsReal (val_main_v29 (F := Ideal) x1 i) := by
  rw [val_main_v29_apply, Ideal.mulf_def]
  unfold val_main_v21 val_main_v28
  exact (isReal_gather _ _ _ (isReal_v14 x1) i).mul (isReal_gather _ _ _ (isReal_v14 x1) i)

/-- The first layer's transformed features: finite sums of products of reals. -/
theorem isReal_v30 (hx0 : ∀ i, IsReal (x0 i)) (hx2 : ∀ i, IsReal (x2 i)) (i : S170000x128.Idx) :
    IsReal (val_main_v30 (F := Ideal) x0 x2 i) := by
  rw [val_main_v30_apply]
  exact isReal_sum _ _ fun k => (hx0 _).mul (hx2 _)

/-- The first layer's pre-activations: zero plus a finite sum of weighted gathered rows, plus the bias. -/
theorem isReal_v46 (hx0 : ∀ i, IsReal (x0 i)) (hx2 : ∀ i, IsReal (x2 i)) (hx3 : ∀ i, IsReal (x3 i)) (i : S170000x128.Idx) :
    IsReal (val_main_v46 (F := Ideal) x0 x1 x2 x3 i) := by
  rw [val_main_v46_apply, Ideal.addf_def]
  refine IsReal.add ?_ ?_
  · unfold val_main_v43
    refine isReal_scatterAdd _ _ _ _ (fun i => ?_) (fun j => ?_) i
    · rw [val_main_v41_apply, val_main_cst_8_apply]; exact isReal_const_zero
    · rw [val_main_v40_apply, Ideal.mulf_def, val_main_v39_apply, val_main_v38_apply]
      refine IsReal.mul ?_ (isReal_v29 x1 _)
      unfold val_main_v37
      exact isReal_gather _ _ _ (isReal_v30 x0 x2 hx0 hx2) j
  · rw [val_main_v45_apply, val_main_v44_apply]; exact hx3 _

/-- The first layer's activations: the normalized layer of real pre-activations. -/
theorem isReal_v72 (hx0 : ∀ i, IsReal (x0 i)) (hx2 : ∀ i, IsReal (x2 i)) (hx3 : ∀ i, IsReal (x3 i))
    (hx4 : ∀ i, IsReal (x4 i)) (hx5 : ∀ i, IsReal (x5 i)) (i : S170000x128.Idx) :
    IsReal (val_main_v72 (F := Ideal) x0 x1 x2 x3 x4 x5 i) := by
  obtain ⟨e, he, hE⟩ := ofBits_eps
  rw [v72_eq, ofBits_N, hE]
  exact isReal_bnRelu e he _ x4 x5 (isReal_v46 x0 x1 x2 x3 hx0 hx2 hx3) hx4 hx5 i

/-- The second layer's transformed features. -/
theorem isReal_v73 (hx0 : ∀ i, IsReal (x0 i)) (hx2 : ∀ i, IsReal (x2 i)) (hx3 : ∀ i, IsReal (x3 i))
    (hx4 : ∀ i, IsReal (x4 i)) (hx5 : ∀ i, IsReal (x5 i)) (hx6 : ∀ i, IsReal (x6 i)) (i : S170000x128.Idx) :
    IsReal (val_main_v73 (F := Ideal) x0 x1 x2 x3 x4 x5 x6 i) := by
  rw [val_main_v73_apply]
  exact isReal_sum _ _ fun k => (isReal_v72 x0 x1 x2 x3 x4 x5 hx0 hx2 hx3 hx4 hx5 _).mul (hx6 _)

/-- The second layer's pre-activations. -/
theorem isReal_v89 (hx0 : ∀ i, IsReal (x0 i)) (hx2 : ∀ i, IsReal (x2 i)) (hx3 : ∀ i, IsReal (x3 i))
    (hx4 : ∀ i, IsReal (x4 i)) (hx5 : ∀ i, IsReal (x5 i)) (hx6 : ∀ i, IsReal (x6 i)) (hx7 : ∀ i, IsReal (x7 i))
    (i : S170000x128.Idx) : IsReal (val_main_v89 (F := Ideal) x0 x1 x2 x3 x4 x5 x6 x7 i) := by
  rw [val_main_v89_apply, Ideal.addf_def]
  refine IsReal.add ?_ ?_
  · unfold val_main_v86
    refine isReal_scatterAdd _ _ _ _ (fun i => ?_) (fun j => ?_) i
    · rw [val_main_v84_apply, val_main_cst_16_apply]; exact isReal_const_zero
    · rw [val_main_v83_apply, Ideal.mulf_def, val_main_v82_apply, val_main_v81_apply]
      refine IsReal.mul ?_ (isReal_v29 x1 _)
      unfold val_main_v80
      exact isReal_gather _ _ _ (isReal_v73 x0 x1 x2 x3 x4 x5 x6 hx0 hx2 hx3 hx4 hx5 hx6) j
  · rw [val_main_v88_apply, val_main_v87_apply]; exact hx7 _

end Real

end Cert.ReferenceIdeal.RefLayers
end
-- ==== Proof.ChainLayer1b.lean ====
/-
  The first layer's normalization in the idealized kernel program. The statistics region leaves, per channel, the sum and
  the sum of squares of the pre-activations a(r,j) = (aggregated features)(r,j) + bias_j over the 170000 rows; the host
  operations after it form mean_j = sum_j / N, var_j = sumsq_j / N − mean_j², rstd_j = rsqrt(var_j + ε); the normalize
  region then writes max((a − mean)·rstd·γ + β, 0). That is the one-pass form of the layer; when every pre-activation is
  a real number it is the two-pass form, which is what the reference computes.
-/
import proofs.«154786_j4337916969345_1_alg».proof.Proof.ChainLayer1a
import proofs.«154786_j4337916969345_1_alg».proof.Proof.Stats1
import proofs.«154786_j4337916969345_1_alg».proof.Proof.Norm2
import proofs.«154786_j4337916969345_1_alg».proof.Proof.OnePass
import proofs.«154786_j4337916969345_1_alg».proof.Proof.RefLayers

noncomputable section

namespace Cert.KernelIdeal.ValueChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)

/-- An argument no segment up to the second region's exit touches is there as launched. -/
theorem launch6 (r : Ref sig .tc) (h0 : r ∉ written0) (h1 : r ∉ written0_1) (h2 : r ∉ written0_2)
    (h4 : ∀ w, Pipeline.arrRef spec0 w ≠ r) (h5 : r ∉ written1) (h6 : ∀ w, Pipeline.arrRef spec1 w ≠ r) :
    W6 m ρ c (Proc.devRef .tc r) = m ((c : Thread nD τ).loc r) :=
  (from6 m ρ c r h4 h5 h6).trans (launch3 m ρ c r h0 h1 h2)

/-- The per-channel sums of the pre-activations, after the statistics region. -/
theorem sum_at6 : W6 m ρ c (Proc.devRef .tc main_v45_0)
    = RegionValue.colSum1 (Cert.ReferenceIdeal.ReadP.val_main_v43 (F := Ideal) x0 x1 x2) (shapeCast S1x128 x3 shapeCasts_S128_S1x128) :=
  (W6_arr m ρ c 2).trans (RegionValue.stats1_sum_of (V5 m ρ) c _ _ (agg_at5 m ρ c) (bias_at5 m ρ c))

/-- The per-channel sums of their squares. -/
theorem sumsq_at6 : W6 m ρ c (Proc.devRef .tc main_v45_1)
    = RegionValue.colSumSq1 (Cert.ReferenceIdeal.ReadP.val_main_v43 (F := Ideal) x0 x1 x2) (shapeCast S1x128 x3 shapeCasts_S128_S1x128) :=
  (W6_arr m ρ c 3).trans (RegionValue.stats1_sumsq_of (V5 m ρ) c _ _ (agg_at5 m ρ c) (bias_at5 m ρ c))

/-- The aggregated features are still there when the normalize region starts. -/
theorem agg_at7 : W7 m ρ c (Proc.devRef .tc main_v43) = Cert.ReferenceIdeal.ReadP.val_main_v43 (F := Ideal) x0 x1 x2 :=
  (back7 m ρ c main_v43 (by decide)).trans ((in1 m ρ c 0 rfl).trans (agg_at5 m ρ c))

/-- The mean row from the row of sums: each sum over the number of nodes. -/
abbrev meanRow (S1 : S1x128.Idx → EReal) : S1x128.Idx → EReal :=
  Host.divf (F := Ideal) (φ := .f32) S1 (broadcastInDim S1x128 ![] bcast_S_S1x128 (constant (F := Ideal) S_ .f32 0x48260400#32))

/-- The inverse-deviation row from the two rows of sums: rsqrt (sumsq / N − mean² + ε). -/
abbrev rstdRow (S1 S2 : S1x128.Idx → EReal) : S1x128.Idx → EReal :=
  Host.rsqrt (F := Ideal) (φ := .f32) (addf (subf
      (Host.divf (F := Ideal) (φ := .f32) S2 (broadcastInDim S1x128 ![] bcast_S_S1x128 (constant (F := Ideal) S_ .f32 0x48260400#32)))
      (mulf (meanRow S1) (meanRow S1)))
    (broadcastInDim S1x128 ![] bcast_S_S1x128 (constant (F := Ideal) S_ .f32 0x3727C5AC#32)))

/-- The mean row. -/
theorem mean_at7 : W7 m ρ c (Proc.devRef .tc main_v47)
    = meanRow (RegionValue.colSum1 (Cert.ReferenceIdeal.ReadP.val_main_v43 (F := Ideal) x0 x1 x2) (shapeCast S1x128 x3 shapeCasts_S128_S1x128)) := by
  show StableHlo.after hostOps2 (W6 m ρ c) (Proc.devRef .tc main_v47) = _
  after_results_simp
  rw [sum_at6]

/-- The inverse-deviation row. -/
theorem rstd_at7 : W7 m ρ c (Proc.devRef .tc main_v54)
    = rstdRow (RegionValue.colSum1 (Cert.ReferenceIdeal.ReadP.val_main_v43 (F := Ideal) x0 x1 x2) (shapeCast S1x128 x3 shapeCasts_S128_S1x128))
        (RegionValue.colSumSq1 (Cert.ReferenceIdeal.ReadP.val_main_v43 (F := Ideal) x0 x1 x2) (shapeCast S1x128 x3 shapeCasts_S128_S1x128)) := by
  show StableHlo.after hostOps2 (W6 m ρ c) (Proc.devRef .tc main_v54) = _
  after_results_simp
  rw [sum_at6, sumsq_at6]

/-- The bias, scale and shift as one-row arrays. -/
theorem bias_at7 : W7 m ρ c (Proc.devRef .tc main_v55) = shapeCast S1x128 x3 shapeCasts_S128_S1x128 := by
  show StableHlo.after hostOps2 (W6 m ρ c) (Proc.devRef .tc main_v55) = _
  after_results_simp
  rw [launch6 m ρ c main_arg3 (by decide) (by decide) (by decide) (by decide) (by decide) (by decide)]
  rfl
theorem scale_at7 : W7 m ρ c (Proc.devRef .tc main_v56) = shapeCast S1x128 x4 shapeCasts_S128_S1x128 := by
  show StableHlo.after hostOps2 (W6 m ρ c) (Proc.devRef .tc main_v56) = _
  after_results_simp
  rw [launch6 m ρ c main_arg4 (by decide) (by decide) (by decide) (by decide) (by decide) (by decide)]
  rfl
theorem shift_at7 : W7 m ρ c (Proc.devRef .tc main_v57) = shapeCast S1x128 x5 shapeCasts_S128_S1x128 := by
  show StableHlo.after hostOps2 (W6 m ρ c) (Proc.devRef .tc main_v57) = _
  after_results_simp
  rw [launch6 m ρ c main_arg5 (by decide) (by decide) (by decide) (by decide) (by decide) (by decide)]
  rfl

/-- The reference's pre-activations are the aggregated features plus the bias of the channel. -/
theorem preact1_eq : (fun i => Cert.ReferenceIdeal.ReadP.val_main_v43 (F := Ideal) x0 x1 x2 i + (x3 : S128.Idx → EReal) (ValueIdx.ix1 (i 1)))
    = Cert.ReferenceIdeal.ReadP.val_main_v46 (F := Ideal) x0 x1 x2 x3 := by
  funext i
  have e : Cert.ReferenceIdeal.ReadP.idx_main_v44 (Cert.ReferenceIdeal.ReadP.idx_main_v45 i) = ValueIdx.ix1 (n := 128) (i 1) := by
    funext a; match a with | ⟨0, _⟩ => rfl
  rw [Cert.ReferenceIdeal.ReadP.val_main_v46_apply, Cert.ReferenceIdeal.ReadP.val_main_v45_apply, Cert.ReferenceIdeal.ReadP.val_main_v44_apply, e]
  generalize Cert.ReferenceIdeal.ReadP.val_main_v43 (F := Ideal) x0 x1 x2 = a
  rfl

/-- After the normalize region: the one-pass layer of the reference's pre-activations. -/
theorem onepass_at8 : W8 m ρ c (Proc.devRef .tc main_v58)
    = GcnLayer.bnReluOnePass (Ideal.ofBits .f32 0x48260400#32) (Ideal.ofBits .f32 0x3727C5AC#32)
        (Cert.ReferenceIdeal.ReadP.val_main_v46 (F := Ideal) x0 x1 x2 x3) x4 x5 := by
  refine (W8_arr m ρ c 6).trans ((RegionValue.norm2_array_of (V7 m ρ) c _ _ _ _ _ _ (agg_at7 m ρ c) (bias_at7 m ρ c) (mean_at7 m ρ c)
    (rstd_at7 m ρ c) (scale_at7 m ρ c) (shift_at7 m ρ c)).trans ?_)
  rw [← preact1_eq]
  exact GcnLayer.normalize_is_onePass _ _ _ _ _ _ shapeCasts_S128_S1x128 bcast_S_S1x128 _ _ _ _ rfl rfl rfl rfl

/-- With real pre-activations: the reference's first normalized layer. -/
theorem relu1_at8 (hreal : ∀ i, GcnAlgebra.IsReal (Cert.ReferenceIdeal.ReadP.val_main_v46 (F := Ideal) x0 x1 x2 x3 i)) :
    W8 m ρ c (Proc.devRef .tc main_v58) = Cert.ReferenceIdeal.ReadP.val_main_v72 (F := Ideal) x0 x1 x2 x3 x4 x5 := by
  rw [onepass_at8, Cert.ReferenceIdeal.RefLayers.ofBits_N, GcnLayer.bnReluOnePass_eq _ _ _ _ hreal, ← Cert.ReferenceIdeal.RefLayers.ofBits_N,
    ← Cert.ReferenceIdeal.RefLayers.v72_eq]

end Cert.KernelIdeal.ValueChain

end
-- ==== Proof.Matmul3.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal Cert.KernelIdeal.Gen

namespace Cert.KernelIdeal.RegionValue

/-! ## One block's product, entry by entry

The body multiplies its left block (recast to its own shape, which changes nothing) by its right block into a zero accumulator. At the exact values the
narrowing of the operands is the identity and the accumulating product, read at an entry, is the accumulator's
entry (zero) plus the sum over the contraction index of the operands' products. The dot's one contraction axis has
128 entries; the left operand is read at (row, k) and the right operand at (k, column). -/

/-- Left operand index, axis 0: the output's row. -/
theorem matmul3_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- Left operand index, axis 1: the contraction index. -/
theorem matmul3_lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

/-- Right operand index, axis 0: the contraction index. -/
theorem matmul3_rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

/-- Right operand index, axis 1: the output's column. -/
theorem matmul3_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The contraction of one block: entry (r, c) of the body's product is the sum over k of x (r, k) * w (k, c). -/
theorem matmul3_pay (x : Vec Ideal S10000x128 .f32) (w : Vec Ideal S128x128 .f32) (j : S10000x128.Idx) :
    k3_pay1 (F := Ideal) x w j = ∑ k : Fin 128, (x (ValueIdx.ix2 (j 0) k) : EReal) * (w (ValueIdx.ix2 k (j 1)) : EReal) := by
  unfold k3_pay1
  rw [shapeCast_self]
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = ValueIdx.ix2 (j 0) k := funext fun a => Fin.ext (by
    match a with
    | ⟨0, _⟩ => exact matmul3_lhs_row _ _
    | ⟨1, _⟩ => exact (matmul3_lhs_col _ _).trans hk)
  have er : dot_S10000x128_S128x128_S10000x128_1_0_0_1_n_n.rhsIdx j ((ValueIdx.contrEquiv1 dot_S10000x128_S128x128_S10000x128_1_0_0_1_n_n 128 rfl rfl).symm k) = ValueIdx.ix2 k (j 1) := funext fun a => Fin.ext (by
    match a with
    | ⟨0, _⟩ => exact (matmul3_rhs_row _ _).trans hk
    | ⟨1, _⟩ => exact matmul3_rhs_col _ _)
  rw [el, er]
  rfl

/-! ## From the blocks to the array -/

theorem matmul3_zero_offsets : (![0, 0] : Fin 2 → Nat) = fun _ => 0 := funext fun a => by fin_cases a <;> rfl

/-- The whole-array product: entry (r, c) is the sum over k of a (r, k) * b (k, c). -/
abbrev matmul3_G (a : S170000x128.Idx → EReal) (b : S128x128.Idx → EReal) : S170000x128.Idx → EReal :=
  fun i => ∑ k : Fin 128, a (ValueIdx.ix2 (i 0) k) * b (ValueIdx.ix2 k (i 1))

/-- The index maps, decided over the 17 grid points: the left window's row block is the output's, its column block
    is 0; the right window's block is (0, 0) at every point; the output's row block is at most 16, its column block 0. -/
theorem matmul3_index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 16
    ∧ win3_2.index t (1 : Fin 2) = 0 :=
  (by decide +kernel : ∀ t : Fin grid3.N, _)

/-- Every row block 0 … 16 is some point's. -/
theorem matmul3_index_onto : ∀ q : Fin 17, ∃ t : Fin cfg3.N, win3_2.index t = ![q.val, 0] :=
  (by decide +kernel : ∀ q : Fin 17, ∃ t : Fin grid3.N, win3_2.index t = ![q.val, 0])

/-- The product of point t's two input blocks, at entry j of the block, is the whole-array product at the array
    entry under j: row r of the output block depends on row r of the left block only, the left block sits at the
    output block's row offset with all 128 columns, and the right block is the whole right array. -/
theorem matmul3_block (a : S170000x128.Idx → EReal) (b : S128x128.Idx → EReal) (t : Fin cfg3.N) (j : S10000x128.Idx) :
    k3_pay1 (F := Ideal) (fun y : S10000x128.Idx => a (((cfg3.win 0).blk t).view.emb y)) (fun y : S128x128.Idx => b (((cfg3.win 1).blk t).view.emb y)) j
      = matmul3_G a b (((cfg3.win 2).blk t).view.emb j) := by
  obtain ⟨e0, e1, e2, e3, e4, e5⟩ := matmul3_index_facts t
  refine (matmul3_pay _ _ j).trans ?_
  refine Finset.sum_congr rfl fun k _ => ?_
  show a (((cfg3.win 0).blk t).view.emb (ValueIdx.ix2 (j 0) k)) * b (((cfg3.win 1).blk t).view.emb (ValueIdx.ix2 k (j 1)))
    = a (ValueIdx.ix2 ((((cfg3.win 2).blk t).view.emb j) 0) k) * b (ValueIdx.ix2 k ((((cfg3.win 2).blk t).view.emb j) 1))
  have h0 : ((cfg3.win 0).blk t).view.emb (ValueIdx.ix2 (j 0) k) = ValueIdx.ix2 ((((cfg3.win 2).blk t).view.emb j) 0) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * k.val = k.val; omega
  have h1 : ((cfg3.win 1).blk t).view.emb (ValueIdx.ix2 k (j 1)) = ValueIdx.ix2 k ((((cfg3.win 2).blk t).view.emb j) 1) := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact congrArg₂ (· * ·) (congrArg a h0) (congrArg b h1)

/-- What point t writes back is block t of the whole-array product of the two input arrays as the region finds them. -/
theorem matmul3_flushed (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (matmul3_G (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero matmul3_zero_offsets]
  simp only [View.ld_unit_zero (S := S10000x128) matmul3_zero_offsets, View.ld_unit_zero (S := S128x128) matmul3_zero_offsets]
  funext j
  exact matmul3_block (V c (Pipeline.arrRef spec3 0)) (V c (Pipeline.arrRef spec3 1)) t j

/-- An index of the array is in point t's block iff each coordinate is in the block's range on its axis. -/
theorem matmul3_mem_blk (t : Fin cfg3.N) (i : S170000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v59).slice (win3_2.rect t)).set ↔ _
  rw [View.set_slice_whole, Rect.mem_set_unit]
  exact Iff.rfl

/-- The 17 blocks of 10000 rows cover all 170000 rows: the point that covers row r is the one whose row block is r / 10000. -/
theorem matmul3_cover (i : S170000x128.Idx) :
    ∃ t : Fin cfg3.N, (cfg3.win 2).flush t = true ∧ i ∈ ((cfg3.win 2).blk t).view.set := by
  have hi0 : (i 0).val < 170000 := (i 0).isLt
  have hi1 : (i 1).val < 128 := (i 1).isLt
  obtain ⟨t, ht⟩ := matmul3_index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [matmul3_mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region: the whole-array product of the two input arrays as the region finds them. -/
theorem matmul3_array (V : (c : Dev nD) → (b : Ref sig .tc) → Buf (Elt Ideal) ((c : Thread nD τ).loc b)) (c : Dev nD) :
    (dat3 (F := Ideal) V c).arrAt 2 cfg3.N = matmul3_G (V c (Pipeline.arrRef spec3 0)) (V c (Pipeline.arrRef spec3 1)) :=
  (dat3 (F := Ideal) V c).arrAt_eq_of_cover 2 _ (fun t _ => matmul3_flushed V c t) matmul3_cover

end Cert.KernelIdeal.RegionValue

end
-- ==== Proof.ChainLayer2a.lean ====
/-
  The second layer up to its aggregated pre-activations, in the idealized kernel program. The fourth kernel region
  multiplies the first layer's activations by the second weight matrix (each output entry the sum over the 128 hidden
  channels), which is the reference's matrix product once the activations are the reference's; the host operations
  after it gather the source rows, weight them by the edge weights and add them into the target rows — the same
  operations, on the same operands, as the reference's. The second bias is carried along as a one-row array.
-/
import proofs.«154786_j4337916969345_1_alg».proof.Proof.ChainWeights
import proofs.«154786_j4337916969345_1_alg».proof.Proof.Matmul3

noncomputable section

namespace Cert.KernelIdeal.ValueChain

open Cert.KernelIdeal Cert.KernelIdeal.Gen
open Idealize.ShloMosaic Idealize.ShloMosaic.TcCoe Idealize.SL.Sem Idealize.ShloMosaic.StableHlo

/-- The product of a 170000×128 array of activations with a 128×128 matrix, entry by entry, is the reference's
    `dot_general` of the two: both are, at entry (r, c), the sum over k of a (r, k) * b (k, c). -/
theorem matmul3_is_dot (y0 : (⟨S170000x128, .f32⟩ : BufTy).Contents (Elt Ideal)) (y1 : (⟨S2x1200000, .i32⟩ : BufTy).Contents (Elt Ideal))
    (y2 : (⟨S128x128, .f32⟩ : BufTy).Contents (Elt Ideal)) (y3 y4 y5 : (⟨S128, .f32⟩ : BufTy).Contents (Elt Ideal))
    (y6 : (⟨S128x128, .f32⟩ : BufTy).Contents (Elt Ideal)) :
    RegionValue.matmul3_G (Cert.ReferenceIdeal.ReadP.val_main_v72 (F := Ideal) y0 y1 y2 y3 y4 y5) y6
      = Cert.ReferenceIdeal.ReadP.val_main_v73 (F := Ideal) y0 y1 y2 y3 y4 y5 y6 := by
  funext i
  rw [Cert.ReferenceIdeal.ReadP.val_main_v73_apply]
  refine Finset.sum_congr rfl fun k _ => ?_
  have el : ValueIdx.ix2 (i 0) k = Cert.ReferenceIdeal.ReadP.lidx_main_v73 i k :=
    funext fun d => Fin.ext (by match d with | ⟨0, _⟩ => rfl | ⟨1, _⟩ => rfl)
  have er : ValueIdx.ix2 k (i 1) = Cert.ReferenceIdeal.ReadP.ridx_main_v73 i k :=
    funext fun d => Fin.ext (by match d with | ⟨0, _⟩ => rfl | ⟨1, _⟩ => rfl)
  exact congrArg₂ (· * ·) (congrArg (Cert.ReferenceIdeal.ReadP.val_main_v72 (F := Ideal) y0 y1 y2 y3 y4 y5) el) (congrArg y6 er)

variable (m : (ℓ : Loc nD τ sig) → Buf (Elt Ideal) ℓ) (ρ : Dev nD → PrngReg) (c : Dev nD)

/-- After the fourth region its output array holds the reference's second matrix product, given that the region's
    left input (the first layer's activations) holds the reference's. -/
theorem mm_at9 (h58 : W8 m ρ c (Proc.devRef .tc main_v58) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W9 m ρ c (Proc.devRef .tc main_v59) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : V8 m ρ c (Pipeline.arrRef spec3 1) = (m ((c : Thread nD τ).loc main_arg6)) :=
    (from8 m ρ c main_arg6 (by decide) (by decide) (by decide) (by decide) (by decide)).trans
      (launch3 m ρ c main_arg6 (by decide) (by decide) (by decide))
  exact (W9_arr m ρ c 2).trans ((RegionValue.matmul3_array (V8 m ρ) c).trans
    ((congrArg₂ RegionValue.matmul3_G h58 h1).trans (matmul3_is_dot _ _ _ _ _ _ _)))

/-- The second layer's aggregation, at the fifth region's entry: the reference's. -/
theorem agg_at10 (h58 : W8 m ρ c (Proc.devRef .tc main_v58) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    W10 m ρ c (Proc.devRef .tc main_v72) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v72) = _
  after_results_simp
  rw [from9 m ρ c main_v3 (by decide) (by decide) (by decide) (by decide) (by decide) (by decide), src_at3,
    from9 m ρ c main_v6 (by decide) (by decide) (by decide) (by decide) (by decide) (by decide), dst_at3,
    from9 m ρ c main_v29 (by decide) (by decide) (by decide) (by decide) (by decide) (by decide), weight_at3,
    mm_at9 m ρ c h58]
  rfl

/-- The second bias as a one-row array, at the fifth region's entry. -/
theorem bias_at10 : W10 m ρ c (Proc.devRef .tc main_v73)
    = shapeCast S1x128 (m ((c : Thread nD τ).loc main_arg7)) shapeCasts_S128_S1x128 := by
  show StableHlo.after hostOps4 (W9 m ρ c) (Proc.devRef .tc main_v73) = _
  after_results
  rw [from9 m ρ c main_arg7 (by decide) (by decide) (by decide) (by decide) (by decide) (by decide),
    launch3 m ρ c main_arg7 (by decide) (by decide) (by decide)]
  rfl

end Cert.KernelIdeal.ValueChain

end
-- ==== Proof.Stats4.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Cert.KernelIdeal Cert.KernelIdeal.Gen
open Idealize.ShloMosaic.Pipeline (Dat)

namespace Cert.KernelIdeal.RegionValue

open Idealize.ShloMosaic.ValueIdx

/-! # Region 4: the column statistics of the shifted rows

The region walks the 17 row blocks of a 170000 x 128 array a. With b a single row of 128 entries, the shifted
entry at row r, column l is a r l + b l. At the first block both result rows are set to zero; at every block the
column sums of the block's shifted entries are added into the first result row and the column sums of their squares
into the second. Both rows are written back once, after the last block, so the result arrays hold the column sums over
all 170000 rows. -/

section Pieces

variable {F : FTy → Type} [FloatOps F]

/-- Both offsets of a load or store of a whole buffer are zero. -/
theorem stats4_zero_offsets : (![0, 0] : Fin 2 → Nat) = fun _ => 0 := funext fun a => by fin_cases a <;> rfl

/-- A later block leaves in the first result row the old row plus the block's column sums. -/
theorem stats4_later_sum (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S10000x128 .f32) (x1 : Vec F S1x128 .f32) (xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero stats4_zero_offsets]
  simp only [View.readAt_eq_ld, h1.read_unread, h2.read_unread, h3.read_unread,
    View.ld_unit_zero (S := S10000x128) stats4_zero_offsets, View.ld_unit_zero (S := S1x128) stats4_zero_offsets]

/-- A later block leaves in the second result row the old row plus the column sums of the block's squares. -/
theorem stats4_later_sumsq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S10000x128 .f32) (x1 : Vec F S1x128 .f32) (xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero stats4_zero_offsets]
  simp only [View.readAt_eq_ld, h1.read_unread, h2.read_unread, h4.read_unread,
    View.ld_unit_zero (S := S10000x128) stats4_zero_offsets, View.ld_unit_zero (S := S1x128) stats4_zero_offsets]

/-- The first block stores the zero row, reads it back, and leaves it plus the block's column sums. -/
theorem stats4_first_sum (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S10000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) stats4_zero_offsets, View.readCov_unit_zero (S := S1x128) _ stats4_zero_offsets]
  simp only [View.readAt_eq_ld, h1.read_unread, h2.read_unread,
    View.ld_unit_zero (S := S10000x128) stats4_zero_offsets, View.ld_unit_zero (S := S1x128) stats4_zero_offsets]

/-- The first block likewise leaves in the second result row the zero row plus the column sums of the squares. -/
theorem stats4_first_sumsq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S10000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) stats4_zero_offsets, View.readCov_unit_zero (S := S1x128) _ stats4_zero_offsets]
  simp only [View.readAt_eq_ld, h1.read_unread, h2.read_unread,
    View.ld_unit_zero (S := S10000x128) stats4_zero_offsets, View.ld_unit_zero (S := S1x128) stats4_zero_offsets]

end Pieces

section Arithmetic

/-- The zero row, first result. -/
theorem stats4_zero_row_sum (j : S1x128.Idx) : (k4_pay1 (F := Ideal) : S1x128.Idx → EReal) j = 0 :=
  Ideal.ofBits_zero_f32

/-- The zero row, second result. -/
theorem stats4_zero_row_sumsq (j : S1x128.Idx) : (k4_pay2 (F := Ideal) : S1x128.Idx → EReal) j = 0 :=
  Ideal.ofBits_zero_f32

/-- Column l of the reduced block with row k put back is entry (k, l) of the block. -/
theorem stats4_column_lift (l : Fin 128) (k : Fin (S10000x128.size 0)) :
    reduces_S10000x128_S128.lift (ix1 l) k = ix2 (⟨k.val, k.isLt⟩ : Fin 10000) l := by
  funext c; apply Fin.ext
  fin_cases c <;> rfl

/-- The shifted block at (r, l): the block's entry plus the row's entry at column l. -/
theorem stats4_shifted_apply (x0 : Vec Ideal S10000x128 .f32) (x1 : Vec Ideal S1x128 .f32) (r : Fin 10000) (l : Fin 128) :
    (k4_pay3 x0 x1 : S10000x128.Idx → EReal) (ix2 r l) = x0 (ix2 r l) + x1 (ix2 (0 : Fin 1) l) := by
  unfold k4_pay3
  show (shapeCast S10000x128 x0 shapeCasts_S10000x128_S10000x128 (ix2 r l) : EReal)
    + broadcastTo S10000x128 (shapeCast S1x128 x1 shapeCasts_S1x128_S1x128) broadcasts_S1x128_S10000x128 (ix2 r l) = _
  rw [shapeCast_self, shapeCast_self]
  exact congrArg (fun z : EReal => x0 (ix2 r l) + z) (broadcastTo_1b_ab_apply x1 broadcasts_S1x128_S10000x128 r l)

/-- The first result row after a block: the old row plus the column sums of the shifted block. -/
theorem stats4_sum_step (x0 : Vec Ideal S10000x128 .f32) (x1 : Vec Ideal S1x128 .f32) (acc : Vec Ideal S1x128 .f32) (l : Fin 128) :
    (k4_pay4 x0 x1 acc : S1x128.Idx → EReal) (ix2 (0 : Fin 1) l)
      = acc (ix2 (0 : Fin 1) l) + ∑ r : Fin 10000, (x0 (ix2 r l) + x1 (ix2 (0 : Fin 1) l)) := by
  unfold k4_pay4
  show (shapeCast S1x128 acc shapeCasts_S1x128_S1x128 (ix2 (0 : Fin 1) l) : EReal)
    + shapeCast S1x128 (multiReduction (F := Ideal) .add [0] S128 (k4_pay3 x0 x1) 0x00000000#32 reduces_S10000x128_S128 (.inl rfl) rfl)
        shapeCasts_S128_S1x128 (ix2 (0 : Fin 1) l) = _
  rw [shapeCast_self]
  refine congrArg (fun z : EReal => acc (ix2 (0 : Fin 1) l) + z) ?_
  refine (shapeCast_a_1a_apply _ shapeCasts_S128_S1x128 0 l).trans ?_
  refine (Ideal.multiReduction_add_single (k4_pay3 x0 x1) 0x00000000#32 reduces_S10000x128_S128 (.inl rfl) rfl (ix1 l)).trans ?_
  exact Finset.sum_congr rfl fun k _ => by
    rw [stats4_column_lift]; exact stats4_shifted_apply x0 x1 _ l

/-- The second result row after a block: the old row plus the column sums of the squares of the shifted block. -/
theorem stats4_sumsq_step (x0 : Vec Ideal S10000x128 .f32) (x1 : Vec Ideal S1x128 .f32) (acc : Vec Ideal S1x128 .f32) (l : Fin 128) :
    (k4_pay5 x0 x1 acc : S1x128.Idx → EReal) (ix2 (0 : Fin 1) l)
      = acc (ix2 (0 : Fin 1) l) + ∑ r : Fin 10000, (x0 (ix2 r l) + x1 (ix2 (0 : Fin 1) l)) * (x0 (ix2 r l) + x1 (ix2 (0 : Fin 1) l)) := by
  unfold k4_pay5
  show (shapeCast S1x128 acc shapeCasts_S1x128_S1x128 (ix2 (0 : Fin 1) l) : EReal)
    + shapeCast S1x128 (multiReduction (F := Ideal) .add [0] S128 (mulf (k4_pay3 x0 x1) (k4_pay3 x0 x1)) 0x00000000#32 reduces_S10000x128_S128 (.inl rfl) rfl)
        shapeCasts_S128_S1x128 (ix2 (0 : Fin 1) l) = _
  rw [shapeCast_self]
  refine congrArg (fun z : EReal => acc (ix2 (0 : Fin 1) l) + z) ?_
  refine (shapeCast_a_1a_apply _ shapeCasts_S128_S1x128 0 l).trans ?_
  refine (Ideal.multiReduction_add_single (mulf (k4_pay3 x0 x1) (k4_pay3 x0 x1)) 0x00000000#32 reduces_S10000x128_S128 (.inl rfl) rfl (ix1 l)).trans ?_
  exact Finset.sum_congr rfl fun k _ => by
    rw [stats4_column_lift]
    refine (mulf_apply _ _ _).trans ?_
    rw [stats4_shifted_apply x0 x1 _ l]
    rfl

end Arithmetic

/-! ## The statement: the column sums of the shifted entries, and of their squares -/

/-- Column sums over all 170000 rows of the entries of a shifted by the row b. -/
abbrev colSum4 (a : S170000x128.Idx → EReal) (b : S1x128.Idx → EReal) : S1x128.Idx → EReal :=
  fun i => ∑ r : Fin 170000, (a (ix2 r (i 1)) + b (ix2 (0 : Fin 1) (i 1)))

/-- Column sums over all 170000 rows of the squares of the entries of a shifted by the row b. -/
abbrev colSumSq4 (a : S170000x128.Idx → EReal) (b : S1x128.Idx → EReal) : S1x128.Idx → EReal :=
  fun i => ∑ r : Fin 170000, (a (ix2 r (i 1)) + b (ix2 (0 : Fin 1) (i 1))) * (a (ix2 r (i 1)) + b (ix2 (0 : Fin 1) (i 1)))

section Blocks

variable (V : (c : Dev nD) → (b : Ref sig .tc) → Buf (Elt Ideal) ((c : Thread nD τ).loc b)) (c : Dev nD)
variable (a : S170000x128.Idx → EReal) (b : S1x128.Idx → EReal)

/-- The block maps over the 17 points: the row window is at block row t, the single row and both results stay put. -/
theorem stats4_block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Entry (r, l) of block t of the row window is entry (10000 t + r, l) of the array. -/
theorem stats4_rows_block (ha : V c (Pipeline.arrRef spec4 0) = a) (t : Fin cfg4.N) (r : Fin 10000) (l : Fin 128) (q : Fin 170000)
    (hq : q.val = 10000 * t.val + r.val) :
    (iblk4 V c 0 t : S10000x128.Idx → EReal) (ix2 r l) = a (ix2 q l) := by
  subst ha
  obtain ⟨e0, e1, -⟩ := stats4_block_indices t
  unfold iblk4
  rw [View.read_apply]
  refine congrArg (V c (Pipeline.arrRef spec4 0) : S170000x128.Idx → EReal) ?_
  funext d; apply Fin.ext
  match d with
  | ⟨0, _⟩ => show win4_0.index t (0 : Fin 2) * 10000 + 1 * r.val = q.val; omega
  | ⟨1, _⟩ => show win4_0.index t (1 : Fin 2) * 128 + 1 * l.val = l.val; omega

/-- The single row is the same at every block. -/
theorem stats4_bias_block (hb : V c (Pipeline.arrRef spec4 1) = b) (t : Fin cfg4.N) (l : Fin 128) :
    (iblk4 V c 1 t : S1x128.Idx → EReal) (ix2 (0 : Fin 1) l) = b (ix2 (0 : Fin 1) l) := by
  subst hb
  obtain ⟨-, -, e0, e1, -⟩ := stats4_block_indices t
  unfold iblk4
  rw [View.read_apply]
  refine congrArg (V c (Pipeline.arrRef spec4 1) : S1x128.Idx → EReal) ?_
  funext d; apply Fin.ext
  match d with
  | ⟨0, _⟩ => show win4_1.index t (0 : Fin 2) * 1 + 1 * 0 = 0; omega
  | ⟨1, _⟩ => show win4_1.index t (1 : Fin 2) * 128 + 1 * l.val = l.val; omega

/-- The summand of column l at row q, under a function f of the shifted entry (the identity for the sums, the
    square for the sums of squares); rows past the array contribute nothing. -/
def stats4_term (f : EReal → EReal) (l : Fin 128) (q : ℕ) : EReal :=
  if h : q < 170000 then f (a (ix2 (⟨q, h⟩ : Fin 170000) l) + b (ix2 (0 : Fin 1) l)) else 0

/-- The column sum over block t is the sum of the summands of rows 10000 t .. 10000 t + 9999. -/
theorem stats4_block_sum (ha : V c (Pipeline.arrRef spec4 0) = a) (hb : V c (Pipeline.arrRef spec4 1) = b)
    (f : EReal → EReal) (t : Fin cfg4.N) (l : Fin 128)
    (x0 : Vec Ideal S10000x128 .f32) (x1 : Vec Ideal S1x128 .f32) (hx0 : x0 = iblk4 V c 0 t) (hx1 : x1 = iblk4 V c 1 t) :
    ∑ r : Fin 10000, f (x0 (ix2 r l) + x1 (ix2 (0 : Fin 1) l))
      = ∑ r ∈ Finset.range 10000, stats4_term a b f l (10000 * t.val + r) := by
  have hN : t.val < 17 := lt_of_lt_of_eq t.isLt (show cfg4.N = 17 from N_4)
  rw [← Fin.sum_univ_eq_sum_range (fun r => stats4_term a b f l (10000 * t.val + r)) 10000]
  refine Finset.sum_congr rfl fun r _ => ?_
  have hr : r.val < 10000 := r.isLt
  subst hx0 hx1
  unfold stats4_term
  rw [dif_pos (show 10000 * t.val + r.val < 170000 by omega)]
  exact congrArg f (congrArg₂ (fun (y z : EReal) => y + z)
    (stats4_rows_block V c a ha t r l ⟨10000 * t.val + r.val, by omega⟩ rfl) (stats4_bias_block V c b hb t l))

end Blocks

section Accumulation

variable (V : (c : Dev nD) → (b : Ref sig .tc) → Buf (Elt Ideal) ((c : Thread nD τ).loc b)) (c : Dev nD)
variable (a : S170000x128.Idx → EReal) (b : S1x128.Idx → EReal)

/-- What both result rows hold after the first block. -/
theorem stats4_at_first (t : Fin cfg4.N) (h0 : t.val % 17 = 0) :
    outsAt4 V c t.val t.isLt
      = (k4_pay4 (iblk4 V c 0 t) (iblk4 V c 1 t) (k4_pay1 (F := Ideal)), k4_pay5 (iblk4 V c 0 t) (iblk4 V c 1 t) (k4_pay2 (F := Ideal))) := by
  rw [outsAt4_A V c t h0]
  exact Prod.ext
    (stats4_first_sum (F := Ideal) c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))
    (stats4_first_sumsq (F := Ideal) c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))

/-- What both result rows hold after a later block, over what the block before left. -/
theorem stats4_at_later (t : Fin cfg4.N) (h0 : ¬t.val % 17 = 0) :
    outsAt4 V c t.val t.isLt
      = (k4_pay4 (iblk4 V c 0 t) (iblk4 V c 1 t) (outsAt4 V c (t.val - 1) (Nat.lt_of_le_of_lt (Nat.sub_le _ _) t.isLt)).1,
         k4_pay5 (iblk4 V c 0 t) (iblk4 V c 1 t) (outsAt4 V c (t.val - 1) (Nat.lt_of_le_of_lt (Nat.sub_le _ _) t.isLt)).2) := by
  rw [outsAt4_B V c t h0]
  exact Prod.ext
    (stats4_later_sum (F := Ideal) c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1 (outsAt4 V c (t.val - 1) (Nat.lt_of_le_of_lt (Nat.sub_le _ _) t.isLt)).2)
    (stats4_later_sumsq (F := Ideal) c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1 (outsAt4 V c (t.val - 1) (Nat.lt_of_le_of_lt (Nat.sub_le _ _) t.isLt)).2)

/-- After block n the result rows hold, at column l, the sums of the summands of rows 0 .. 10000 n + 9999:
    by induction on the block. -/
theorem stats4_running (ha : V c (Pipeline.arrRef spec4 0) = a) (hb : V c (Pipeline.arrRef spec4 1) = b) (l : Fin 128) :
    ∀ (n : ℕ) (h : n < cfg4.N),
    ((outsAt4 V c n h).1 : S1x128.Idx → EReal) (ix2 (0 : Fin 1) l)
        = ∑ q ∈ Finset.range (10000 * n + 10000), stats4_term a b (fun x => x) l q
      ∧ ((outsAt4 V c n h).2 : S1x128.Idx → EReal) (ix2 (0 : Fin 1) l)
        = ∑ q ∈ Finset.range (10000 * n + 10000), stats4_term a b (fun x => x * x) l q
  | 0, h => by
    have e : outsAt4 V c 0 h
        = (k4_pay4 (iblk4 V c 0 ⟨0, h⟩) (iblk4 V c 1 ⟨0, h⟩) (k4_pay1 (F := Ideal)),
           k4_pay5 (iblk4 V c 0 ⟨0, h⟩) (iblk4 V c 1 ⟨0, h⟩) (k4_pay2 (F := Ideal))) :=
      stats4_at_first V c ⟨0, h⟩ rfl
    have z : ∀ g : ℕ → EReal, ∑ q ∈ Finset.range (10000 * 0), g q = 0 := fun g => by
      rw [Nat.mul_zero]; exact Finset.sum_range_zero g
    rw [e, Finset.sum_range_add, Finset.sum_range_add, z, z, zero_add, zero_add]
    constructor
    · refine (stats4_sum_step (iblk4 V c 0 ⟨0, h⟩) (iblk4 V c 1 ⟨0, h⟩) (k4_pay1 (F := Ideal)) l).trans ?_
      rw [stats4_zero_row_sum, zero_add]
      exact stats4_block_sum V c a b ha hb (fun x => x) ⟨0, h⟩ l (iblk4 V c 0 ⟨0, h⟩) (iblk4 V c 1 ⟨0, h⟩) rfl rfl
    · refine (stats4_sumsq_step (iblk4 V c 0 ⟨0, h⟩) (iblk4 V c 1 ⟨0, h⟩) (k4_pay2 (F := Ideal)) l).trans ?_
      rw [stats4_zero_row_sumsq, zero_add]
      exact stats4_block_sum V c a b ha hb (fun x => x * x) ⟨0, h⟩ l (iblk4 V c 0 ⟨0, h⟩) (iblk4 V c 1 ⟨0, h⟩) rfl rfl
  | n + 1, h => by
    have hN : cfg4.N = 17 := N_4
    have hB : ¬(⟨n + 1, h⟩ : Fin cfg4.N).val % 17 = 0 := by dsimp only; omega
    have e : outsAt4 V c (n + 1) h
        = (k4_pay4 (iblk4 V c 0 ⟨n + 1, h⟩) (iblk4 V c 1 ⟨n + 1, h⟩) (outsAt4 V c n (Nat.lt_of_succ_lt h)).1,
           k4_pay5 (iblk4 V c 0 ⟨n + 1, h⟩) (iblk4 V c 1 ⟨n + 1, h⟩) (outsAt4 V c n (Nat.lt_of_succ_lt h)).2) :=
      stats4_at_later V c ⟨n + 1, h⟩ hB
    obtain ⟨ih1, ih2⟩ := stats4_running ha hb l n (Nat.lt_of_succ_lt h)
    have hsplit : 10000 * n + 10000 = 10000 * (n + 1) := by omega
    rw [hsplit] at ih1 ih2
    rw [e, Finset.sum_range_add, Finset.sum_range_add]
    constructor
    · refine (stats4_sum_step (iblk4 V c 0 ⟨n + 1, h⟩) (iblk4 V c 1 ⟨n + 1, h⟩) (outsAt4 V c n (Nat.lt_of_succ_lt h)).1 l).trans ?_
      rw [ih1]
      exact congrArg (fun z : EReal => (∑ q ∈ Finset.range (10000 * (n + 1)), stats4_term a b (fun x => x) l q) + z)
        (stats4_block_sum V c a b ha hb (fun x => x) ⟨n + 1, h⟩ l (iblk4 V c 0 ⟨n + 1, h⟩) (iblk4 V c 1 ⟨n + 1, h⟩) rfl rfl)
    · refine (stats4_sumsq_step (iblk4 V c 0 ⟨n + 1, h⟩) (iblk4 V c 1 ⟨n + 1, h⟩) (outsAt4 V c n (Nat.lt_of_succ_lt h)).2 l).trans ?_
      rw [ih2]
      exact congrArg (fun z : EReal => (∑ q ∈ Finset.range (10000 * (n + 1)), stats4_term a b (fun x => x * x) l q) + z)
        (stats4_block_sum V c a b ha hb (fun x => x * x) ⟨n + 1, h⟩ l (iblk4 V c 0 ⟨n + 1, h⟩) (iblk4 V c 1 ⟨n + 1, h⟩) rfl rfl)

/-- The summands of rows 0 .. 169999 of column l add up to the column sum over the whole array. -/
theorem stats4_total_sum (l : Fin 128) (i : S1x128.Idx) (hi : i 1 = l) :
    ∑ q ∈ Finset.range 170000, stats4_term a b (fun x => x) l q = colSum4 a b i := by
  subst hi
  rw [← Fin.sum_univ_eq_sum_range (fun q => stats4_term a b (fun x => x) (i 1) q) 170000]
  refine Finset.sum_congr rfl fun r _ => ?_
  unfold stats4_term
  rw [dif_pos r.isLt]

/-- The same for the squares. -/
theorem stats4_total_sumsq (l : Fin 128) (i : S1x128.Idx) (hi : i 1 = l) :
    ∑ q ∈ Finset.range 170000, stats4_term a b (fun x => x * x) l q = colSumSq4 a b i := by
  subst hi
  rw [← Fin.sum_univ_eq_sum_range (fun q => stats4_term a b (fun x => x * x) (i 1) q) 170000]
  refine Finset.sum_congr rfl fun r _ => ?_
  unfold stats4_term
  rw [dif_pos r.isLt]

end Accumulation

section Result

variable (V : (c : Dev nD) → (b : Ref sig .tc) → Buf (Elt Ideal) ((c : Thread nD τ).loc b)) (c : Dev nD)
variable (a : S170000x128.Idx → EReal) (b : S1x128.Idx → EReal)

/-- The last block, the one after which the result rows are written back. -/
abbrev stats4_last : Fin cfg4.N := ⟨16, lt_of_lt_of_eq (by decide : 16 < 17) (show cfg4.N = 17 from N_4).symm⟩

/-- After the last block the first result row holds the column sums over all rows. -/
theorem stats4_last_sum (ha : V c (Pipeline.arrRef spec4 0) = a) (hb : V c (Pipeline.arrRef spec4 1) = b) :
    ((outsAt4 V c stats4_last.val stats4_last.isLt).1 : S1x128.Idx → EReal) = colSum4 a b := by
  have h17 : 10000 * 16 + 10000 = 170000 := by norm_num
  funext j
  obtain ⟨p, l, rfl⟩ : ∃ (p : Fin 1) (l : Fin 128), j = ix2 p l := ⟨j 0, j 1, eq_ix2 j⟩
  obtain rfl : p = 0 := Subsingleton.elim _ _
  have e := (stats4_running V c a b ha hb l 16 stats4_last.isLt).1
  rw [h17] at e
  exact e.trans (stats4_total_sum a b l (ix2 (0 : Fin 1) l) rfl)

/-- After the last block the second result row holds the column sums of the squares over all rows. -/
theorem stats4_last_sumsq (ha : V c (Pipeline.arrRef spec4 0) = a) (hb : V c (Pipeline.arrRef spec4 1) = b) :
    ((outsAt4 V c stats4_last.val stats4_last.isLt).2 : S1x128.Idx → EReal) = colSumSq4 a b := by
  have h17 : 10000 * 16 + 10000 = 170000 := by norm_num
  funext j
  obtain ⟨p, l, rfl⟩ : ∃ (p : Fin 1) (l : Fin 128), j = ix2 p l := ⟨j 0, j 1, eq_ix2 j⟩
  obtain rfl : p = 0 := Subsingleton.elim _ _
  have e := (stats4_running V c a b ha hb l 16 stats4_last.isLt).2
  rw [h17] at e
  exact e.trans (stats4_total_sumsq a b l (ix2 (0 : Fin 1) l) rfl)

/-- Both result windows sit at block (0, 0) of their one-row arrays at the last block. -/
theorem stats4_result_offsets_sum : (fun d => win4_2.index stats4_last d * main_v74_0.ty.shape.size d) = fun _ => 0 := by
  obtain ⟨-, -, -, -, e0, e1, -⟩ := stats4_block_indices stats4_last
  funext d
  fin_cases d
  · show win4_2.index stats4_last (0 : Fin 2) * 1 = 0; omega
  · show win4_2.index stats4_last (1 : Fin 2) * 128 = 0; omega

theorem stats4_result_offsets_sumsq : (fun d => win4_3.index stats4_last d * main_v74_1.ty.shape.size d) = fun _ => 0 := by
  obtain ⟨-, -, -, -, -, -, e0, e1⟩ := stats4_block_indices stats4_last
  funext d
  fin_cases d
  · show win4_3.index stats4_last (0 : Fin 2) * 1 = 0; omega
  · show win4_3.index stats4_last (1 : Fin 2) * 128 = 0; omega

/-- The one block of a one-row result array is the array: what the last block's write-back writes of a row X is the
    block read of X, whatever X. -/
theorem stats4_result_block_sum (X : Vec Ideal S1x128 .f32) :
    (cfg4.win 2).cut (grid4.coords stats4_last) X = ((cfg4.win 2).blk stats4_last).view.read (Elt Ideal) X :=
  (Memref.read_access_unit_zero (Elt Ideal) main_v74_0 stats4_result_offsets_sum
    (fun d => by rw [congrFun stats4_result_offsets_sum d]; simp) X).symm

theorem stats4_result_block_sumsq (X : Vec Ideal S1x128 .f32) :
    (cfg4.win 3).cut (grid4.coords stats4_last) X = ((cfg4.win 3).blk stats4_last).view.read (Elt Ideal) X :=
  (Memref.read_access_unit_zero (Elt Ideal) main_v74_1 stats4_result_offsets_sumsq
    (fun d => by rw [congrFun stats4_result_offsets_sumsq d]; simp) X).symm

/-- The one write-back of the first result row, after the last block, writes the column sums. -/
theorem stats4_flushed_sum (ha : V c (Pipeline.arrRef spec4 0) = a) (hb : V c (Pipeline.arrRef spec4 1) = b)
    (t : Fin cfg4.N) (hf : (cfg4.win 2).flush t = true) :
    (dat4 V c).flushed 2 t = ((cfg4.win 2).blk t).view.read (Elt Ideal) (colSum4 a b) := by
  have hN : cfg4.N = 17 := N_4
  have h16 : t.val = 16 := by have := (flush4_2 t).mp hf; have := t.isLt; omega
  obtain rfl : t = stats4_last := Fin.ext h16
  show (cfg4.win 2).cut (grid4.coords stats4_last) ((dat4 V c).after 2 stats4_last) = _
  rw [after4_2, stats4_last_sum V c a b ha hb]
  exact stats4_result_block_sum (colSum4 a b)

/-- The one write-back of the second result row writes the column sums of the squares. -/
theorem stats4_flushed_sumsq (ha : V c (Pipeline.arrRef spec4 0) = a) (hb : V c (Pipeline.arrRef spec4 1) = b)
    (t : Fin cfg4.N) (hf : (cfg4.win 3).flush t = true) :
    (dat4 V c).flushed 3 t = ((cfg4.win 3).blk t).view.read (Elt Ideal) (colSumSq4 a b) := by
  have hN : cfg4.N = 17 := N_4
  have h16 : t.val = 16 := by have := (flush4_3 t).mp hf; have := t.isLt; omega
  obtain rfl : t = stats4_last := Fin.ext h16
  show (cfg4.win 3).cut (grid4.coords stats4_last) ((dat4 V c).after 3 stats4_last) = _
  rw [after4_3, stats4_last_sumsq V c a b ha hb]
  exact stats4_result_block_sumsq (colSumSq4 a b)

/-- An index of the first result array lies in the block of point t iff each coordinate is in the block's range. -/
theorem stats4_mem_block_sum (t : Fin cfg4.N) (i : S1x128.Idx) :
    i ∈ ((cfg4.win 2).blk t).view.set ↔ ∀ d : Fin 2, win4_2.index t d * S1x128.size d ≤ (i d).val ∧ (i d).val < win4_2.index t d * S1x128.size d + S1x128.size d := by
  show i ∈ ((View.whole main_v74_0).slice (win4_2.rect t)).set ↔ _
  rw [View.set_slice_whole, Rect.mem_set_unit]
  exact Iff.rfl

theorem stats4_mem_block_sumsq (t : Fin cfg4.N) (i : S1x128.Idx) :
    i ∈ ((cfg4.win 3).blk t).view.set ↔ ∀ d : Fin 2, win4_3.index t d * S1x128.size d ≤ (i d).val ∧ (i d).val < win4_3.index t d * S1x128.size d + S1x128.size d := by
  show i ∈ ((View.whole main_v74_1).slice (win4_3.rect t)).set ↔ _
  rw [View.set_slice_whole, Rect.mem_set_unit]
  exact Iff.rfl

/-- THE FIRST RESULT ARRAY after the region, for arrays a, b the region finds: the column sums of the shifted entries. -/
theorem stats4_sum_of (ha : V c (Pipeline.arrRef spec4 0) = a) (hb : V c (Pipeline.arrRef spec4 1) = b) :
    (dat4 (F := Ideal) V c).arrAt 2 cfg4.N = colSum4 a b :=
  (dat4 V c).arrAt_eq_of_cover 2 (colSum4 a b) (stats4_flushed_sum V c a b ha hb) fun i =>
    ⟨stats4_last, (flush4_2 stats4_last).mpr rfl, by
      rw [stats4_mem_block_sum]
      obtain ⟨-, -, -, -, e0, e1, -⟩ := stats4_block_indices stats4_last
      have h0 : (i 0).val < 1 := (i 0).isLt
      have h1 : (i 1).val < 128 := (i 1).isLt
      intro d
      match d with
      | ⟨0, _⟩ => show win4_2.index stats4_last (0 : Fin 2) * 1 ≤ (i 0).val ∧ (i 0).val < win4_2.index stats4_last (0 : Fin 2) * 1 + 1; omega
      | ⟨1, _⟩ => show win4_2.index stats4_last (1 : Fin 2) * 128 ≤ (i 1).val ∧ (i 1).val < win4_2.index stats4_last (1 : Fin 2) * 128 + 128; omega⟩

/-- THE SECOND RESULT ARRAY after the region: the column sums of the squares of the shifted entries. -/
theorem stats4_sumsq_of (ha : V c (Pipeline.arrRef spec4 0) = a) (hb : V c (Pipeline.arrRef spec4 1) = b) :
    (dat4 (F := Ideal) V c).arrAt 3 cfg4.N = colSumSq4 a b :=
  (dat4 V c).arrAt_eq_of_cover 3 (colSumSq4 a b) (stats4_flushed_sumsq V c a b ha hb) fun i =>
    ⟨stats4_last, (flush4_3 stats4_last).mpr rfl, by
      rw [stats4_mem_block_sumsq]
      obtain ⟨-, -, -, -, -, -, e0, e1⟩ := stats4_block_indices stats4_last
      have h0 : (i 0).val < 1 := (i 0).isLt
      have h1 : (i 1).val < 128 := (i 1).isLt
      intro d
      match d with
      | ⟨0, _⟩ => show win4_3.index stats4_last (0 : Fin 2) * 1 ≤ (i 0).val ∧ (i 0).val < win4_3.index stats4_last (0 : Fin 2) * 1 + 1; omega
      | ⟨1, _⟩ => show win4_3.index stats4_last (1 : Fin 2) * 128 ≤ (i 1).val ∧ (i 1).val < win4_3.index stats4_last (1 : Fin 2) * 128 + 128; omega⟩

/-- The same at the arrays as the region finds them. -/
theorem stats4_sum : (dat4 (F := Ideal) V c).arrAt 2 cfg4.N = colSum4 (V c (Pipeline.arrRef spec4 0)) (V c (Pipeline.arrRef spec4 1)) :=
  stats4_sum_of V c _ _ rfl rfl

theorem stats4_sumsq : (dat4 (F := Ideal) V c).arrAt 3 cfg4.N = colSumSq4 (V c (Pipeline.arrRef spec4 0)) (V c (Pipeline.arrRef spec4 1)) :=
  stats4_sumsq_of V c _ _ rfl rfl

end Result

end Cert.KernelIdeal.RegionValue

end
-- ==== Proof.Norm5.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # Region 5: normalise and rectify, as one function of its input arrays

Region 5 sweeps seventeen grid points over the row blocks (10000 rows each) of a `[170000, 128]` array `x`. At every
point it reads the block of `x` and five `[1, 128]` rows `b`, `mean`, `rstd`, `g`, `be` (each whole, the same at every
point), and writes the block `max (((x + b) − mean) · rstd · g + be, 0)` of the output array, the rows broadcast down the
block. Read in exact arithmetic this file shows that, whatever the buffers held when the region was entered, the
output array after the last point is that expression position by position: entry `(r, q)` depends on `x (r, q)` and on
column `q` of the five rows only.

The steps: the body's arithmetic at one position of a block (`pay5_apply`); each window's block as a read of its
array (`iblk5_*_apply`, from the index maps decided over the grid, `idx_facts5`); what a point writes back
(`flushed5_eq`); the blocks tile the array (`covered5`); the array (`norm5_array`). -/

noncomputable section

open Idealize.ShloMosaic Idealize.ShloMosaic.TcCoe Idealize.SL.Sem Cert.KernelIdeal Cert.KernelIdeal.Gen

namespace Cert.KernelIdeal.RegionValue

/-- The zero block offset of a whole-buffer access, as a constant function. -/
theorem zeroOffset5 : (![0, 0] : Fin 2 → Nat) = fun _ => 0 := funext fun a => by fin_cases a <;> rfl

/-- The body's arithmetic read at one position `(p, q)` of the block: the five row vectors enter at column `q` only. -/
theorem pay5_apply (x : Vec Ideal S10000x128 .f32) (b mean rstd g be : Vec Ideal S1x128 .f32) (p : Fin 10000) (q : Fin 128) :
    k5_pay1 (F := Ideal) x b mean rstd g be (ValueIdx.ix2 p q)
      = max ((((x (ValueIdx.ix2 p q) + b (ValueIdx.ix2 0 q)) - mean (ValueIdx.ix2 0 q)) * rstd (ValueIdx.ix2 0 q)
          * g (ValueIdx.ix2 0 q) + be (ValueIdx.ix2 0 q))) (Ideal.ofBits .f32 0x00000000#32) := by
  unfold k5_pay1
  simp only [shapeCast_self]
  rw [ValueIdx.maximumf_apply, ValueIdx.addf_apply, ValueIdx.mulf_apply, ValueIdx.mulf_apply, ValueIdx.subf_apply,
    ValueIdx.addf_apply, ValueIdx.broadcast_apply]
  simp only [ValueIdx.broadcastTo_1b_ab_apply]
  rfl

/-- The same with each operand's value at the position given: the form in which the blocks' contents are fed in. -/
theorem pay5_at (x : Vec Ideal S10000x128 .f32) (b mean rstd g be : Vec Ideal S1x128 .f32) (p : Fin 10000) (q : Fin 128)
    (X B M R G E : EReal) (hx : x (ValueIdx.ix2 p q) = X) (hb : b (ValueIdx.ix2 0 q) = B) (hm : mean (ValueIdx.ix2 0 q) = M)
    (hr : rstd (ValueIdx.ix2 0 q) = R) (hg : g (ValueIdx.ix2 0 q) = G) (he : be (ValueIdx.ix2 0 q) = E) :
    k5_pay1 (F := Ideal) x b mean rstd g be (ValueIdx.ix2 p q)
      = max ((((X + B) - M) * R * G + E)) (Ideal.ofBits .f32 0x00000000#32) := by
  rw [pay5_apply, hx, hb, hm, hr, hg, he]

/-- The block index of every window at every grid point: the array window and the output window move down the
    rows with the point, the five row windows stay at the one block there is. -/
theorem idx_facts5 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Every row block of the output array is some point's. -/
theorem idx_onto5 : ∀ q0 : Fin 17, ∃ t : Fin cfg5.N, win5_6.index t = ![q0.val, 0] :=
  (by decide +kernel : ∀ q0 : Fin 17, ∃ t : Fin grid5.N, win5_6.index t = ![q0.val, 0])

/-- The array window's block at point `t` is rows `10000 t … 10000 t + 9999` of its array. -/
theorem iblk5_0_apply (V : (c : Dev nD) → (b : Ref sig .tc) → Buf (Elt Ideal) ((c : Thread nD τ).loc b)) (c : Dev nD)
    (t : Fin cfg5.N) (x : S10000x128.Idx) (k : S170000x128.Idx)
    (hk0 : (k 0).val = 10000 * t.val + (x 0).val) (hk1 : (k 1).val = (x 1).val) :
    (iblk5 (F := Ideal) V c 0 t : Vec Ideal S10000x128 .f32) x = (V c (Pipeline.arrRef spec5 0) : S170000x128.Idx → EReal) k := by
  obtain ⟨e0, e1, -⟩ := idx_facts5 t
  unfold iblk5
  rw [View.read_apply]
  refine congrArg (V c (Pipeline.arrRef spec5 0)) (funext fun a => ?_)
  apply Fin.ext
  match a with
  | ⟨0, _⟩ => show win5_0.index t (0 : Fin 2) * 10000 + 1 * (x 0).val = (k 0).val; rw [e0, hk0]; omega
  | ⟨1, _⟩ => show win5_0.index t (1 : Fin 2) * 128 + 1 * (x 1).val = (k 1).val; rw [e1, hk1]; omega

/-- Row window 1's block (the whole `[1, 128]` array, at every point) read at an index is its array there. -/
theorem iblk5_1_apply (V : (c : Dev nD) → (b : Ref sig .tc) → Buf (Elt Ideal) ((c : Thread nD τ).loc b)) (c : Dev nD)
    (t : Fin cfg5.N) (x : S1x128.Idx) :
    (iblk5 (F := Ideal) V c 1 t : Vec Ideal S1x128 .f32) x = (V c (Pipeline.arrRef spec5 1) : S1x128.Idx → EReal) x := by
  obtain ⟨-, -, -, -, e0, e1, -⟩ := idx_facts5 t
  unfold iblk5
  rw [View.read_apply]
  refine congrArg (V c (Pipeline.arrRef spec5 1)) (funext fun a => ?_)
  apply Fin.ext
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

/-- Row window 2's block (the whole `[1, 128]` array, at every point) read at an index is its array there. -/
theorem iblk5_2_apply (V : (c : Dev nD) → (b : Ref sig .tc) → Buf (Elt Ideal) ((c : Thread nD τ).loc b)) (c : Dev nD)
    (t : Fin cfg5.N) (x : S1x128.Idx) :
    (iblk5 (F := Ideal) V c 2 t : Vec Ideal S1x128 .f32) x = (V c (Pipeline.arrRef spec5 2) : S1x128.Idx → EReal) x := by
  obtain ⟨-, -, -, -, -, -, e0, e1, -⟩ := idx_facts5 t
  unfold iblk5
  rw [View.read_apply]
  refine congrArg (V c (Pipeline.arrRef spec5 2)) (funext fun a => ?_)
  apply Fin.ext
  match a with
  | ⟨0, _⟩ => show win5_2.index t (0 : Fin 2) * 1 + 1 * (x 0).val = (x 0).val; rw [e0]; omega
  | ⟨1, _⟩ => show win5_2.index t (1 : Fin 2) * 128 + 1 * (x 1).val = (x 1).val; rw [e1]; omega

/-- Row window 3's block (the whole `[1, 128]` array, at every point) read at an index is its array there. -/
theorem iblk5_3_apply (V : (c : Dev nD) → (b : Ref sig .tc) → Buf (Elt Ideal) ((c : Thread nD τ).loc b)) (c : Dev nD)
    (t : Fin cfg5.N) (x : S1x128.Idx) :
    (iblk5 (F := Ideal) V c 3 t : Vec Ideal S1x128 .f32) x = (V c (Pipeline.arrRef spec5 3) : S1x128.Idx → EReal) x := by
  obtain ⟨-, -, -, -, -, -, -, -, e0, e1, -⟩ := idx_facts5 t
  unfold iblk5
  rw [View.read_apply]
  refine congrArg (V c (Pipeline.arrRef spec5 3)) (funext fun a => ?_)
  apply Fin.ext
  match a with
  | ⟨0, _⟩ => show win5_3.index t (0 : Fin 2) * 1 + 1 * (x 0).val = (x 0).val; rw [e0]; omega
  | ⟨1, _⟩ => show win5_3.index t (1 : Fin 2) * 128 + 1 * (x 1).val = (x 1).val; rw [e1]; omega

/-- Row window 4's block (the whole `[1, 128]` array, at every point) read at an index is its array there. -/
theorem iblk5_4_apply (V : (c : Dev nD) → (b : Ref sig .tc) → Buf (Elt Ideal) ((c : Thread nD τ).loc b)) (c : Dev nD)
    (t : Fin cfg5.N) (x : S1x128.Idx) :
    (iblk5 (F := Ideal) V c 4 t : Vec Ideal S1x128 .f32) x = (V c (Pipeline.arrRef spec5 4) : S1x128.Idx → EReal) x := by
  obtain ⟨-, -, -, -, -, -, -, -, -, -, e0, e1, -⟩ := idx_facts5 t
  unfold iblk5
  rw [View.read_apply]
  refine congrArg (V c (Pipeline.arrRef spec5 4)) (funext fun a => ?_)
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- Row window 5's block (the whole `[1, 128]` array, at every point) read at an index is its array there. -/
theorem iblk5_5_apply (V : (c : Dev nD) → (b : Ref sig .tc) → Buf (Elt Ideal) ((c : Thread nD τ).loc b)) (c : Dev nD)
    (t : Fin cfg5.N) (x : S1x128.Idx) :
    (iblk5 (F := Ideal) V c 5 t : Vec Ideal S1x128 .f32) x = (V c (Pipeline.arrRef spec5 5) : S1x128.Idx → EReal) x := by
  obtain ⟨-, -, -, -, -, -, -, -, -, -, -, -, e0, e1⟩ := idx_facts5 t
  unfold iblk5
  rw [View.read_apply]
  refine congrArg (V c (Pipeline.arrRef spec5 5)) (funext fun a => ?_)
  apply Fin.ext
  match a with
  | ⟨0, _⟩ => show win5_5.index t (0 : Fin 2) * 1 + 1 * (x 0).val = (x 0).val; rw [e0]; omega
  | ⟨1, _⟩ => show win5_5.index t (1 : Fin 2) * 128 + 1 * (x 1).val = (x 1).val; rw [e1]; omega

/-- Normalise and rectify, position by position: `max (((x + b) − mean) · rstd · g + be, 0)`, the five rows read at the
    position's column. -/
abbrev normRelu5 (x : S170000x128.Idx → EReal) (b mean rstd g be : S1x128.Idx → EReal) : S170000x128.Idx → EReal :=
  fun i => max ((((x i + b (ValueIdx.ix2 0 (i 1))) - mean (ValueIdx.ix2 0 (i 1))) * rstd (ValueIdx.ix2 0 (i 1))
      * g (ValueIdx.ix2 0 (i 1)) + be (ValueIdx.ix2 0 (i 1)))) (Ideal.ofBits .f32 0x00000000#32)

/-- The body's result at position `(p, q)` of point `t`'s block is `normRelu5` of the arrays at row `10000 t + p`,
    column `q`. -/
theorem point5 (V : (c : Dev nD) → (b : Ref sig .tc) → Buf (Elt Ideal) ((c : Thread nD τ).loc b)) (c : Dev nD)
    (t : Fin cfg5.N) (p : Fin 10000) (q : Fin 128) (k : S170000x128.Idx)
    (hk0 : (k 0).val = 10000 * t.val + p.val) (hk1 : (k 1).val = q.val) :
    k5_pay1 (F := Ideal) (iblk5 V c 0 t) (iblk5 V c 1 t) (iblk5 V c 2 t) (iblk5 V c 3 t) (iblk5 V c 4 t) (iblk5 V c 5 t) (ValueIdx.ix2 p q)
      = normRelu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) k := by
  have hq : q = k 1 := Fin.ext hk1.symm
  subst hq
  exact pay5_at _ _ _ _ _ _ p (k 1) _ _ _ _ _ _ (iblk5_0_apply V c t _ k hk0 rfl) (iblk5_1_apply V c t _)
    (iblk5_2_apply V c t _) (iblk5_3_apply V c t _) (iblk5_4_apply V c t _) (iblk5_5_apply V c t _)

set_option maxHeartbeats 1000000 in
/-- WHAT POINT `t` WRITES BACK is block `t` of `normRelu5` of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 6 t = ((cfg5.win 6).blk t).view.read (Elt Ideal)
      (normRelu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero zeroOffset5]
  simp only [View.ld_unit_zero (S := S10000x128) zeroOffset5, View.ld_unit_zero (S := S1x128) zeroOffset5]
  obtain ⟨-, -, e0, e1, -⟩ := idx_facts5 t
  funext j
  obtain ⟨p, q, rfl⟩ : ∃ (p : Fin 10000) (q : Fin 128), j = ValueIdx.ix2 p q := ⟨j 0, j 1, ValueIdx.eq_ix2 j⟩
  rw [View.read_apply]
  refine point5 V c t p q _ ?_ ?_
  · show win5_6.index t (0 : Fin 2) * 10000 + 1 * p.val = 10000 * t.val + p.val; rw [e0]; omega
  · show win5_6.index t (1 : Fin 2) * 128 + 1 * q.val = q.val; rw [e1]; omega

/-- An index of the array is in point `t`'s block iff each coordinate is in the block's range on its axis. -/
theorem mem_blk5 (t : Fin cfg5.N) (i : S170000x128.Idx) :
    i ∈ ((cfg5.win 6).blk t).view.set ↔ ∀ a : Fin 2, win5_6.index t a * S10000x128.size a ≤ (i a).val
      ∧ (i a).val < win5_6.index t a * S10000x128.size a + S10000x128.size a := by
  show i ∈ ((View.whole main_v87).slice (win5_6.rect t)).set ↔ _
  rw [View.set_slice_whole, Rect.mem_set_unit]
  exact Iff.rfl

/-- The seventeen row blocks tile the array: every index is in some point's block. -/
theorem covered5 (i : S170000x128.Idx) :
    ∃ t : Fin cfg5.N, (cfg5.win 6).flush t = true ∧ i ∈ ((cfg5.win 6).blk t).view.set := by
  have hi0 : (i 0).val < 170000 := (i 0).isLt
  have hi1 : (i 1).val < 128 := (i 1).isLt
  obtain ⟨t, ht⟩ := idx_onto5 ⟨(i 0).val / 10000, by omega⟩
  have q0 : win5_6.index t (0 : Fin 2) = (i 0).val / 10000 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 128 ≤ (i 1).val ∧ (i 1).val < win5_6.index t (1 : Fin 2) * 128 + 128; omega

/-- THE OUTPUT ARRAY after the region: the input array normalised with the five rows and rectified, position by
    position, whatever the buffers held when the region was entered. -/
theorem norm5_array (V : (c : Dev nD) → (b : Ref sig .tc) → Buf (Elt Ideal) ((c : Thread nD τ).loc b)) (c : Dev nD) :
    (dat5 (F := Ideal) V c).arrAt 6 cfg5.N
      = normRelu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 (normRelu5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)))
    (fun t _ => flushed5_eq V c t) covered5

/-- The same with the six input arrays named: the form that chains with what the regions before left in them. -/
theorem norm5_array_of (V : (c : Dev nD) → (b : Ref sig .tc) → Buf (Elt Ideal) ((c : Thread nD τ).loc b)) (c : Dev nD)
    (x : S170000x128.Idx → EReal) (b mean rstd g be : S1x128.Idx → EReal)
    (hx : V c (Pipeline.arrRef spec5 0) = x) (hb : V c (Pipeline.arrRef spec5 1) = b)
    (hm : V c (Pipeline.arrRef spec5 2) = mean) (hr : V c (Pipeline.arrRef spec5 3) = rstd)
    (hg : V c (Pipeline.arrRef spec5 4) = g) (he : V c (Pipeline.arrRef spec5 5) = be) :
    (dat5 (F := Ideal) V c).arrAt 6 cfg5.N = normRelu5 x b mean rstd g be := by
  subst hx hb hm hr hg he
  exact norm5_array V c

end Cert.KernelIdeal.RegionValue

end
-- ==== Proof.ChainLayer2b.lean ====
/-
  The second layer's normalization in the idealized kernel program. The statistics region leaves, per channel, the sum and
  the sum of squares of the pre-activations a(r,j) = (aggregated features)(r,j) + bias_j over the 170000 rows; the host
  operations after it form mean_j = sum_j / N, var_j = sumsq_j / N − mean_j², rstd_j = rsqrt(var_j + ε); the normalize
  region then writes max((a − mean)·rstd·γ + β, 0). That is the one-pass form of the layer; when every pre-activation is
  a real number it is the two-pass form, which is what the reference computes. Everything is stated under the hypothesis
  that the first layer's activations, as the kernel program left them, are the reference's.
-/
import proofs.«154786_j4337916969345_1_alg».proof.Proof.ChainLayer2a
import proofs.«154786_j4337916969345_1_alg».proof.Proof.Stats4
import proofs.«154786_j4337916969345_1_alg».proof.Proof.Norm5
import proofs.«154786_j4337916969345_1_alg».proof.Proof.OnePass
import proofs.«154786_j4337916969345_1_alg».proof.Proof.RefLayers

noncomputable section

namespace Cert.KernelIdeal.ValueChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)
set_option quotPrecheck false in
local notation "x6" => m ((c : Thread nD τ).loc main_arg6)
set_option quotPrecheck false in
local notation "x7" => m ((c : Thread nD τ).loc main_arg7)
set_option quotPrecheck false in
local notation "x8" => m ((c : Thread nD τ).loc main_arg8)
set_option quotPrecheck false in
local notation "x9" => m ((c : Thread nD τ).loc main_arg9)

/-- An argument no segment up to the second statistics region's exit touches is there as launched. -/
theorem launch11 (r : Ref sig .tc) (h0 : r ∉ written0) (h1 : r ∉ written0_1) (h2 : r ∉ written0_2)
    (h4 : ∀ w, Pipeline.arrRef spec0 w ≠ r) (h5 : r ∉ written1) (h6 : ∀ w, Pipeline.arrRef spec1 w ≠ r)
    (h7 : r ∉ written2) (h8 : ∀ w, Pipeline.arrRef spec2 w ≠ r) (h9 : ∀ w, Pipeline.arrRef spec3 w ≠ r)
    (h10 : r ∉ written4) (h11 : ∀ w, Pipeline.arrRef spec4 w ≠ r) :
    W11 m ρ c (Proc.devRef .tc r) = m ((c : Thread nD τ).loc r) :=
  (from11 m ρ c r h4 h5 h6 h7 h8 h9 h10 h11).trans (launch3 m ρ c r h0 h1 h2)

/-- The per-channel sums of the second layer's pre-activations, after the statistics region. -/
theorem sum_at11 (h58 : W8 m ρ c (Proc.devRef .tc main_v58) = Cert.ReferenceIdeal.ReadP.val_main_v72 (F := Ideal) x0 x1 x2 x3 x4 x5) :
    W11 m ρ c (Proc.devRef .tc main_v74_0)
      = RegionValue.colSum4 (Cert.ReferenceIdeal.ReadP.val_main_v86 (F := Ideal) x0 x1 x2 x3 x4 x5 x6) (shapeCast S1x128 x7 shapeCasts_S128_S1x128) :=
  (W11_arr m ρ c 2).trans (RegionValue.stats4_sum_of (V10 m ρ) c _ _ (agg_at10 m ρ c h58) (bias_at10 m ρ c))

/-- The per-channel sums of their squares. -/
theorem sumsq_at11 (h58 : W8 m ρ c (Proc.devRef .tc main_v58) = Cert.ReferenceIdeal.ReadP.val_main_v72 (F := Ideal) x0 x1 x2 x3 x4 x5) :
    W11 m ρ c (Proc.devRef .tc main_v74_1)
      = RegionValue.colSumSq4 (Cert.ReferenceIdeal.ReadP.val_main_v86 (F := Ideal) x0 x1 x2 x3 x4 x5 x6) (shapeCast S1x128 x7 shapeCasts_S128_S1x128) :=
  (W11_arr m ρ c 3).trans (RegionValue.stats4_sumsq_of (V10 m ρ) c _ _ (agg_at10 m ρ c h58) (bias_at10 m ρ c))

/-- The aggregated features are still there when the normalize region starts. -/
theorem agg_at12 (h58 : W8 m ρ c (Proc.devRef .tc main_v58) = Cert.ReferenceIdeal.ReadP.val_main_v72 (F := Ideal) x0 x1 x2 x3 x4 x5) :
    W12 m ρ c (Proc.devRef .tc main_v72) = Cert.ReferenceIdeal.ReadP.val_main_v86 (F := Ideal) x0 x1 x2 x3 x4 x5 x6 :=
  (back12 m ρ c main_v72 (by decide)).trans ((in4 m ρ c 0 rfl).trans (agg_at10 m ρ c h58))

/-- The mean row from the row of sums: each sum over the number of nodes. -/
abbrev meanRow2 (S1 : S1x128.Idx → EReal) : S1x128.Idx → EReal :=
  Host.divf (F := Ideal) (φ := .f32) S1 (broadcastInDim S1x128 ![] bcast_S_S1x128 (constant (F := Ideal) S_ .f32 0x48260400#32))

/-- The inverse-deviation row from the two rows of sums: rsqrt (sumsq / N − mean² + ε). -/
abbrev rstdRow2 (S1 S2 : S1x128.Idx → EReal) : S1x128.Idx → EReal :=
  Host.rsqrt (F := Ideal) (φ := .f32) (addf (subf
      (Host.divf (F := Ideal) (φ := .f32) S2 (broadcastInDim S1x128 ![] bcast_S_S1x128 (constant (F := Ideal) S_ .f32 0x48260400#32)))
      (mulf (meanRow2 S1) (meanRow2 S1)))
    (broadcastInDim S1x128 ![] bcast_S_S1x128 (constant (F := Ideal) S_ .f32 0x3727C5AC#32)))

/-- The mean row. -/
theorem mean_at12 (h58 : W8 m ρ c (Proc.devRef .tc main_v58) = Cert.ReferenceIdeal.ReadP.val_main_v72 (F := Ideal) x0 x1 x2 x3 x4 x5) :
    W12 m ρ c (Proc.devRef .tc main_v76)
      = meanRow2 (RegionValue.colSum4 (Cert.ReferenceIdeal.ReadP.val_main_v86 (F := Ideal) x0 x1 x2 x3 x4 x5 x6) (shapeCast S1x128 x7 shapeCasts_S128_S1x128)) := by
  show StableHlo.after hostOps5 (W11 m ρ c) (Proc.devRef .tc main_v76) = _
  after_results
  rw [sum_at11 m ρ c h58]

/-- The inverse-deviation row. -/
theorem rstd_at12 (h58 : W8 m ρ c (Proc.devRef .tc main_v58) = Cert.ReferenceIdeal.ReadP.val_main_v72 (F := Ideal) x0 x1 x2 x3 x4 x5) :
    W12 m ρ c (Proc.devRef .tc main_v83)
      = rstdRow2 (RegionValue.colSum4 (Cert.ReferenceIdeal.ReadP.val_main_v86 (F := Ideal) x0 x1 x2 x3 x4 x5 x6) (shapeCast S1x128 x7 shapeCasts_S128_S1x128))
        (RegionValue.colSumSq4 (Cert.ReferenceIdeal.ReadP.val_main_v86 (F := Ideal) x0 x1 x2 x3 x4 x5 x6) (shapeCast S1x128 x7 shapeCasts_S128_S1x128)) := by
  show StableHlo.after hostOps5 (W11 m ρ c) (Proc.devRef .tc main_v83) = _
  after_results
  rw [sum_at11 m ρ c h58, sumsq_at11 m ρ c h58]

/-- The bias, scale and shift as one-row arrays. -/
theorem bias_at12 : W12 m ρ c (Proc.devRef .tc main_v84) = shapeCast S1x128 x7 shapeCasts_S128_S1x128 := by
  show StableHlo.after hostOps5 (W11 m ρ c) (Proc.devRef .tc main_v84) = _
  after_results
  rw [launch11 m ρ c main_arg7 (by decide) (by decide) (by decide) (by decide) (by decide) (by decide) (by decide) (by decide) (by decide) (by decide) (by decide)]
  rfl
theorem scale_at12 : W12 m ρ c (Proc.devRef .tc main_v85) = shapeCast S1x128 x8 shapeCasts_S128_S1x128 := by
  show StableHlo.after hostOps5 (W11 m ρ c) (Proc.devRef .tc main_v85) = _
  after_results
  rw [launch11 m ρ c main_arg8 (by decide) (by decide) (by decide) (by decide) (by decide) (by decide) (by decide) (by decide) (by decide) (by decide) (by decide)]
  rfl
theorem shift_at12 : W12 m ρ c (Proc.devRef .tc main_v86) = shapeCast S1x128 x9 shapeCasts_S128_S1x128 := by
  show StableHlo.after hostOps5 (W11 m ρ c) (Proc.devRef .tc main_v86) = _
  after_results
  rw [launch11 m ρ c main_arg9 (by decide) (by decide) (by decide) (by decide) (by decide) (by decide) (by decide) (by decide) (by decide) (by decide) (by decide)]
  rfl

/-- The reference's second pre-activations are the aggregated features plus the bias of the channel. -/
theorem preact2_eq : (fun i => Cert.ReferenceIdeal.ReadP.val_main_v86 (F := Ideal) x0 x1 x2 x3 x4 x5 x6 i + (x7 : S128.Idx → EReal) (ValueIdx.ix1 (i 1)))
    = Cert.ReferenceIdeal.ReadP.val_main_v89 (F := Ideal) x0 x1 x2 x3 x4 x5 x6 x7 := by
  funext i
  have e : Cert.ReferenceIdeal.ReadP.idx_main_v87 (Cert.ReferenceIdeal.ReadP.idx_main_v88 i) = ValueIdx.ix1 (n := 128) (i 1) := by
    funext a; match a with | ⟨0, _⟩ => rfl
  rw [Cert.ReferenceIdeal.ReadP.val_main_v89_apply, Cert.ReferenceIdeal.ReadP.val_main_v88_apply, Cert.ReferenceIdeal.ReadP.val_main_v87_apply, e]
  generalize Cert.ReferenceIdeal.ReadP.val_main_v86 (F := Ideal) x0 x1 x2 x3 x4 x5 x6 = a
  rfl

/-- After the normalize region: the one-pass layer of the reference's second pre-activations. -/
theorem onepass_at13 (h58 : W8 m ρ c (Proc.devRef .tc main_v58) = Cert.ReferenceIdeal.ReadP.val_main_v72 (F := Ideal) x0 x1 x2 x3 x4 x5) :
    W13 m ρ c (Proc.devRef .tc main_v87)
      = GcnLayer.bnReluOnePass (Ideal.ofBits .f32 0x48260400#32) (Ideal.ofBits .f32 0x3727C5AC#32)
        (Cert.ReferenceIdeal.ReadP.val_main_v89 (F := Ideal) x0 x1 x2 x3 x4 x5 x6 x7) x8 x9 := by
  refine (W13_arr m ρ c 6).trans ((RegionValue.norm5_array_of (V12 m ρ) c _ _ _ _ _ _ (agg_at12 m ρ c h58) (bias_at12 m ρ c)
    (mean_at12 m ρ c h58) (rstd_at12 m ρ c h58) (scale_at12 m ρ c) (shift_at12 m ρ c)).trans ?_)
  rw [← preact2_eq]
  exact GcnLayer.normalize_is_onePass _ _ _ _ _ _ shapeCasts_S128_S1x128 bcast_S_S1x128 _ _ _ _ rfl rfl rfl rfl

/-- With real pre-activations: the reference's second normalized layer. -/
theorem relu2_at13 (h58 : W8 m ρ c (Proc.devRef .tc main_v58) = Cert.ReferenceIdeal.ReadP.val_main_v72 (F := Ideal) x0 x1 x2 x3 x4 x5)
    (hreal : ∀ i, GcnAlgebra.IsReal (Cert.ReferenceIdeal.ReadP.val_main_v89 (F := Ideal) x0 x1 x2 x3 x4 x5 x6 x7 i)) :
    W13 m ρ c (Proc.devRef .tc main_v87) = Cert.ReferenceIdeal.ReadP.val_main_v115 (F := Ideal) x0 x1 x2 x3 x4 x5 x6 x7 x8 x9 := by
  rw [onepass_at13 m ρ c h58, Cert.ReferenceIdeal.RefLayers.ofBits_N, GcnLayer.bnReluOnePass_eq _ _ _ _ hreal,
    ← Cert.ReferenceIdeal.RefLayers.ofBits_N, ← Cert.ReferenceIdeal.RefLayers.v115_eq]

end Cert.KernelIdeal.ValueChain

end
-- ==== Proof.Matmul6.lean ====
import proofs.«154786_j4337916969345_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Cert.KernelIdeal Cert.KernelIdeal.Gen

namespace Cert.KernelIdeal.RegionValue

/-! ## One block's product, entry by entry

The body multiplies its left block (recast to its own shape, which changes nothing) by its right block into a zero accumulator. At the exact values the
narrowing of the operands is the identity and the accumulating product, read at an entry, is the accumulator's
entry (zero) plus the sum over the contraction index of the operands' products. The dot's one contraction axis has
128 entries; the left operand is read at (row, k) and the right operand at (k, column). -/

/-- Left operand index, axis 0: the output's row. -/
theorem matmul6_lhs_row (j : S10000x40.Idx) (q : dot_S10000x128_S128x40_S10000x40_1_0_0_1_n_n.contr.Idx) :
    (dot_S10000x128_S128x40_S10000x40_1_0_0_1_n_n.lhsIdx j q 0).val = (j 0).val := by
  unfold DotDims.lhsIdx
  rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
  rfl

/-- Left operand index, axis 1: the contraction index. -/
theorem matmul6_lhs_col (j : S10000x40.Idx) (q : dot_S10000x128_S128x40_S10000x40_1_0_0_1_n_n.contr.Idx) :
    (dot_S10000x128_S128x40_S10000x40_1_0_0_1_n_n.lhsIdx j q 1).val = (q ⟨0, by decide⟩).val :=
  dot_S10000x128_S128x40_S10000x40_1_0_0_1_n_n.lhsIdx_val_of_single rfl j q

/-- Right operand index, axis 0: the contraction index. -/
theorem matmul6_rhs_row (j : S10000x40.Idx) (q : dot_S10000x128_S128x40_S10000x40_1_0_0_1_n_n.contr.Idx) :
    (dot_S10000x128_S128x40_S10000x40_1_0_0_1_n_n.rhsIdx j q 0).val = (q ⟨0, by decide⟩).val :=
  dot_S10000x128_S128x40_S10000x40_1_0_0_1_n_n.rhsIdx_val_of_single rfl j q

/-- Right operand index, axis 1: the output's column. -/
theorem matmul6_rhs_col (j : S10000x40.Idx) (q : dot_S10000x128_S128x40_S10000x40_1_0_0_1_n_n.contr.Idx) :
    (dot_S10000x128_S128x40_S10000x40_1_0_0_1_n_n.rhsIdx j q 1).val = (j 1).val := by
  unfold DotDims.rhsIdx
  rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
  rfl

/-- The contraction of one block: entry (r, c) of the body's product is the sum over k of x (r, k) * w (k, c). -/
theorem matmul6_pay (x : Vec Ideal S10000x128 .f32) (w : Vec Ideal S128x40 .f32) (j : S10000x40.Idx) :
    k6_pay1 (F := Ideal) x w j = ∑ k : Fin 128, (x (ValueIdx.ix2 (j 0) k) : EReal) * (w (ValueIdx.ix2 k (j 1)) : EReal) := by
  unfold k6_pay1
  rw [shapeCast_self]
  simp only [matmul]
  rw [Ideal.matmul_constant_zero_apply, ← Equiv.sum_comp (ValueIdx.contrEquiv1 dot_S10000x128_S128x40_S10000x40_1_0_0_1_n_n 128 rfl rfl).symm]
  refine Finset.sum_congr rfl fun k _ => ?_
  have hk := ValueIdx.contrEquiv1_symm_val dot_S10000x128_S128x40_S10000x40_1_0_0_1_n_n 128 rfl rfl k
  have el : dot_S10000x128_S128x40_S10000x40_1_0_0_1_n_n.lhsIdx j ((ValueIdx.contrEquiv1 dot_S10000x128_S128x40_S10000x40_1_0_0_1_n_n 128 rfl rfl).symm k) = ValueIdx.ix2 (j 0) k := funext fun a => Fin.ext (by
    match a with
    | ⟨0, _⟩ => exact matmul6_lhs_row _ _
    | ⟨1, _⟩ => exact (matmul6_lhs_col _ _).trans hk)
  have er : dot_S10000x128_S128x40_S10000x40_1_0_0_1_n_n.rhsIdx j ((ValueIdx.contrEquiv1 dot_S10000x128_S128x40_S10000x40_1_0_0_1_n_n 128 rfl rfl).symm k) = ValueIdx.ix2 k (j 1) := funext fun a => Fin.ext (by
    match a with
    | ⟨0, _⟩ => exact (matmul6_rhs_row _ _).trans hk
    | ⟨1, _⟩ => exact matmul6_rhs_col _ _)
  rw [el, er]
  rfl

/-! ## From the blocks to the array -/

theorem matmul6_zero_offsets : (![0, 0] : Fin 2 → Nat) = fun _ => 0 := funext fun a => by fin_cases a <;> rfl

/-- The whole-array product: entry (r, c) is the sum over k of a (r, k) * b (k, c). -/
abbrev matmul6_G (a : S170000x128.Idx → EReal) (b : S128x40.Idx → EReal) : S170000x40.Idx → EReal :=
  fun i => ∑ k : Fin 128, a (ValueIdx.ix2 (i 0) k) * b (ValueIdx.ix2 k (i 1))

/-- The index maps, decided over the 17 grid points: the left window's row block is the output's, its column block
    is 0; the right window's block is (0, 0) at every point; the output's row block is at most 16, its column block 0. -/
theorem matmul6_index_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) ≤ 16
    ∧ win6_2.index t (1 : Fin 2) = 0 :=
  (by decide +kernel : ∀ t : Fin grid6.N, _)

/-- Every row block 0 … 16 is some point's. -/
theorem matmul6_index_onto : ∀ q : Fin 17, ∃ t : Fin cfg6.N, win6_2.index t = ![q.val, 0] :=
  (by decide +kernel : ∀ q : Fin 17, ∃ t : Fin grid6.N, win6_2.index t = ![q.val, 0])

/-- The product of point t's two input blocks, at entry j of the block, is the whole-array product at the array
    entry under j: row r of the output block depends on row r of the left block only, the left block sits at the
    output block's row offset with all 128 columns, and the right block is the whole right array. -/
theorem matmul6_block (a : S170000x128.Idx → EReal) (b : S128x40.Idx → EReal) (t : Fin cfg6.N) (j : S10000x40.Idx) :
    k6_pay1 (F := Ideal) (fun y : S10000x128.Idx => a (((cfg6.win 0).blk t).view.emb y)) (fun y : S128x40.Idx => b (((cfg6.win 1).blk t).view.emb y)) j
      = matmul6_G a b (((cfg6.win 2).blk t).view.emb j) := by
  obtain ⟨e0, e1, e2, e3, e4, e5⟩ := matmul6_index_facts t
  refine (matmul6_pay _ _ j).trans ?_
  refine Finset.sum_congr rfl fun k _ => ?_
  show a (((cfg6.win 0).blk t).view.emb (ValueIdx.ix2 (j 0) k)) * b (((cfg6.win 1).blk t).view.emb (ValueIdx.ix2 k (j 1)))
    = a (ValueIdx.ix2 ((((cfg6.win 2).blk t).view.emb j) 0) k) * b (ValueIdx.ix2 k ((((cfg6.win 2).blk t).view.emb j) 1))
  have h0 : ((cfg6.win 0).blk t).view.emb (ValueIdx.ix2 (j 0) k) = ValueIdx.ix2 ((((cfg6.win 2).blk t).view.emb j) 0) k := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 128 + 1 * k.val = k.val; omega
  have h1 : ((cfg6.win 1).blk t).view.emb (ValueIdx.ix2 k (j 1)) = ValueIdx.ix2 k ((((cfg6.win 2).blk t).view.emb j) 1) := by
    funext a; apply Fin.ext
    match a with
    | ⟨0, _⟩ => show win6_1.index t (0 : Fin 2) * 128 + 1 * k.val = k.val; omega
    | ⟨1, _⟩ => show win6_1.index t (1 : Fin 2) * 40 + 1 * (j 1).val = win6_2.index t (1 : Fin 2) * 40 + 1 * (j 1).val; omega
  exact congrArg₂ (· * ·) (congrArg a h0) (congrArg b h1)

/-- What point t writes back is block t of the whole-array product of the two input arrays as the region finds them. -/
theorem matmul6_flushed (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal) (matmul6_G (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero matmul6_zero_offsets]
  simp only [View.ld_unit_zero (S := S10000x128) matmul6_zero_offsets, View.ld_unit_zero (S := S128x40) matmul6_zero_offsets]
  funext j
  exact matmul6_block (V c (Pipeline.arrRef spec6 0)) (V c (Pipeline.arrRef spec6 1)) t j

/-- An index of the array is in point t's block iff each coordinate is in the block's range on its axis. -/
theorem matmul6_mem_blk (t : Fin cfg6.N) (i : S170000x40.Idx) :
    i ∈ ((cfg6.win 2).blk t).view.set ↔ ∀ a : Fin 2, win6_2.index t a * S10000x40.size a ≤ (i a).val ∧ (i a).val < win6_2.index t a * S10000x40.size a + S10000x40.size a := by
  show i ∈ ((View.whole main_v88).slice (win6_2.rect t)).set ↔ _
  rw [View.set_slice_whole, Rect.mem_set_unit]
  exact Iff.rfl

/-- The 17 blocks of 10000 rows cover all 170000 rows: the point that covers row r is the one whose row block is r / 10000. -/
theorem matmul6_cover (i : S170000x40.Idx) :
    ∃ t : Fin cfg6.N, (cfg6.win 2).flush t = true ∧ i ∈ ((cfg6.win 2).blk t).view.set := by
  have hi0 : (i 0).val < 170000 := (i 0).isLt
  have hi1 : (i 1).val < 40 := (i 1).isLt
  obtain ⟨t, ht⟩ := matmul6_index_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [matmul6_mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 40 ≤ (i 1).val ∧ (i 1).val < win6_2.index t (1 : Fin 2) * 40 + 40; omega

/-- The output array after the region: the whole-array product of the two input arrays as the region finds them. -/
theorem matmul6_array (V : (c : Dev nD) → (b : Ref sig .tc) → Buf (Elt Ideal) ((c : Thread nD τ).loc b)) (c : Dev nD) :
    (dat6 (F := Ideal) V c).arrAt 2 cfg6.N = matmul6_G (V c (Pipeline.arrRef spec6 0)) (V c (Pipeline.arrRef spec6 1)) :=
  (dat6 (F := Ideal) V c).arrAt_eq_of_cover 2 _ (fun t _ => matmul6_flushed V c t) matmul6_cover

end Cert.KernelIdeal.RegionValue

end
-- ==== Proof.ChainOut.lean ====
/-
  The output of the idealized kernel program. The last kernel region multiplies the second layer's activations by the
  third weight matrix (each output entry the sum over the 128 hidden channels), which is the reference's matrix
  product once the activations are the reference's; the host operations after it gather the source rows, weight them
  by the edge weights, add them into the target rows and add the last bias to every row — the same operations, on the
  same operands, as the reference's.
-/
import proofs.«154786_j4337916969345_1_alg».proof.Proof.ChainWeights
import proofs.«154786_j4337916969345_1_alg».proof.Proof.Matmul6

noncomputable section

namespace Cert.KernelIdeal.ValueChain

open Cert.KernelIdeal Cert.KernelIdeal.Gen
open Idealize.ShloMosaic Idealize.ShloMosaic.TcCoe Idealize.SL.Sem Idealize.ShloMosaic.StableHlo

/-- The product of a 170000×128 array of activations with a 128×40 matrix, entry by entry, is the reference's
    `dot_general` of the two: both are, at entry (r, c), the sum over k of a (r, k) * b (k, c). -/
theorem matmul6_is_dot (y0 : (⟨S170000x128, .f32⟩ : BufTy).Contents (Elt Ideal)) (y1 : (⟨S2x1200000, .i32⟩ : BufTy).Contents (Elt Ideal))
    (y2 : (⟨S128x128, .f32⟩ : BufTy).Contents (Elt Ideal)) (y3 y4 y5 : (⟨S128, .f32⟩ : BufTy).Contents (Elt Ideal))
    (y6 : (⟨S128x128, .f32⟩ : BufTy).Contents (Elt Ideal)) (y7 y8 y9 : (⟨S128, .f32⟩ : BufTy).Contents (Elt Ideal))
    (y10 : (⟨S128x40, .f32⟩ : BufTy).Contents (Elt Ideal)) :
    RegionValue.matmul6_G (Cert.ReferenceIdeal.ReadP.val_main_v115 (F := Ideal) y0 y1 y2 y3 y4 y5 y6 y7 y8 y9) y10
      = Cert.ReferenceIdeal.ReadP.val_main_v116 (F := Ideal) y0 y1 y2 y3 y4 y5 y6 y7 y8 y9 y10 := by
  funext i
  rw [Cert.ReferenceIdeal.ReadP.val_main_v116_apply]
  refine Finset.sum_congr rfl fun k _ => ?_
  have el : ValueIdx.ix2 (i 0) k = Cert.ReferenceIdeal.ReadP.lidx_main_v116 i k :=
    funext fun d => Fin.ext (by match d with | ⟨0, _⟩ => rfl | ⟨1, _⟩ => rfl)
  have er : ValueIdx.ix2 k (i 1) = Cert.ReferenceIdeal.ReadP.ridx_main_v116 i k :=
    funext fun d => Fin.ext (by match d with | ⟨0, _⟩ => rfl | ⟨1, _⟩ => rfl)
  exact congrArg₂ (· * ·) (congrArg (Cert.ReferenceIdeal.ReadP.val_main_v115 (F := Ideal) y0 y1 y2 y3 y4 y5 y6 y7 y8 y9) el) (congrArg y10 er)

variable (m : (ℓ : Loc nD τ sig) → Buf (Elt Ideal) ℓ) (ρ : Dev nD → PrngReg) (c : Dev nD)

/-- After the last region its output array holds the reference's third matrix product, given that the region's left
    input (the second layer's activations) holds the reference's. -/
theorem mm_at14 (h87 : W13 m ρ c (Proc.devRef .tc main_v87) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W14 m ρ c (Proc.devRef .tc main_v88) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h1 : V13 m ρ c (Pipeline.arrRef spec6 1) = (m ((c : Thread nD τ).loc main_arg10)) :=
    (from13 m ρ c main_arg10 (by decide) (by decide) (by decide) (by decide) (by decide) (by decide) (by decide) (by decide) (by decide) (by decide)).trans
      (launch3 m ρ c main_arg10 (by decide) (by decide) (by decide))
  exact (W14_arr m ρ c 2).trans ((RegionValue.matmul6_array (V13 m ρ) c).trans
    ((congrArg₂ RegionValue.matmul6_G h87 h1).trans (matmul6_is_dot _ _ _ _ _ _ _ _ _ _ _)))

/-- The result: the last aggregation plus the last bias, the reference's. -/
theorem out_at15 (h87 : W13 m ρ c (Proc.devRef .tc main_v87) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W15 m ρ c (Proc.devRef .tc main_v104) = Cert.ReferenceIdeal.ReadP.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps7 (W14 m ρ c) (Proc.devRef .tc main_v104) = _
  after_results_simp
  rw [from14 m ρ c main_v3 (by decide) (by decide) (by decide) (by decide) (by decide) (by decide) (by decide) (by decide) (by decide) (by decide) (by decide), src_at3,
    from14 m ρ c main_v6 (by decide) (by decide) (by decide) (by decide) (by decide) (by decide) (by decide) (by decide) (by decide) (by decide) (by decide), dst_at3,
    from14 m ρ c main_v29 (by decide) (by decide) (by decide) (by decide) (by decide) (by decide) (by decide) (by decide) (by decide) (by decide) (by decide), weight_at3,
    from14 m ρ c main_arg11 (by decide) (by decide) (by decide) (by decide) (by decide) (by decide) (by decide) (by decide) (by decide) (by decide) (by decide),
    launch3 m ρ c main_arg11 (by decide) (by decide) (by decide),
    mm_at14 m ρ c h87]
  rfl

end Cert.KernelIdeal.ValueChain

end
-- ==== Proof.FiniteArgs.lean ====
/-
  From the precondition to real entries. The precondition is, for each of the eleven float arguments a,
  the all-axes conjunction of (|a i| < +inf) and the running conjunction of these eleven bits, stated equal to 1.
  At extended reals |x| = max x (-x) and +inf is the top element: |x| < top excludes top (x = top) and bottom
  (-x = top), so x is the image of a real number.
-/
import proofs.«154786_j4337916969345_1_alg».proof.Defs
import Idealize.ShloMosaic.Lib.ReduceAll
import Idealize.ShloMosaic.Lib.ValueIdx
import Idealize.ShloMosaic.PureOps.Ideal

noncomputable section

namespace Cert.FiniteArgs

open Idealize.ShloMosaic
open Cert.Pre_finite_inputs

/-- The rank-0 shape has one index. -/
instance subsingleton_S_ : Subsingleton S_.Idx := ⟨fun a b => funext fun d => d.elim0⟩

/-- The pattern 0x7F800000 denotes the top element. -/
theorem inf_eq_top : Ideal.ofBits .f32 0x7F800000#32 = (⊤ : EReal) := by
  simp [Ideal.ofBits, Ideal.ieee]

/-- One element: |x| < +inf makes x a real number. -/
theorem real_of_abs_lt_inf (x : EReal)
    (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | top => simp [Ideal.cmp] at h
  | coe r => exact ⟨r, rfl⟩

/-- One argument: its all-axes conjunction of (|a i| < +inf) equal to 1 makes every entry a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32)))
          init hr hu j = 1#1) :
    ∀ i, ∃ r : ℝ, a i = (r : EReal) := fun i =>
  real_of_abs_lt_inf (a i) (Host.reduce_andi_all _ init hr hu j e i)

/-- The precondition decoded: every entry of each of the eleven float arguments is a real number. -/
theorem real_of_finite_inputs [Facts]
    (a0 : FVec Ideal S170000x128 .f32) (a1 : IVec S2x1200000 32) (a2 : FVec Ideal S128x128 .f32)
    (a3 : FVec Ideal S128 .f32) (a4 : FVec Ideal S128 .f32) (a5 : FVec Ideal S128 .f32)
    (a6 : FVec Ideal S128x128 .f32) (a7 : FVec Ideal S128 .f32) (a8 : FVec Ideal S128 .f32)
    (a9 : FVec Ideal S128 .f32) (a10 : FVec Ideal S128x40 .f32) (a11 : FVec Ideal S40 .f32)
    (h : fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) := by
  have e := congrFun h ValueIdx.ix0
  dsimp only [fn, fn_part1, fn_part2, fn_part3, andi] at e
  simp only [IntOp.andi_eq_one] at e
  obtain ⟨⟨⟨⟨⟨⟨⟨⟨⟨⟨e0, e2⟩, e3⟩, e4⟩, e5⟩, e6⟩, e7⟩, e8⟩, e9⟩, e10⟩, e11⟩ := e
  exact ⟨real_of_all a0 _ _ _ _ _ e0, real_of_all a2 _ _ _ _ _ e2, real_of_all a3 _ _ _ _ _ e3,
    real_of_all a4 _ _ _ _ _ e4, real_of_all a5 _ _ _ _ _ e5, real_of_all a6 _ _ _ _ _ e6,
    real_of_all a7 _ _ _ _ _ e7, real_of_all a8 _ _ _ _ _ e8, real_of_all a9 _ _ _ _ _ e9,
    real_of_all a10 _ _ _ _ _ e10, real_of_all a11 _ _ _ _ _ e11⟩

end Cert.FiniteArgs

end
-- ==== Proof.KernelValue.lean ====
/-
  The idealized kernel program computes the reference's result. The precondition says every entry of the eleven float
  arguments is finite, that is, a real number. Finite sums and products of real numbers are real, so every
  pre-activation of both normalized layers — features times weights, gathered along the edges, weighted, summed into
  rows, shifted by a bias — is a real number. On real pre-activations the variance taken from the two running sums,
  E[a²] − (E a)², is the variance taken from the squared deviations, E[(a − E a)²]: the kernel program's normalization
  (one pass over the rows) and the reference's (two passes) are then the same function, at the first layer and, its
  input being the first layer's output, at the second. The last stage — a matrix product, the aggregation along the
  edges and a bias — is the same operations on the same operands. Hence the kernel program's result array is the
  reference's last stage, as a function of the argument arrays.
-/
import proofs.«154786_j4337916969345_1_alg».proof.Proof.ChainLayer1b
import proofs.«154786_j4337916969345_1_alg».proof.Proof.ChainLayer2b
import proofs.«154786_j4337916969345_1_alg».proof.Proof.ChainOut
import proofs.«154786_j4337916969345_1_alg».proof.Proof.FiniteArgs

noncomputable section

namespace Cert.KernelIdeal.ValueChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)
set_option quotPrecheck false in
local notation "x6" => m ((c : Thread nD τ).loc main_arg6)
set_option quotPrecheck false in
local notation "x7" => m ((c : Thread nD τ).loc main_arg7)
set_option quotPrecheck false in
local notation "x8" => m ((c : Thread nD τ).loc main_arg8)
set_option quotPrecheck false in
local notation "x9" => m ((c : Thread nD τ).loc main_arg9)
set_option quotPrecheck false in
local notation "x10" => m ((c : Thread nD τ).loc main_arg10)
set_option quotPrecheck false in
local notation "x11" => m ((c : Thread nD τ).loc main_arg11)

/-- THE RESULT. With finite arguments, the array the kernel program returns is the reference's result: every
    pre-activation of the two normalized layers is a real number (finite sums of products of real numbers), so at each
    of them the one-pass variance E[a²] − (E a)² is the two-pass variance E[(a − E a)²], and the layers, then the
    output stage, agree one after the other. -/
theorem result_eq [Cert.Pre_finite_inputs.Facts]
    (hpre : Cert.Pre_finite_inputs.fn (F := Ideal) x0 x1 x2 x3 x4 x5 x6 x7 x8 x9 x10 x11 = fun _ => 1#1) :
    W15 m ρ c (Proc.devRef .tc main_v104)
      = Cert.ReferenceIdeal.ReadP.val_main_v132 (F := Ideal) x0 x1 x2 x3 x4 x5 x6 x7 x8 x9 x10 x11 := by
  -- every entry of every float argument is a real number
  obtain ⟨h0, h2, h3, h4, h5, h6, h7, h8, h9, h10, h11⟩ :=
    Cert.FiniteArgs.real_of_finite_inputs x0 x1 x2 x3 x4 x5 x6 x7 x8 x9 x10 x11 hpre
  -- hence so is every pre-activation of the first and of the second normalized layer
  have r46 : ∀ i, GcnAlgebra.IsReal (Cert.ReferenceIdeal.ReadP.val_main_v46 (F := Ideal) x0 x1 x2 x3 i) :=
    fun i => Cert.ReferenceIdeal.RefLayers.isReal_v46 x0 x1 x2 x3 h0 h2 h3 i
  have r89 : ∀ i, GcnAlgebra.IsReal (Cert.ReferenceIdeal.ReadP.val_main_v89 (F := Ideal) x0 x1 x2 x3 x4 x5 x6 x7 i) :=
    fun i => Cert.ReferenceIdeal.RefLayers.isReal_v89 x0 x1 x2 x3 x4 x5 x6 x7 h0 h2 h3 h4 h5 h6 h7 i
  -- first layer, then the second on its output, then the output stage
  exact out_at15 m ρ c (relu2_at13 m ρ c (relu1_at8 m ρ c r46) r89)

end Cert.KernelIdeal.ValueChain

end
-- ==== Proof.lean ====
/-
  Three stacked graph-convolution layers (gather the source rows, weight each by the product of the endpoints' inverse
  square-root degrees, add into the target rows), the first two followed by a batch normalization over the 170000 nodes
  and a clamp at zero. The kernel program runs the three dense products, the two statistics passes and the two
  normalize-and-clamp passes as kernel regions and everything else on the host; the reference is plain array code.

  At the ideal instance the two agree entry by entry:
    • a blocked product with a zero accumulator is the whole product (each output row depends on its own input row);
    • the host operations around the regions are the reference's own, applied to equal operands;
    • the kernel's variance  (Σ a²)/N − ((Σ a)/N)²  is the reference's  Σ (a − mean)² / N  — the one place where the
      precondition is used: the law holds for real numbers, and with finite inputs every pre-activation is real
      (sums and products of reals; the weights are inverse square roots of positive degrees or zero; an inverse deviation
      is the inverse square root of a nonnegative variance plus a positive ε).
  The kernel's idealization rewrote nothing, so `preserves` is trivial; the frames are the generated ones, the reference's
  its run with the result dropped.
-/
import proofs.«154786_j4337916969345_1_alg».proof.Defs
import proofs.«154786_j4337916969345_1_alg».proof.Proof.Gen.Kernel
import proofs.«154786_j4337916969345_1_alg».proof.Proof.Gen.Kernel.Skeleton
import proofs.«154786_j4337916969345_1_alg».proof.Proof.Gen.Kernel.Launch
import proofs.«154786_j4337916969345_1_alg».proof.Proof.Gen.Kernel.Points
import proofs.«154786_j4337916969345_1_alg».proof.Proof.Gen.Kernel.Frame
import proofs.«154786_j4337916969345_1_alg».proof.Proof.Gen.KernelIdeal
import proofs.«154786_j4337916969345_1_alg».proof.Proof.Gen.KernelIdeal.Skeleton
import proofs.«154786_j4337916969345_1_alg».proof.Proof.Gen.KernelIdeal.Launch
import proofs.«154786_j4337916969345_1_alg».proof.Proof.Gen.KernelIdeal.Points
import proofs.«154786_j4337916969345_1_alg».proof.Proof.Gen.KernelIdeal.Frame
import proofs.«154786_j4337916969345_1_alg».proof.Proof.Gen.ReferenceIdeal
import proofs.«154786_j4337916969345_1_alg».proof.Proof.Gen.Pre_finite_inputs
import proofs.«154786_j4337916969345_1_alg».proof.Proof.KernelRun
import proofs.«154786_j4337916969345_1_alg».proof.Proof.KernelValue
import Idealize.ShloMosaic.Adequacy
import Idealize.ShloMosaic.Init

noncomputable section

namespace Cert.Proof

open Idealize.ShloMosaic Idealize.SL.Sem Cert.Kernel

/-- The printed kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- Both programs end at the reference's last stage of the (agreeing) arguments. -/
theorem algebraic : Cert.algebraic_KernelIdeal_ReferenceIdeal := by
  intro m ρ m' ρ' hpre hagree
  refine ⟨fun c => Cert.ReferenceIdeal.ReadP.val_main_v132 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.ValueChain.result_eq m ρ c (hpre c)), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v132_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
